-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg20 : FVec F S2 .f32) (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  let main_v89 : FVec F S2 .f32 := Host.absf main_arg20
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg16 : FVec F S64 .f32) (main_arg17 : FVec F S64x128 .f32) (main_arg18 : FVec F S64 .f32) (main_arg19 : FVec F S2x64 .f32) (main_arg20 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg17
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S2x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64x128 .f32) (main_arg14 : FVec F S64 .f32) (main_arg15 : FVec F S64x128 .f32) (main_arg16 : FVec F S64 .f32) (main_arg17 : FVec F S64x128 .f32) (main_arg18 : FVec F S64 .f32) (main_arg19 : FVec F S2x64 .f32) (main_arg20 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S64x128 .f32) (main_arg12 : FVec F S64 .f32) (main_arg13 : FVec F S64x128 .f32) (main_arg14 : FVec F S64 .f32) (main_arg15 : FVec F S64x128 .f32) (main_arg16 : FVec F S64 .f32) (main_arg17 : FVec F S64x128 .f32) (main_arg18 : FVec F S64 .f32) (main_arg19 : FVec F S2x64 .f32) (main_arg20 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_arg13 : FVec F S64x128 .f32) (main_arg14 : FVec F S64 .f32) (main_arg15 : FVec F S64x128 .f32) (main_arg16 : FVec F S64 .f32) (main_arg17 : FVec F S64x128 .f32) (main_arg18 : FVec F S64 .f32) (main_arg19 : FVec F S2x64 .f32) (main_arg20 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_arg13 : FVec F S64x128 .f32) (main_arg14 : FVec F S64 .f32) (main_arg15 : FVec F S64x128 .f32) (main_arg16 : FVec F S64 .f32) (main_arg17 : FVec F S64x128 .f32) (main_arg18 : FVec F S64 .f32) (main_arg19 : FVec F S2x64 .f32) (main_arg20 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S512x128 : Shape := ⟨2, ![512, 128]⟩
abbrev S512 : Shape := ⟨1, ![512]⟩
abbrev S50000x384 : Shape := ⟨2, ![50000, 384]⟩
abbrev S5000x128 : Shape := ⟨2, ![5000, 128]⟩
abbrev S5000x384 : Shape := ⟨2, ![5000, 384]⟩
abbrev S128x512 : Shape := ⟨2, ![128, 512]⟩
abbrev S5000x512 : Shape := ⟨2, ![5000, 512]⟩
abbrev S1x512 : Shape := ⟨2, ![1, 512]⟩
abbrev S_ : Shape := ⟨0, ![]⟩
abbrev S800000x1 : Shape := ⟨2, ![800000, 1]⟩
abbrev S800000x128 : Shape := ⟨2, ![800000, 128]⟩
abbrev S256x128 : Shape := ⟨2, ![256, 128]⟩
abbrev S256 : Shape := ⟨1, ![256]⟩
abbrev S50000x192 : Shape := ⟨2, ![50000, 192]⟩
abbrev S50000x64 : Shape := ⟨2, ![50000, 64]⟩
abbrev S5000x192 : Shape := ⟨2, ![5000, 192]⟩
abbrev S5000x64 : Shape := ⟨2, ![5000, 64]⟩
abbrev S128x256 : Shape := ⟨2, ![128, 256]⟩
abbrev S5000x256 : Shape := ⟨2, ![5000, 256]⟩
abbrev S1x256 : Shape := ⟨2, ![1, 256]⟩
abbrev S800000x64 : Shape := ⟨2, ![800000, 64]⟩
abbrev S64x64 : Shape := ⟨2, ![64, 64]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 156
  | .vmem => 16
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S64x128, .f32⟩
  | 12 => ⟨S64, .f32⟩
  | 13 => ⟨S64x128, .f32⟩
  | 14 => ⟨S64, .f32⟩
  | 15 => ⟨S64x128, .f32⟩
  | 16 => ⟨S64, .f32⟩
  | 17 => ⟨S64x128, .f32⟩
  | 18 => ⟨S64, .f32⟩
  | 19 => ⟨S2x64, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S512x128, .f32⟩
  | 26 => ⟨S512, .f32⟩
  | 27 => ⟨S50000x384, .bf16⟩
  | 28 => ⟨S50000x128, .f32⟩
  | 29 => ⟨S50000x128, .bf16⟩
  | 30 => ⟨S50000x128, .bf16⟩
  | 31 => ⟨S50000x128, .bf16⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .bf16⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .bf16⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .bf16⟩
  | 59 => ⟨S800000x128, .f32⟩
  | 60 => ⟨S800000x128, .f32⟩
  | 61 => ⟨S800000x128, .f32⟩
  | 62 => ⟨S800000x128, .f32⟩
  | 63 => ⟨S800000x128, .f32⟩
  | 64 => ⟨S_, .f32⟩
  | 65 => ⟨S800000x128, .f32⟩
  | 66 => ⟨S800000x128, .f32⟩
  | 67 => ⟨S_, .f32⟩
  | 68 => ⟨S800000x128, .f32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S256x128, .f32⟩
  | 81 => ⟨S256, .f32⟩
  | 82 => ⟨S50000x192, .bf16⟩
  | 83 => ⟨S50000x64, .f32⟩
  | 84 => ⟨S50000x64, .bf16⟩
  | 85 => ⟨S50000x64, .bf16⟩
  | 86 => ⟨S50000x64, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .bf16⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .bf16⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .bf16⟩
  | 114 => ⟨S800000x64, .f32⟩
  | 115 => ⟨S800000x64, .f32⟩
  | 116 => ⟨S800000x64, .f32⟩
  | 117 => ⟨S800000x64, .f32⟩
  | 118 => ⟨S800000x64, .f32⟩
  | 119 => ⟨S_, .f32⟩
  | 120 => ⟨S800000x64, .f32⟩
  | 121 => ⟨S800000x64, .f32⟩
  | 122 => ⟨S_, .f32⟩
  | 123 => ⟨S800000x64, .f32⟩
  | 124 => ⟨S800000x64, .f32⟩
  | 125 => ⟨S800000x64, .f32⟩
  | 126 => ⟨S800000x64, .f32⟩
  | 127 => ⟨S_, .f32⟩
  | _ => ⟨S50000x128, .f32⟩

abbrev hbmTy0_1 (i : Nat) : BufTy := match i % 128 with
  | 0 => ⟨S50000x64, .f32⟩
  | 1 => ⟨S800000x1, .i32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S_, .f32⟩
  | 8 => ⟨S64x64, .f32⟩
  | 9 => ⟨S50000x1, .i32⟩
  | 10 => ⟨S64x64, .f32⟩
  | 11 => ⟨S_, .f32⟩
  | 12 => ⟨S50000, .f32⟩
  | 13 => ⟨S_, .f32⟩
  | 14 => ⟨S64, .f32⟩
  | 15 => ⟨S50000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x64, .f32⟩
  | 22 => ⟨S64x64, .f32⟩
  | 23 => ⟨S64x2, .f32⟩
  | 24 => ⟨S64x2, .f32⟩
  | 25 => ⟨S1x2, .f32⟩
  | 26 => ⟨S64x2, .f32⟩
  | 27 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S512x128, .f32⟩
  | .local _ .vmem, ⟨3, _⟩ => ⟨S512, .f32⟩
  | .local _ .vmem, ⟨4, _⟩ => ⟨S5000x384, .bf16⟩
  | .local _ .vmem, ⟨5, _⟩ => ⟨S5000x384, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S256x128, .f32⟩
  | .local _ .vmem, ⟨11, _⟩ => ⟨S256, .f32⟩
  | .local _ .vmem, ⟨12, _⟩ => ⟨S5000x192, .bf16⟩
  | .local _ .vmem, ⟨13, _⟩ => ⟨S5000x192, .bf16⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_3 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call0_cst : Ref sig .tc := ⟨.hbm, 77, rfl⟩
abbrev main_call0_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_7 : Ref sig .tc := ⟨.hbm, 87, rfl⟩
abbrev main_v53 : Ref sig .tc := ⟨.hbm, 88, rfl⟩
abbrev main_v54 : Ref sig .tc := ⟨.hbm, 89, rfl⟩
abbrev main_c_8 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_9 : Ref sig .tc := ⟨.hbm, 96, rfl⟩
abbrev main_v60 : Ref sig .tc := ⟨.hbm, 97, rfl⟩
abbrev main_v61 : Ref sig .tc := ⟨.hbm, 98, rfl⟩
abbrev main_c_10 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_v79 : Ref sig .tc := ⟨.hbm, 120, rfl⟩
abbrev main_v80 : Ref sig .tc := ⟨.hbm, 121, rfl⟩
abbrev main_cst_14 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_15 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call1_cst : Ref sig .tc := ⟨.hbm, 132, rfl⟩
abbrev main_call1_v0 : Ref sig .tc := ⟨.hbm, 133, rfl⟩
abbrev main_v89 : Ref sig .tc := ⟨.hbm, 134, rfl⟩
abbrev main_cst_16 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_17 : Ref sig .tc := ⟨.hbm, 139, rfl⟩
abbrev main_v93 : Ref sig .tc := ⟨.hbm, 140, rfl⟩
abbrev main_cst_18 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_19 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S5000x512 : S1x512.Broadcasts S5000x512
  slices_S5000x512_o0_0_S5000x384 : S5000x512.Slices ![0, 0] S5000x384
  inb_S5000x384_S5000x384_0_0 : ∀ a, (![0, 0] : Fin 2 → Nat) a + S5000x384.size a ≤ S5000x384.size a
  h_S5000x384 : 0 < S5000x384.numel
  packedbf16_S5000x384_S5000x384_0_0 : (Rect.unit (s := S5000x384) ![0, 0] S5000x384.size inb_S5000x384_S5000x384_0_0).PackedRows (EltTy.packing .bf16)
  slices_S5000x512_o0_384_S5000x128 : S5000x512.Slices ![0, 384] S5000x128
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  concatenates_S64x128_S64x128_S64x128_S64x128_S256x128_d0 : Shape.Concatenates [S64x128, S64x128, S64x128, S64x128] S256x128 0
  concatenates_S64_S64_S64_S64_S256_d0 : Shape.Concatenates [S64, S64, S64, S64] S256 0
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  slices_S5000x256_o0_0_S5000x192 : S5000x256.Slices ![0, 0] S5000x192
  inb_S5000x192_S5000x192_0_0 : ∀ a, (![0, 0] : Fin 2 → Nat) a + S5000x192.size a ≤ S5000x192.size a
  h_S5000x192 : 0 < S5000x192.numel
  packedbf16_S5000x192_S5000x192_0_0 : (Rect.unit (s := S5000x192) ![0, 0] S5000x192.size inb_S5000x192_S5000x192_0_0).PackedRows (EltTy.packing .bf16)
  slices_S5000x256_o0_192_S5000x64 : S5000x256.Slices ![0, 192] S5000x64
  inb_S5000x64_S5000x64_0_0 : ∀ a, (![0, 0] : Fin 2 → Nat) a + S5000x64.size a ≤ S5000x64.size a
  h_S5000x64 : 0 < S5000x64.numel
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S800000x64 : S_.BroadcastsInDim S800000x64 (![] : Fin 0 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S2x64_S64x2_1_0 : S2x64.Transposes [1, 0] S64x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S5000x128_S128x512_S5000x512_1_0_0_1_n_n_wf : DotDims.WF S5000x128 S128x512 S5000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .bf16 = 32 ∨ (Rect.block (s := S50000x384) S5000x384.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x192.size a ≤ S50000x192.size a
  hwx1_3 : ∀ i : grid1.Coords, EltTy.bits .bf16 = 32 ∨ (Rect.block (s := S50000x192) S5000x192.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S5000x384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49_0) S5000x192.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S64x64 : Shape := ⟨2, ![64, 64]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S64x128, .f32⟩
  | 12 => ⟨S64, .f32⟩
  | 13 => ⟨S64x128, .f32⟩
  | 14 => ⟨S64, .f32⟩
  | 15 => ⟨S64x128, .f32⟩
  | 16 => ⟨S64, .f32⟩
  | 17 => ⟨S64x128, .f32⟩
  | 18 => ⟨S64, .f32⟩
  | 19 => ⟨S2x64, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S128x128, .f32⟩
  | 26 => ⟨S50000x128, .f32⟩
  | 27 => ⟨S1x128, .f32⟩
  | 28 => ⟨S50000x128, .f32⟩
  | 29 => ⟨S50000x128, .f32⟩
  | 30 => ⟨S128x128, .f32⟩
  | 31 => ⟨S50000x128, .f32⟩
  | 32 => ⟨S1x128, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S800000x128, .f32⟩
  | 61 => ⟨S_, .f32⟩
  | 62 => ⟨S800000x128, .f32⟩
  | 63 => ⟨S800000x128, .f32⟩
  | 64 => ⟨S_, .f32⟩
  | 65 => ⟨S800000x128, .f32⟩
  | 66 => ⟨S800000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S128x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S128x64, .f32⟩
  | 91 => ⟨S50000x64, .f32⟩
  | 92 => ⟨S1x64, .f32⟩
  | 93 => ⟨S50000x64, .f32⟩
  | 94 => ⟨S50000x64, .f32⟩
  | 95 => ⟨S128x64, .f32⟩
  | 96 => ⟨S50000x64, .f32⟩
  | 97 => ⟨S1x64, .f32⟩
  | 98 => ⟨S50000x64, .f32⟩
  | 99 => ⟨S50000x64, .f32⟩
  | 100 => ⟨S128x64, .f32⟩
  | 101 => ⟨S50000x64, .f32⟩
  | 102 => ⟨S1x64, .f32⟩
  | 103 => ⟨S50000x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x64, .f32⟩
  | 124 => ⟨S800000x64, .f32⟩
  | 125 => ⟨S800000x64, .f32⟩
  | 126 => ⟨S_, .f32⟩
  | 127 => ⟨S800000x64, .f32⟩
  | _ => ⟨S50000x128, .f32⟩

abbrev hbmTy0_1 (i : Nat) : BufTy := match i % 128 with
  | 0 => ⟨S800000x64, .f32⟩
  | 1 => ⟨S_, .f32⟩
  | 2 => ⟨S800000x64, .f32⟩
  | 3 => ⟨S800000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S128x64, .f32⟩
  | 19 => ⟨S50000x64, .f32⟩
  | 20 => ⟨S1x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .f32⟩
  | 28 => ⟨S64x64, .f32⟩
  | 29 => ⟨S50000x1, .i32⟩
  | 30 => ⟨S64x64, .f32⟩
  | 31 => ⟨S_, .f32⟩
  | 32 => ⟨S50000, .f32⟩
  | 33 => ⟨S_, .f32⟩
  | 34 => ⟨S64, .f32⟩
  | 35 => ⟨S50000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x64, .f32⟩
  | 42 => ⟨S64x64, .f32⟩
  | 43 => ⟨S64x2, .f32⟩
  | 44 => ⟨S64x2, .f32⟩
  | 45 => ⟨S1x2, .f32⟩
  | 46 => ⟨S64x2, .f32⟩
  | 47 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_c_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call0_cst : Ref sig .tc := ⟨.hbm, 87, rfl⟩
abbrev main_call0_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_7 : Ref sig .tc := ⟨.hbm, 105, rfl⟩
abbrev main_v73 : Ref sig .tc := ⟨.hbm, 106, rfl⟩
abbrev main_v74 : Ref sig .tc := ⟨.hbm, 107, rfl⟩
abbrev main_c_8 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_9 : Ref sig .tc := ⟨.hbm, 114, rfl⟩
abbrev main_v80 : Ref sig .tc := ⟨.hbm, 115, rfl⟩
abbrev main_v81 : Ref sig .tc := ⟨.hbm, 116, rfl⟩
abbrev main_c_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_11 : Ref sig .tc := ⟨.hbm, 126, rfl⟩
abbrev main_v90 : Ref sig .tc := ⟨.hbm, 127, rfl⟩
abbrev main_v91 : Ref sig .tc := ⟨.hbm, 128, rfl⟩
abbrev main_cst_12 : Ref sig .tc := ⟨.hbm, 129, rfl⟩
abbrev main_v92 : Ref sig .tc := ⟨.hbm, 130, rfl⟩
abbrev main_v93 : Ref sig .tc := ⟨.hbm, 131, rfl⟩
abbrev main_c_13 : Ref sig .tc := ⟨.hbm, 132, rfl⟩
abbrev main_v94 : Ref sig .tc := ⟨.hbm, 133, rfl⟩
abbrev main_v95 : Ref sig .tc := ⟨.hbm, 134, rfl⟩
abbrev main_c_14 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_15 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call1_cst : Ref sig .tc := ⟨.hbm, 152, rfl⟩
abbrev main_call1_v0 : Ref sig .tc := ⟨.hbm, 153, rfl⟩
abbrev main_v111 : Ref sig .tc := ⟨.hbm, 154, rfl⟩
abbrev main_cst_16 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_17 : Ref sig .tc := ⟨.hbm, 159, rfl⟩
abbrev main_v115 : Ref sig .tc := ⟨.hbm, 160, rfl⟩
abbrev main_cst_18 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_19 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S2x64_S64x2_1_0 : S2x64.Transposes [1, 0] S64x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.K.Defs.lean ====
/-
  The two projection kernels, one grid point at a time.  Each of the program's two kernel regions runs the same
  body on a grid of ten row blocks: it reads a block of 5000 rows of the node features, the whole stacked weight
  matrix and the whole stacked bias, forms (rows · weightsᵀ + bias), and writes the leading columns (keys, queries,
  values side by side) into the first output block and the trailing columns (the skip term) into the second.
  This module names, for any contents `V` the region is entered with, the block each window holds at a grid point,
  what the body leaves in each output block as a function of the three input blocks, and the pipeline's proof data
  built from them.  Nothing is proved about the body here.
-/
import proofs.«104849_j8564164788984_2_alg».proof.Proof.Gen.Kernel.Launch
import proofs.«104849_j8564164788984_2_alg».proof.Proof.Gen.Kernel.Skeleton
import proofs.«104849_j8564164788984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-! ## First region: 128 input features to 4 × 128 stacked outputs -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body reads and writes through. -/
abbrev rX0 : Rect S5000x128 := Rect.unit (s := S5000x128) ![0, 0] S5000x128.size inb_S5000x128_S5000x128_0_0
abbrev rW0 : Rect S512x128 := Rect.unit (s := S512x128) ![0, 0] S512x128.size inb_S512x128_S512x128_0_0
abbrev rB0 : Rect S512 := Rect.unit (s := S512) ![0] S512.size inb_S512_S512_0
abbrev rK0 : Rect S5000x384 := Rect.unit (s := S5000x384) ![0, 0] S5000x384.size inb_S5000x384_S5000x384_0_0
abbrev rS0 : Rect S5000x128 := Rect.unit (s := S5000x128) ![0, 0] S5000x128.size inb_S5000x128_S5000x128_0_0

/-- The keys | queries | values block after the body: one store of the leading 384 columns of rows · weightsᵀ + bias. -/
def out0_3 (x0 : Vec F S5000x128 .f32) (x1 : Vec F S512x128 .f32) (x2 : Vec F S512 .f32) : Vec F S5000x384 .bf16 :=
  View.canon [⟨rK0, k0_pay2 (View.ld x0 rX0) (View.ld x1 rW0) (View.ld x2 rB0)⟩]
/-- The skip block after the body: one store of the trailing 128 columns of rows · weightsᵀ + bias. -/
def out0_4 (x0 : Vec F S5000x128 .f32) (x1 : Vec F S512x128 .f32) (x2 : Vec F S512 .f32) : Vec F S5000x128 .f32 :=
  View.canon [⟨rS0, k0_pay3 (View.ld x0 rX0) (View.ld x1 rW0) (View.ld x2 rB0)⟩]

/-- The first region's proof data on core `c`: the arrays as the region finds them; after the body at point `t` each
    input block in place and each output block at the body's function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## Second region: 128 hidden features to 4 × 64 stacked outputs -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S5000x128 := Rect.unit (s := S5000x128) ![0, 0] S5000x128.size inb_S5000x128_S5000x128_0_0
abbrev rW1 : Rect S256x128 := Rect.unit (s := S256x128) ![0, 0] S256x128.size inb_S256x128_S256x128_0_0
abbrev rB1 : Rect S256 := Rect.unit (s := S256) ![0] S256.size inb_S256_S256_0
abbrev rK1 : Rect S5000x192 := Rect.unit (s := S5000x192) ![0, 0] S5000x192.size inb_S5000x192_S5000x192_0_0
abbrev rS1 : Rect S5000x64 := Rect.unit (s := S5000x64) ![0, 0] S5000x64.size inb_S5000x64_S5000x64_0_0

/-- The keys | queries | values block after the body: the leading 192 columns of rows · weightsᵀ + bias. -/
def out1_3 (x0 : Vec F S5000x128 .f32) (x1 : Vec F S256x128 .f32) (x2 : Vec F S256 .f32) : Vec F S5000x192 .bf16 :=
  View.canon [⟨rK1, k1_pay2 (View.ld x0 rX1) (View.ld x1 rW1) (View.ld x2 rB1)⟩]
/-- The skip block after the body: the trailing 64 columns of rows · weightsᵀ + bias. -/
def out1_4 (x0 : Vec F S5000x128 .f32) (x1 : Vec F S256x128 .f32) (x2 : Vec F S256 .f32) : Vec F S5000x64 .f32 :=
  View.canon [⟨rS1, k1_pay3 (View.ld x0 rX1) (View.ld x1 rW1) (View.ld x2 rB1)⟩]

/-- The second region's proof data on core `c`, in the same form. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

end Cert.Kernel.Hand

end
-- ==== Proof.K.Fold.lean ====
/-
  The contents of every buffer between the items of the program, as a fold from the launch memory.  The program is
  nine items: a stretch of host operations (the edge lists split, the four weight matrices and biases stacked), the
  first projection kernel, three stretches (gather, gate, scatter-add, skip, rectifier; then the second layer's
  stacking), the second projection kernel, and three more stretches (the same message passing, then the pooling over
  graphs and the final linear map).  A host stretch takes the contents to the operations' results; a kernel region
  replaces its five arrays by what its pipeline leaves in them — the inputs as found, each output the write-backs of
  all ten grid points — and touches nothing else.
-/
import proofs.«104849_j8564164788984_2_alg».proof.Proof.K.Defs
import proofs.«104849_j8564164788984_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the first host stretch: the first kernel's entry contents. -/
abbrev W1 : Dev nD → Valuation τ sig (Elt F) := fun c => StableHlo.after hostOps0 (W0 m c)
/-- The same, read at the core's own references (what the first kernel's proof data take). -/
abbrev E1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
/-- After the three host stretches of the first layer's message passing and the second layer's stacking. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- The second kernel's entry contents at the core's own references. -/
abbrev E5 : (c : Dev nD) → (b : Ref sig .tc) → Buf (Elt F) ((c : Thread nD τ).loc b) := fun c b => W5 m c b
/-- At the second kernel's exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
/-- After the three host stretches of the second layer's message passing, the pooling and the final linear map. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)

end Cert.Kernel.Hand

end
-- ==== Proof.K.Body0.lean ====
/-
  The body of the first projection kernel at one grid point.  Whatever the two output blocks held, after the body
  the three input blocks are as they were and each output block is the body's one whole-block store: the leading
  columns of (rows · weightsᵀ + bias) in the first, the trailing columns in the second.  Since the weight and bias
  windows are fetched at the first point only, what an input block holds at a later point is argued from the block
  index not having moved.  The body's run is the symbolic executor's; the rest is bookkeeping of which staging buffer
  holds what.
-/
import proofs.«104849_j8564164788984_2_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's current staging buffer holds its block, fetched at this point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Each output block's one store covers the block -/

theorem storeCover0_3 (p0 : Vec F S5000x384 .bf16) (y : S5000x384.Idx) :
    ∃ pc ∈ ([⟨rK0, p0⟩] : List (View.Piece (Elt F) S5000x384 .bf16)), y ∈ pc.1.set :=
  View.cover_of_tiled [⟨rK0, p0⟩] S5000x384.size (by rfl) y
theorem storeCover0_4 (p0 : Vec F S5000x128 .f32) (y : S5000x128.Idx) :
    ∃ pc ∈ ([⟨rS0, p0⟩] : List (View.Piece (Elt F) S5000x128 .f32)), y ∈ pc.1.set :=
  View.cover_of_tiled [⟨rS0, p0⟩] S5000x128.size (by rfl) y

/-! ## The body's triple -/

set_option maxHeartbeats 4000000 in
/-- On whole staging buffers, the inputs' at contents `x0 x1 x2` and the outputs' at anything, the body runs to the
    continuation with the inputs' as they were and the outputs' at `out0_3`, `out0_4` of the inputs'. -/
theorem sound_kernel0 (c : Dev nD) (E : Set ℕ) (i : grid0.Coords)
    (arg1 : Memref sig .tc .vmem S5000x128 .f32) (harg1 : arg1.IsWhole) (arg2 : Memref sig .tc .vmem S512x128 .f32) (harg2 : arg2.IsWhole)
    (arg3 : Memref sig .tc .vmem S512 .f32) (harg3 : arg3.IsWhole) (arg4 : Memref sig .tc .vmem S5000x384 .bf16) (harg4 : arg4.IsWhole)
    (arg5 : Memref sig .tc .vmem S5000x128 .f32) (harg5 : arg5.IsWhole)
    (x0 : Vec F S5000x128 .f32) (x1 : Vec F S512x128 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__linear_split_kernel i arg1 harg1 arg2 harg2 arg3 harg3 arg4 harg4 arg5 harg5) K := by
  simp only [cc0__linear_split_kernel_eq_skeleton]; unfold cc0__linear_split_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover0_3 _)
  iexists _; isplitr
  swap; · iexact H4
  ipureintro
  exact View.read_writes_eq_canon _ _ _ (storeCover0_4 _)

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The body of the second projection kernel at one grid point.  Whatever the two output blocks held, after the body
  the three input blocks are as they were and each output block is the body's one whole-block store: the leading
  columns of (rows · weightsᵀ + bias) in the first, the trailing columns in the second.  Since the weight and bias
  windows are fetched at the first point only, what an input block holds at a later point is argued from the block
  index not having moved.  The body's run is the symbolic executor's; the rest is bookkeeping of which staging buffer
  holds what.
-/
import proofs.«104849_j8564164788984_2_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's current staging buffer holds its block, fetched at this point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Each output block's one store covers the block -/

theorem storeCover1_3 (p0 : Vec F S5000x192 .bf16) (y : S5000x192.Idx) :
    ∃ pc ∈ ([⟨rK1, p0⟩] : List (View.Piece (Elt F) S5000x192 .bf16)), y ∈ pc.1.set :=
  View.cover_of_tiled [⟨rK1, p0⟩] S5000x192.size (by rfl) y
theorem storeCover1_4 (p0 : Vec F S5000x64 .f32) (y : S5000x64.Idx) :
    ∃ pc ∈ ([⟨rS1, p0⟩] : List (View.Piece (Elt F) S5000x64 .f32)), y ∈ pc.1.set :=
  View.cover_of_tiled [⟨rS1, p0⟩] S5000x64.size (by rfl) y

/-! ## The body's triple -/

set_option maxHeartbeats 4000000 in
/-- On whole staging buffers, the inputs' at contents `x0 x1 x2` and the outputs' at anything, the body runs to the
    continuation with the inputs' as they were and the outputs' at `out1_3`, `out1_4` of the inputs'. -/
theorem sound_kernel1 (c : Dev nD) (E : Set ℕ) (i : grid1.Coords)
    (arg1 : Memref sig .tc .vmem S5000x128 .f32) (harg1 : arg1.IsWhole) (arg2 : Memref sig .tc .vmem S256x128 .f32) (harg2 : arg2.IsWhole)
    (arg3 : Memref sig .tc .vmem S256 .f32) (harg3 : arg3.IsWhole) (arg4 : Memref sig .tc .vmem S5000x192 .bf16) (harg4 : arg4.IsWhole)
    (arg5 : Memref sig .tc .vmem S5000x64 .f32) (harg5 : arg5.IsWhole)
    (x0 : Vec F S5000x128 .f32) (x1 : Vec F S256x128 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__linear_split_kernel i arg1 harg1 arg2 harg2 arg3 harg3 arg4 harg4 arg5 harg5) K := by
  simp only [cc1__linear_split_kernel_eq_skeleton]; unfold cc1__linear_split_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover1_3 _)
  iexists _; isplitr
  swap; · iexact H4
  ipureintro
  exact View.read_writes_eq_canon _ _ _ (storeCover1_4 _)

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging buffers hold their blocks, so the triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as nine segments — host stretches and the two kernel regions — run from the launch memory, and
  what every buffer holds at the end: the fold of Fold.lean.  A host stretch is entered holding every buffer at the
  fold's stage before it and left at the stage after it.  A kernel region takes its five arrays out of the buffers,
  runs its pipeline over the ten grid points on the proof data of Defs.lean (the body obligation is Body0 / Body1),
  and puts the arrays back at what the pipeline leaves; the core's generator register rides through untouched and
  nothing is ever owed between cores.  Since no host operation writes an argument and a region only reads the
  arguments it is given, each argument's buffer walks back through the fold to its launch contents.
-/
import proofs.«104849_j8564164788984_2_alg».proof.Proof.K.Fold
import proofs.«104849_j8564164788984_2_alg».proof.Proof.K.Body0
import proofs.«104849_j8564164788984_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit contents are, array by array -/

theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## A buffer no item writes keeps its launch contents -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W8_of (c : Dev nD) (r : Ref sig .tc) (h : r ∉ hostOps2_1_W) : W8 m c (Proc.devRef .tc r) = W7 m c (Proc.devRef .tc r) :=
  StableHlo.after_of_writes_sub hostOps2_1 _ hostOps2_1_writes h
theorem W9_of (c : Dev nD) (r : Ref sig .tc) (h : r ∉ hostOps2_2_W) : W9 m c (Proc.devRef .tc r) = W8 m c (Proc.devRef .tc r) :=
  StableHlo.after_of_writes_sub hostOps2_2 _ hostOps2_2_writes h

/-- A buffer that no host stretch writes and that is no array of the second region ends at what the first region
    left in it. -/
theorem W9_eq_W2 (c : Dev nD) (r : Ref sig .tc) (h1 : r ∉ hostOps1_W) (h11 : r ∉ hostOps1_1_W) (h12 : r ∉ hostOps1_2_W)
    (hr1 : ∀ w, Pipeline.arrRef spec1 w ≠ r) (h2 : r ∉ hostOps2_W) (h21 : r ∉ hostOps2_1_W) (h22 : r ∉ hostOps2_2_W) :
    W9 m c (Proc.devRef .tc r) = W2 m c (Proc.devRef .tc r) :=
  (W9_of m c r h22).trans <| (W8_of m c r h21).trans <| (W7_of m c r h2).trans <| (W6_of_ne m c r hr1).trans <|
    (W5_of m c r h12).trans <| (W4_of m c r h11).trans (W3_of m c r h1)

/-- The node features, the first region's input array: the region leaves an input array as it found it. -/
theorem W9_main_arg0 (c : Dev nD) : W9 m c (Proc.devRef .tc main_arg0) = m ((c : Thread nD τ).loc main_arg0) :=
  (W9_eq_W2 m c main_arg0 (by decide) (by decide) (by decide) (by decide) (by decide) (by decide) (by decide)).trans <|
    ((W2_arr m c 0).trans (((dat0 (E1 m) c).arrAt_in 0 rfl _).trans (A_eq0 (E1 m) c 0))).trans <|
      (W1_of m c main_arg0 (by decide)).trans rfl
theorem W9_main_arg1 (c : Dev nD) : W9 m c (Proc.devRef .tc main_arg1) = m ((c : Thread nD τ).loc main_arg1) :=
  (W9_eq_W2 m c main_arg1 (by decide) (by decide) (by decide) (by decide) (by decide) (by decide) (by decide)).trans <|
    (W2_of_ne m c main_arg1 (by decide)).trans <| (W1_of m c main_arg1 (by decide)).trans rfl
theorem W9_main_arg2 (c : Dev nD) : W9 m c (Proc.devRef .tc main_arg2) = m ((c : Thread nD τ).loc main_arg2) :=
  (W9_eq_W2 m c main_arg2 (by decide) (by decide) (by decide) (by decide) (by decide) (by decide) (by decide)).trans <|
    (W2_of_ne m c main_arg2 (by decide)).trans <| (W1_of m c main_arg2 (by decide)).trans rfl
theorem W9_main_arg3 (c : Dev nD) : W9 m c (Proc.devRef .tc main_arg3) = m ((c : Thread nD τ).loc main_arg3) :=
  (W9_eq_W2 m c main_arg3 (by decide) (by decide) (by decide) (by decide) (by decide) (by decide) (by decide)).trans <|
    (W2_of_ne m c main_arg3 (by decide)).trans <| (W1_of m c main_arg3 (by decide)).trans rfl
theorem W9_main_arg4 (c : Dev nD) : W9 m c (Proc.devRef .tc main_arg4) = m ((c : Thread nD τ).loc main_arg4) :=
  (W9_eq_W2 m c main_arg4 (by decide) (by decide) (by decide) (by decide) (by decide) (by decide) (by decide)).trans <|
    (W2_of_ne m c main_arg4 (by decide)).trans <| (W1_of m c main_arg4 (by decide)).trans rfl
theorem W9_main_arg5 (c : Dev nD) : W9 m c (Proc.devRef .tc main_arg5) = m ((c : Thread nD τ).loc main_arg5) :=
  (W9_eq_W2 m c main_arg5 (by decide) (by decide) (by decide) (by decide) (by decide) (by decide) (by decide)).trans <|
    (W2_of_ne m c main_arg5 (by decide)).trans <| (W1_of m c main_arg5 (by decide)).trans rfl
theorem W9_main_arg6 (c : Dev nD) : W9 m c (Proc.devRef .tc main_arg6) = m ((c : Thread nD τ).loc main_arg6) :=
  (W9_eq_W2 m c main_arg6 (by decide) (by decide) (by decide) (by decide) (by decide) (by decide) (by decide)).trans <|
    (W2_of_ne m c main_arg6 (by decide)).trans <| (W1_of m c main_arg6 (by decide)).trans rfl
theorem W9_main_arg7 (c : Dev nD) : W9 m c (Proc.devRef .tc main_arg7) = m ((c : Thread nD τ).loc main_arg7) :=
  (W9_eq_W2 m c main_arg7 (by decide) (by decide) (by decide) (by decide) (by decide) (by decide) (by decide)).trans <|
    (W2_of_ne m c main_arg7 (by decide)).trans <| (W1_of m c main_arg7 (by decide)).trans rfl
theorem W9_main_arg8 (c : Dev nD) : W9 m c (Proc.devRef .tc main_arg8) = m ((c : Thread nD τ).loc main_arg8) :=
  (W9_eq_W2 m c main_arg8 (by decide) (by decide) (by decide) (by decide) (by decide) (by decide) (by decide)).trans <|
    (W2_of_ne m c main_arg8 (by decide)).trans <| (W1_of m c main_arg8 (by decide)).trans rfl
theorem W9_main_arg9 (c : Dev nD) : W9 m c (Proc.devRef .tc main_arg9) = m ((c : Thread nD τ).loc main_arg9) :=
  (W9_eq_W2 m c main_arg9 (by decide) (by decide) (by decide) (by decide) (by decide) (by decide) (by decide)).trans <|
    (W2_of_ne m c main_arg9 (by decide)).trans <| (W1_of m c main_arg9 (by decide)).trans rfl
theorem W9_main_arg10 (c : Dev nD) : W9 m c (Proc.devRef .tc main_arg10) = m ((c : Thread nD τ).loc main_arg10) :=
  (W9_eq_W2 m c main_arg10 (by decide) (by decide) (by decide) (by decide) (by decide) (by decide) (by decide)).trans <|
    (W2_of_ne m c main_arg10 (by decide)).trans <| (W1_of m c main_arg10 (by decide)).trans rfl
theorem W9_main_arg11 (c : Dev nD) : W9 m c (Proc.devRef .tc main_arg11) = m ((c : Thread nD τ).loc main_arg11) :=
  (W9_eq_W2 m c main_arg11 (by decide) (by decide) (by decide) (by decide) (by decide) (by decide) (by decide)).trans <|
    (W2_of_ne m c main_arg11 (by decide)).trans <| (W1_of m c main_arg11 (by decide)).trans rfl
theorem W9_main_arg12 (c : Dev nD) : W9 m c (Proc.devRef .tc main_arg12) = m ((c : Thread nD τ).loc main_arg12) :=
  (W9_eq_W2 m c main_arg12 (by decide) (by decide) (by decide) (by decide) (by decide) (by decide) (by decide)).trans <|
    (W2_of_ne m c main_arg12 (by decide)).trans <| (W1_of m c main_arg12 (by decide)).trans rfl
theorem W9_main_arg13 (c : Dev nD) : W9 m c (Proc.devRef .tc main_arg13) = m ((c : Thread nD τ).loc main_arg13) :=
  (W9_eq_W2 m c main_arg13 (by decide) (by decide) (by decide) (by decide) (by decide) (by decide) (by decide)).trans <|
    (W2_of_ne m c main_arg13 (by decide)).trans <| (W1_of m c main_arg13 (by decide)).trans rfl
theorem W9_main_arg14 (c : Dev nD) : W9 m c (Proc.devRef .tc main_arg14) = m ((c : Thread nD τ).loc main_arg14) :=
  (W9_eq_W2 m c main_arg14 (by decide) (by decide) (by decide) (by decide) (by decide) (by decide) (by decide)).trans <|
    (W2_of_ne m c main_arg14 (by decide)).trans <| (W1_of m c main_arg14 (by decide)).trans rfl
theorem W9_main_arg15 (c : Dev nD) : W9 m c (Proc.devRef .tc main_arg15) = m ((c : Thread nD τ).loc main_arg15) :=
  (W9_eq_W2 m c main_arg15 (by decide) (by decide) (by decide) (by decide) (by decide) (by decide) (by decide)).trans <|
    (W2_of_ne m c main_arg15 (by decide)).trans <| (W1_of m c main_arg15 (by decide)).trans rfl
theorem W9_main_arg16 (c : Dev nD) : W9 m c (Proc.devRef .tc main_arg16) = m ((c : Thread nD τ).loc main_arg16) :=
  (W9_eq_W2 m c main_arg16 (by decide) (by decide) (by decide) (by decide) (by decide) (by decide) (by decide)).trans <|
    (W2_of_ne m c main_arg16 (by decide)).trans <| (W1_of m c main_arg16 (by decide)).trans rfl
theorem W9_main_arg17 (c : Dev nD) : W9 m c (Proc.devRef .tc main_arg17) = m ((c : Thread nD τ).loc main_arg17) :=
  (W9_eq_W2 m c main_arg17 (by decide) (by decide) (by decide) (by decide) (by decide) (by decide) (by decide)).trans <|
    (W2_of_ne m c main_arg17 (by decide)).trans <| (W1_of m c main_arg17 (by decide)).trans rfl
theorem W9_main_arg18 (c : Dev nD) : W9 m c (Proc.devRef .tc main_arg18) = m ((c : Thread nD τ).loc main_arg18) :=
  (W9_eq_W2 m c main_arg18 (by decide) (by decide) (by decide) (by decide) (by decide) (by decide) (by decide)).trans <|
    (W2_of_ne m c main_arg18 (by decide)).trans <| (W1_of m c main_arg18 (by decide)).trans rfl
theorem W9_main_arg19 (c : Dev nD) : W9 m c (Proc.devRef .tc main_arg19) = m ((c : Thread nD τ).loc main_arg19) :=
  (W9_eq_W2 m c main_arg19 (by decide) (by decide) (by decide) (by decide) (by decide) (by decide) (by decide)).trans <|
    (W2_of_ne m c main_arg19 (by decide)).trans <| (W1_of m c main_arg19 (by decide)).trans rfl
theorem W9_main_arg20 (c : Dev nD) : W9 m c (Proc.devRef .tc main_arg20) = m ((c : Thread nD τ).loc main_arg20) :=
  (W9_eq_W2 m c main_arg20 (by decide) (by decide) (by decide) (by decide) (by decide) (by decide) (by decide)).trans <|
    (W2_of_ne m c main_arg20 (by decide)).trans <| (W1_of m c main_arg20 (by decide)).trans rfl

/-! ## The proof data family and the thread state -/

/-- No kernel here has a prefetched table. -/
abbrev hadm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (E1 m) c
  | ⟨1, _⟩ => fun c => dat1 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last stage of the fold, the generator register. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first kernel region over the thread state: entered holding every buffer at `W1`, left at `W2`. -/
def reg0 : Pipeline.RegionSeg (pcfgs (F := F)) hadm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered holding every buffer at `W5`, left at `W6`. -/
def reg1 : Pipeline.RegionSeg (pcfgs (F := F)) hadm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) hadm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    at the end every buffer holds the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) hadm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c),
    (h c _ (mem_uc main_arg10 (by decide))).trans (W9_main_arg10 m c),
    (h c _ (mem_uc main_arg11 (by decide))).trans (W9_main_arg11 m c),
    (h c _ (mem_uc main_arg12 (by decide))).trans (W9_main_arg12 m c),
    (h c _ (mem_uc main_arg13 (by decide))).trans (W9_main_arg13 m c),
    (h c _ (mem_uc main_arg14 (by decide))).trans (W9_main_arg14 m c),
    (h c _ (mem_uc main_arg15 (by decide))).trans (W9_main_arg15 m c),
    (h c _ (mem_uc main_arg16 (by decide))).trans (W9_main_arg16 m c),
    (h c _ (mem_uc main_arg17 (by decide))).trans (W9_main_arg17 m c),
    (h c _ (mem_uc main_arg18 (by decide))).trans (W9_main_arg18 m c),
    (h c _ (mem_uc main_arg19 (by decide))).trans (W9_main_arg19 m c),
    (h c _ (mem_uc main_arg20 (by decide))).trans (W9_main_arg20 m c)⟩) (run_all m ρ)

end Cert.Kernel.Hand

end
-- ==== Proof.KI.Defs.lean ====
/-
  The two projection kernels, one grid point at a time.  Each of the program's two kernel regions runs the same
  body on a grid of ten row blocks: it reads a block of 5000 rows of the node features, the whole stacked weight
  matrix and the whole stacked bias, forms (rows · weightsᵀ + bias), and writes the leading columns (keys, queries,
  values side by side) into the first output block and the trailing columns (the skip term) into the second.
  This module names, for any contents `V` the region is entered with, the block each window holds at a grid point,
  what the body leaves in each output block as a function of the three input blocks, and the pipeline's proof data
  built from them.  Nothing is proved about the body here.
-/
import proofs.«104849_j8564164788984_2_alg».proof.Proof.Gen.KernelIdeal.Launch
import proofs.«104849_j8564164788984_2_alg».proof.Proof.Gen.KernelIdeal.Skeleton
import proofs.«104849_j8564164788984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-! ## First region: 128 input features to 4 × 128 stacked outputs -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body reads and writes through. -/
abbrev rX0 : Rect S5000x128 := Rect.unit (s := S5000x128) ![0, 0] S5000x128.size inb_S5000x128_S5000x128_0_0
abbrev rW0 : Rect S512x128 := Rect.unit (s := S512x128) ![0, 0] S512x128.size inb_S512x128_S512x128_0_0
abbrev rB0 : Rect S512 := Rect.unit (s := S512) ![0] S512.size inb_S512_S512_0
abbrev rK0 : Rect S5000x384 := Rect.unit (s := S5000x384) ![0, 0] S5000x384.size inb_S5000x384_S5000x384_0_0
abbrev rS0 : Rect S5000x128 := Rect.unit (s := S5000x128) ![0, 0] S5000x128.size inb_S5000x128_S5000x128_0_0

/-- The keys | queries | values block after the body: one store of the leading 384 columns of rows · weightsᵀ + bias. -/
def out0_3 (x0 : Vec F S5000x128 .f32) (x1 : Vec F S512x128 .f32) (x2 : Vec F S512 .f32) : Vec F S5000x384 .bf16 :=
  View.canon [⟨rK0, k0_pay2 (View.ld x0 rX0) (View.ld x1 rW0) (View.ld x2 rB0)⟩]
/-- The skip block after the body: one store of the trailing 128 columns of rows · weightsᵀ + bias. -/
def out0_4 (x0 : Vec F S5000x128 .f32) (x1 : Vec F S512x128 .f32) (x2 : Vec F S512 .f32) : Vec F S5000x128 .f32 :=
  View.canon [⟨rS0, k0_pay3 (View.ld x0 rX0) (View.ld x1 rW0) (View.ld x2 rB0)⟩]

/-- The first region's proof data on core `c`: the arrays as the region finds them; after the body at point `t` each
    input block in place and each output block at the body's function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## Second region: 128 hidden features to 4 × 64 stacked outputs -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S5000x128 := Rect.unit (s := S5000x128) ![0, 0] S5000x128.size inb_S5000x128_S5000x128_0_0
abbrev rW1 : Rect S256x128 := Rect.unit (s := S256x128) ![0, 0] S256x128.size inb_S256x128_S256x128_0_0
abbrev rB1 : Rect S256 := Rect.unit (s := S256) ![0] S256.size inb_S256_S256_0
abbrev rK1 : Rect S5000x192 := Rect.unit (s := S5000x192) ![0, 0] S5000x192.size inb_S5000x192_S5000x192_0_0
abbrev rS1 : Rect S5000x64 := Rect.unit (s := S5000x64) ![0, 0] S5000x64.size inb_S5000x64_S5000x64_0_0

/-- The keys | queries | values block after the body: the leading 192 columns of rows · weightsᵀ + bias. -/
def out1_3 (x0 : Vec F S5000x128 .f32) (x1 : Vec F S256x128 .f32) (x2 : Vec F S256 .f32) : Vec F S5000x192 .bf16 :=
  View.canon [⟨rK1, k1_pay2 (View.ld x0 rX1) (View.ld x1 rW1) (View.ld x2 rB1)⟩]
/-- The skip block after the body: the trailing 64 columns of rows · weightsᵀ + bias. -/
def out1_4 (x0 : Vec F S5000x128 .f32) (x1 : Vec F S256x128 .f32) (x2 : Vec F S256 .f32) : Vec F S5000x64 .f32 :=
  View.canon [⟨rS1, k1_pay3 (View.ld x0 rX1) (View.ld x1 rW1) (View.ld x2 rB1)⟩]

/-- The second region's proof data on core `c`, in the same form. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) (iblk1 V c 2 t) := by dsimp only [dat1]

end Cert.KernelIdeal.Hand

end
-- ==== Proof.KI.Fold.lean ====
/-
  The contents of every buffer between the items of the program, as a fold from the launch memory.  The program is
  nine items: a stretch of host operations (the edge lists split, the four weight matrices and biases stacked), the
  first projection kernel, three stretches (gather, gate, scatter-add, skip, rectifier; then the second layer's
  stacking), the second projection kernel, and three more stretches (the same message passing, then the pooling over
  graphs and the final linear map).  A host stretch takes the contents to the operations' results; a kernel region
  replaces its five arrays by what its pipeline leaves in them — the inputs as found, each output the write-backs of
  all ten grid points — and touches nothing else.
-/
import proofs.«104849_j8564164788984_2_alg».proof.Proof.KI.Defs
import proofs.«104849_j8564164788984_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 : Dev nD → Valuation τ sig (Elt F) := fun c b => m (c, b)
/-- After the first host stretch: the first kernel's entry contents. -/
abbrev W1 : Dev nD → Valuation τ sig (Elt F) := fun c => StableHlo.after hostOps0 (W0 m c)
/-- The same, read at the core's own references (what the first kernel's proof data take). -/
abbrev E1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
/-- After the three host stretches of the first layer's message passing and the second layer's stacking. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- The second kernel's entry contents at the core's own references. -/
abbrev E5 : (c : Dev nD) → (b : Ref sig .tc) → Buf (Elt F) ((c : Thread nD τ).loc b) := fun c b => W5 m c b
/-- At the second kernel's exit. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
/-- After the three host stretches of the second layer's message passing, the pooling and the final linear map. -/
abbrev W7 : Dev nD → Valuation τ sig (Elt F) := fun c => StableHlo.after hostOps2 (W6 m c)
abbrev W8 : Dev nD → Valuation τ sig (Elt F) := fun c => StableHlo.after hostOps2_1 (W7 m c)
abbrev W9 : Dev nD → Valuation τ sig (Elt F) := fun c => StableHlo.after hostOps2_2 (W8 m c)

end Cert.KernelIdeal.Hand

end
-- ==== Proof.KI.Body0.lean ====
/-
  The body of the first projection kernel at one grid point.  Whatever the two output blocks held, after the body
  the three input blocks are as they were and each output block is the body's one whole-block store: the leading
  columns of (rows · weightsᵀ + bias) in the first, the trailing columns in the second.  Since the weight and bias
  windows are fetched at the first point only, what an input block holds at a later point is argued from the block
  index not having moved.  The body's run is the symbolic executor's; the rest is bookkeeping of which staging buffer
  holds what.
-/
import proofs.«104849_j8564164788984_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's current staging buffer holds its block, fetched at this point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Each output block's one store covers the block -/

theorem storeCover0_3 (p0 : Vec F S5000x384 .bf16) (y : S5000x384.Idx) :
    ∃ pc ∈ ([⟨rK0, p0⟩] : List (View.Piece (Elt F) S5000x384 .bf16)), y ∈ pc.1.set :=
  View.cover_of_tiled [⟨rK0, p0⟩] S5000x384.size (by rfl) y
theorem storeCover0_4 (p0 : Vec F S5000x128 .f32) (y : S5000x128.Idx) :
    ∃ pc ∈ ([⟨rS0, p0⟩] : List (View.Piece (Elt F) S5000x128 .f32)), y ∈ pc.1.set :=
  View.cover_of_tiled [⟨rS0, p0⟩] S5000x128.size (by rfl) y

/-! ## The body's triple -/

set_option maxHeartbeats 4000000 in
/-- On whole staging buffers, the inputs' at contents `x0 x1 x2` and the outputs' at anything, the body runs to the
    continuation with the inputs' as they were and the outputs' at `out0_3`, `out0_4` of the inputs'. -/
theorem sound_kernel0 (c : Dev nD) (E : Set ℕ) (i : grid0.Coords)
    (arg1 : Memref sig .tc .vmem S5000x128 .f32) (harg1 : arg1.IsWhole) (arg2 : Memref sig .tc .vmem S512x128 .f32) (harg2 : arg2.IsWhole)
    (arg3 : Memref sig .tc .vmem S512 .f32) (harg3 : arg3.IsWhole) (arg4 : Memref sig .tc .vmem S5000x384 .bf16) (harg4 : arg4.IsWhole)
    (arg5 : Memref sig .tc .vmem S5000x128 .f32) (harg5 : arg5.IsWhole)
    (x0 : Vec F S5000x128 .f32) (x1 : Vec F S512x128 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__linear_split_kernel i arg1 harg1 arg2 harg2 arg3 harg3 arg4 harg4 arg5 harg5) K := by
  simp only [cc0__linear_split_kernel_eq_skeleton]; unfold cc0__linear_split_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover0_3 _)
  iexists _; isplitr
  swap; · iexact H4
  ipureintro
  exact View.read_writes_eq_canon _ _ _ (storeCover0_4 _)

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The body of the second projection kernel at one grid point.  Whatever the two output blocks held, after the body
  the three input blocks are as they were and each output block is the body's one whole-block store: the leading
  columns of (rows · weightsᵀ + bias) in the first, the trailing columns in the second.  Since the weight and bias
  windows are fetched at the first point only, what an input block holds at a later point is argued from the block
  index not having moved.  The body's run is the symbolic executor's; the rest is bookkeeping of which staging buffer
  holds what.
-/
import proofs.«104849_j8564164788984_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An input window's current staging buffer holds its block, fetched at this point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Each output block's one store covers the block -/

theorem storeCover1_3 (p0 : Vec F S5000x192 .bf16) (y : S5000x192.Idx) :
    ∃ pc ∈ ([⟨rK1, p0⟩] : List (View.Piece (Elt F) S5000x192 .bf16)), y ∈ pc.1.set :=
  View.cover_of_tiled [⟨rK1, p0⟩] S5000x192.size (by rfl) y
theorem storeCover1_4 (p0 : Vec F S5000x64 .f32) (y : S5000x64.Idx) :
    ∃ pc ∈ ([⟨rS1, p0⟩] : List (View.Piece (Elt F) S5000x64 .f32)), y ∈ pc.1.set :=
  View.cover_of_tiled [⟨rS1, p0⟩] S5000x64.size (by rfl) y

/-! ## The body's triple -/

set_option maxHeartbeats 4000000 in
/-- On whole staging buffers, the inputs' at contents `x0 x1 x2` and the outputs' at anything, the body runs to the
    continuation with the inputs' as they were and the outputs' at `out1_3`, `out1_4` of the inputs'. -/
theorem sound_kernel1 (c : Dev nD) (E : Set ℕ) (i : grid1.Coords)
    (arg1 : Memref sig .tc .vmem S5000x128 .f32) (harg1 : arg1.IsWhole) (arg2 : Memref sig .tc .vmem S256x128 .f32) (harg2 : arg2.IsWhole)
    (arg3 : Memref sig .tc .vmem S256 .f32) (harg3 : arg3.IsWhole) (arg4 : Memref sig .tc .vmem S5000x192 .bf16) (harg4 : arg4.IsWhole)
    (arg5 : Memref sig .tc .vmem S5000x64 .f32) (harg5 : arg5.IsWhole)
    (x0 : Vec F S5000x128 .f32) (x1 : Vec F S256x128 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__linear_split_kernel i arg1 harg1 arg2 harg2 arg3 harg3 arg4 harg4 arg5 harg5) K := by
  simp only [cc1__linear_split_kernel_eq_skeleton]; unfold cc1__linear_split_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover1_3 _)
  iexists _; isplitr
  swap; · iexact H4
  ipureintro
  exact View.read_writes_eq_canon _ _ _ (storeCover1_4 _)

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging buffers hold their blocks, so the triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as nine segments — host stretches and the two kernel regions — run from the launch memory, and
  what every buffer holds at the end: the fold of Fold.lean.  A host stretch is entered holding every buffer at the
  fold's stage before it and left at the stage after it.  A kernel region takes its five arrays out of the buffers,
  runs its pipeline over the ten grid points on the proof data of Defs.lean (the body obligation is Body0 / Body1),
  and puts the arrays back at what the pipeline leaves; the core's generator register rides through untouched and
  nothing is ever owed between cores.  Since no host operation writes an argument and a region only reads the
  arguments it is given, each argument's buffer walks back through the fold to its launch contents.
-/
import proofs.«104849_j8564164788984_2_alg».proof.Proof.KI.Fold
import proofs.«104849_j8564164788984_2_alg».proof.Proof.KI.Body0
import proofs.«104849_j8564164788984_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit contents are, array by array -/

theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## A buffer no item writes keeps its launch contents -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W8_of (c : Dev nD) (r : Ref sig .tc) (h : r ∉ hostOps2_1_W) : W8 m c (Proc.devRef .tc r) = W7 m c (Proc.devRef .tc r) :=
  StableHlo.after_of_writes_sub hostOps2_1 _ hostOps2_1_writes h
theorem W9_of (c : Dev nD) (r : Ref sig .tc) (h : r ∉ hostOps2_2_W) : W9 m c (Proc.devRef .tc r) = W8 m c (Proc.devRef .tc r) :=
  StableHlo.after_of_writes_sub hostOps2_2 _ hostOps2_2_writes h

/-- A buffer that no host stretch writes and that is no array of the second region ends at what the first region
    left in it. -/
theorem W9_eq_W2 (c : Dev nD) (r : Ref sig .tc) (h1 : r ∉ hostOps1_W) (h11 : r ∉ hostOps1_1_W) (h12 : r ∉ hostOps1_2_W)
    (hr1 : ∀ w, Pipeline.arrRef spec1 w ≠ r) (h2 : r ∉ hostOps2_W) (h21 : r ∉ hostOps2_1_W) (h22 : r ∉ hostOps2_2_W) :
    W9 m c (Proc.devRef .tc r) = W2 m c (Proc.devRef .tc r) :=
  (W9_of m c r h22).trans <| (W8_of m c r h21).trans <| (W7_of m c r h2).trans <| (W6_of_ne m c r hr1).trans <|
    (W5_of m c r h12).trans <| (W4_of m c r h11).trans (W3_of m c r h1)

/-- The node features, the first region's input array: the region leaves an input array as it found it. -/
theorem W9_main_arg0 (c : Dev nD) : W9 m c (Proc.devRef .tc main_arg0) = m ((c : Thread nD τ).loc main_arg0) :=
  (W9_eq_W2 m c main_arg0 (by decide) (by decide) (by decide) (by decide) (by decide) (by decide) (by decide)).trans <|
    ((W2_arr m c 0).trans (((dat0 (E1 m) c).arrAt_in 0 rfl _).trans (A_eq0 (E1 m) c 0))).trans <|
      (W1_of m c main_arg0 (by decide)).trans rfl
theorem W9_main_arg1 (c : Dev nD) : W9 m c (Proc.devRef .tc main_arg1) = m ((c : Thread nD τ).loc main_arg1) :=
  (W9_eq_W2 m c main_arg1 (by decide) (by decide) (by decide) (by decide) (by decide) (by decide) (by decide)).trans <|
    (W2_of_ne m c main_arg1 (by decide)).trans <| (W1_of m c main_arg1 (by decide)).trans rfl
theorem W9_main_arg2 (c : Dev nD) : W9 m c (Proc.devRef .tc main_arg2) = m ((c : Thread nD τ).loc main_arg2) :=
  (W9_eq_W2 m c main_arg2 (by decide) (by decide) (by decide) (by decide) (by decide) (by decide) (by decide)).trans <|
    (W2_of_ne m c main_arg2 (by decide)).trans <| (W1_of m c main_arg2 (by decide)).trans rfl
theorem W9_main_arg3 (c : Dev nD) : W9 m c (Proc.devRef .tc main_arg3) = m ((c : Thread nD τ).loc main_arg3) :=
  (W9_eq_W2 m c main_arg3 (by decide) (by decide) (by decide) (by decide) (by decide) (by decide) (by decide)).trans <|
    (W2_of_ne m c main_arg3 (by decide)).trans <| (W1_of m c main_arg3 (by decide)).trans rfl
theorem W9_main_arg4 (c : Dev nD) : W9 m c (Proc.devRef .tc main_arg4) = m ((c : Thread nD τ).loc main_arg4) :=
  (W9_eq_W2 m c main_arg4 (by decide) (by decide) (by decide) (by decide) (by decide) (by decide) (by decide)).trans <|
    (W2_of_ne m c main_arg4 (by decide)).trans <| (W1_of m c main_arg4 (by decide)).trans rfl
theorem W9_main_arg5 (c : Dev nD) : W9 m c (Proc.devRef .tc main_arg5) = m ((c : Thread nD τ).loc main_arg5) :=
  (W9_eq_W2 m c main_arg5 (by decide) (by decide) (by decide) (by decide) (by decide) (by decide) (by decide)).trans <|
    (W2_of_ne m c main_arg5 (by decide)).trans <| (W1_of m c main_arg5 (by decide)).trans rfl
theorem W9_main_arg6 (c : Dev nD) : W9 m c (Proc.devRef .tc main_arg6) = m ((c : Thread nD τ).loc main_arg6) :=
  (W9_eq_W2 m c main_arg6 (by decide) (by decide) (by decide) (by decide) (by decide) (by decide) (by decide)).trans <|
    (W2_of_ne m c main_arg6 (by decide)).trans <| (W1_of m c main_arg6 (by decide)).trans rfl
theorem W9_main_arg7 (c : Dev nD) : W9 m c (Proc.devRef .tc main_arg7) = m ((c : Thread nD τ).loc main_arg7) :=
  (W9_eq_W2 m c main_arg7 (by decide) (by decide) (by decide) (by decide) (by decide) (by decide) (by decide)).trans <|
    (W2_of_ne m c main_arg7 (by decide)).trans <| (W1_of m c main_arg7 (by decide)).trans rfl
theorem W9_main_arg8 (c : Dev nD) : W9 m c (Proc.devRef .tc main_arg8) = m ((c : Thread nD τ).loc main_arg8) :=
  (W9_eq_W2 m c main_arg8 (by decide) (by decide) (by decide) (by decide) (by decide) (by decide) (by decide)).trans <|
    (W2_of_ne m c main_arg8 (by decide)).trans <| (W1_of m c main_arg8 (by decide)).trans rfl
theorem W9_main_arg9 (c : Dev nD) : W9 m c (Proc.devRef .tc main_arg9) = m ((c : Thread nD τ).loc main_arg9) :=
  (W9_eq_W2 m c main_arg9 (by decide) (by decide) (by decide) (by decide) (by decide) (by decide) (by decide)).trans <|
    (W2_of_ne m c main_arg9 (by decide)).trans <| (W1_of m c main_arg9 (by decide)).trans rfl
theorem W9_main_arg10 (c : Dev nD) : W9 m c (Proc.devRef .tc main_arg10) = m ((c : Thread nD τ).loc main_arg10) :=
  (W9_eq_W2 m c main_arg10 (by decide) (by decide) (by decide) (by decide) (by decide) (by decide) (by decide)).trans <|
    (W2_of_ne m c main_arg10 (by decide)).trans <| (W1_of m c main_arg10 (by decide)).trans rfl
theorem W9_main_arg11 (c : Dev nD) : W9 m c (Proc.devRef .tc main_arg11) = m ((c : Thread nD τ).loc main_arg11) :=
  (W9_eq_W2 m c main_arg11 (by decide) (by decide) (by decide) (by decide) (by decide) (by decide) (by decide)).trans <|
    (W2_of_ne m c main_arg11 (by decide)).trans <| (W1_of m c main_arg11 (by decide)).trans rfl
theorem W9_main_arg12 (c : Dev nD) : W9 m c (Proc.devRef .tc main_arg12) = m ((c : Thread nD τ).loc main_arg12) :=
  (W9_eq_W2 m c main_arg12 (by decide) (by decide) (by decide) (by decide) (by decide) (by decide) (by decide)).trans <|
    (W2_of_ne m c main_arg12 (by decide)).trans <| (W1_of m c main_arg12 (by decide)).trans rfl
theorem W9_main_arg13 (c : Dev nD) : W9 m c (Proc.devRef .tc main_arg13) = m ((c : Thread nD τ).loc main_arg13) :=
  (W9_eq_W2 m c main_arg13 (by decide) (by decide) (by decide) (by decide) (by decide) (by decide) (by decide)).trans <|
    (W2_of_ne m c main_arg13 (by decide)).trans <| (W1_of m c main_arg13 (by decide)).trans rfl
theorem W9_main_arg14 (c : Dev nD) : W9 m c (Proc.devRef .tc main_arg14) = m ((c : Thread nD τ).loc main_arg14) :=
  (W9_eq_W2 m c main_arg14 (by decide) (by decide) (by decide) (by decide) (by decide) (by decide) (by decide)).trans <|
    (W2_of_ne m c main_arg14 (by decide)).trans <| (W1_of m c main_arg14 (by decide)).trans rfl
theorem W9_main_arg15 (c : Dev nD) : W9 m c (Proc.devRef .tc main_arg15) = m ((c : Thread nD τ).loc main_arg15) :=
  (W9_eq_W2 m c main_arg15 (by decide) (by decide) (by decide) (by decide) (by decide) (by decide) (by decide)).trans <|
    (W2_of_ne m c main_arg15 (by decide)).trans <| (W1_of m c main_arg15 (by decide)).trans rfl
theorem W9_main_arg16 (c : Dev nD) : W9 m c (Proc.devRef .tc main_arg16) = m ((c : Thread nD τ).loc main_arg16) :=
  (W9_eq_W2 m c main_arg16 (by decide) (by decide) (by decide) (by decide) (by decide) (by decide) (by decide)).trans <|
    (W2_of_ne m c main_arg16 (by decide)).trans <| (W1_of m c main_arg16 (by decide)).trans rfl
theorem W9_main_arg17 (c : Dev nD) : W9 m c (Proc.devRef .tc main_arg17) = m ((c : Thread nD τ).loc main_arg17) :=
  (W9_eq_W2 m c main_arg17 (by decide) (by decide) (by decide) (by decide) (by decide) (by decide) (by decide)).trans <|
    (W2_of_ne m c main_arg17 (by decide)).trans <| (W1_of m c main_arg17 (by decide)).trans rfl
theorem W9_main_arg18 (c : Dev nD) : W9 m c (Proc.devRef .tc main_arg18) = m ((c : Thread nD τ).loc main_arg18) :=
  (W9_eq_W2 m c main_arg18 (by decide) (by decide) (by decide) (by decide) (by decide) (by decide) (by decide)).trans <|
    (W2_of_ne m c main_arg18 (by decide)).trans <| (W1_of m c main_arg18 (by decide)).trans rfl
theorem W9_main_arg19 (c : Dev nD) : W9 m c (Proc.devRef .tc main_arg19) = m ((c : Thread nD τ).loc main_arg19) :=
  (W9_eq_W2 m c main_arg19 (by decide) (by decide) (by decide) (by decide) (by decide) (by decide) (by decide)).trans <|
    (W2_of_ne m c main_arg19 (by decide)).trans <| (W1_of m c main_arg19 (by decide)).trans rfl
theorem W9_main_arg20 (c : Dev nD) : W9 m c (Proc.devRef .tc main_arg20) = m ((c : Thread nD τ).loc main_arg20) :=
  (W9_eq_W2 m c main_arg20 (by decide) (by decide) (by decide) (by decide) (by decide) (by decide) (by decide)).trans <|
    (W2_of_ne m c main_arg20 (by decide)).trans <| (W1_of m c main_arg20 (by decide)).trans rfl

/-! ## The proof data family and the thread state -/

/-- No kernel here has a prefetched table. -/
abbrev hadm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (E1 m) c
  | ⟨1, _⟩ => fun c => dat1 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last stage of the fold, the generator register. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first kernel region over the thread state: entered holding every buffer at `W1`, left at `W2`. -/
def reg0 : Pipeline.RegionSeg (pcfgs (F := F)) hadm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered holding every buffer at `W5`, left at `W6`. -/
def reg1 : Pipeline.RegionSeg (pcfgs (F := F)) hadm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) hadm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, and
    at the end every buffer holds the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) hadm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c),
    (h c _ (mem_uc main_arg9 (by decide))).trans (W9_main_arg9 m c),
    (h c _ (mem_uc main_arg10 (by decide))).trans (W9_main_arg10 m c),
    (h c _ (mem_uc main_arg11 (by decide))).trans (W9_main_arg11 m c),
    (h c _ (mem_uc main_arg12 (by decide))).trans (W9_main_arg12 m c),
    (h c _ (mem_uc main_arg13 (by decide))).trans (W9_main_arg13 m c),
    (h c _ (mem_uc main_arg14 (by decide))).trans (W9_main_arg14 m c),
    (h c _ (mem_uc main_arg15 (by decide))).trans (W9_main_arg15 m c),
    (h c _ (mem_uc main_arg16 (by decide))).trans (W9_main_arg16 m c),
    (h c _ (mem_uc main_arg17 (by decide))).trans (W9_main_arg17 m c),
    (h c _ (mem_uc main_arg18 (by decide))).trans (W9_main_arg18 m c),
    (h c _ (mem_uc main_arg19 (by decide))).trans (W9_main_arg19 m c),
    (h c _ (mem_uc main_arg20 (by decide))).trans (W9_main_arg20 m c)⟩) (run_all m ρ)

end Cert.KernelIdeal.Hand

end
-- ==== Proof.KI.Lin.lean ====
/-
  The affine map that every projection in the two graph-convolution layers is an instance of: node features times
  the transpose of a weight matrix, plus a bias.  With the four weight matrices of a layer stacked along their rows
  (keys, queries, values, skip) and the biases stacked likewise, column j of the stacked result is the j-th stacked
  output feature; a band of columns of the stacked result is one projection, or several side by side.

  `lin X W b r j` is entry (r, j) of X · Wᵀ + b over the extended reals: the 128 products are summed first and the
  bias is added on the right, which is the order both programs use.  `linCols o` is the band of columns starting at
  column o, as an array.  The rest of the module reads the arithmetic of one kernel body at an index: a matrix product
  into a zero accumulator is the plain sum of products, and the body's chain (narrowing casts, which are the identity
  on extended reals; the transpose of the weights; the bias as one row repeated over all rows) is `lin`.
-/
import Idealize.ShloMosaic.PureOps.Ideal.Laws
import Idealize.ShloMosaic.Lib.ValueIdx
import Idealize.ShloMosaic.Lib.ValueLayout

noncomputable section

open scoped BigOperators

namespace Cert.Hand

open Idealize.ShloMosaic Idealize.ShloMosaic.ValueIdx

/-- The all-zero offsets of a rank-2 and of a rank-1 rectangle, as the constant function. -/
theorem off2_zero : (![0, 0] : Fin 2 → Nat) = fun _ => 0 := funext fun a => by fin_cases a <;> rfl
theorem off1_zero : (![0] : Fin 1 → Nat) = fun _ => 0 := funext fun a => by fin_cases a <;> rfl

/-- Entry (r, j) of X · Wᵀ + b: the sum over the 128 input features of X[r, k] · W[j, k], then the bias b[j]. -/
def lin {R N : Nat} (X : (⟨2, ![R, 128]⟩ : Shape).Idx → EReal) (W : (⟨2, ![N, 128]⟩ : Shape).Idx → EReal)
    (b : (⟨1, ![N]⟩ : Shape).Idx → EReal) (r : Fin R) (j : Fin N) : EReal :=
  (∑ k : Fin 128, X (ix2 r k) * W (ix2 j k)) + b (ix1 j)

/-- Columns o, …, o + M − 1 of X · Wᵀ + b, as an R × M array. -/
def linCols {R N M : Nat} (o : Nat) (ho : o + M ≤ N) (X : (⟨2, ![R, 128]⟩ : Shape).Idx → EReal)
    (W : (⟨2, ![N, 128]⟩ : Shape).Idx → EReal) (b : (⟨1, ![N]⟩ : Shape).Idx → EReal) :
    (⟨2, ![R, M]⟩ : Shape).Idx → EReal :=
  fun i => lin X W b ⟨(i 0).val, idx2_lt0 i⟩ ⟨o + (i 1).val, Nat.lt_of_lt_of_le (Nat.add_lt_add_left (idx2_lt1 i) o) ho⟩

/-- The band at an index given by its coordinates. -/
theorem linCols_apply {R N M : Nat} (o : Nat) (ho : o + M ≤ N) (X : (⟨2, ![R, 128]⟩ : Shape).Idx → EReal)
    (W : (⟨2, ![N, 128]⟩ : Shape).Idx → EReal) (b : (⟨1, ![N]⟩ : Shape).Idx → EReal) (r : Fin R) (j : Fin M) :
    linCols o ho X W b (ix2 r j)
      = lin X W b r ⟨o + j.val, Nat.lt_of_lt_of_le (Nat.add_lt_add_left j.isLt o) ho⟩ := rfl

/-- `lin` depends on its three arrays only through the entries it reads. -/
theorem lin_congr {R R' N N' : Nat} {X : (⟨2, ![R, 128]⟩ : Shape).Idx → EReal} {X' : (⟨2, ![R', 128]⟩ : Shape).Idx → EReal}
    {W : (⟨2, ![N, 128]⟩ : Shape).Idx → EReal} {W' : (⟨2, ![N', 128]⟩ : Shape).Idx → EReal}
    {b : (⟨1, ![N]⟩ : Shape).Idx → EReal} {b' : (⟨1, ![N']⟩ : Shape).Idx → EReal}
    {r : Fin R} {r' : Fin R'} {j : Fin N} {j' : Fin N'}
    (hX : ∀ k : Fin 128, X (ix2 r k) = X' (ix2 r' k)) (hW : ∀ k : Fin 128, W (ix2 j k) = W' (ix2 j' k))
    (hb : b (ix1 j) = b' (ix1 j')) : lin X W b r j = lin X' W' b' r' j' := by
  unfold lin
  rw [hb]
  exact congrArg (· + b' (ix1 j')) (Finset.sum_congr rfl fun k _ => by rw [hX k, hW k])

/-- A matrix product of an R × K by a K × N matrix into a zero accumulator, read at (r, j), is the sum over the
    contracted coordinate of the products of the entries. -/
theorem matmul_zero_apply {R K N : Nat} {φ₁ φ₂ : FTy}
    (w : DotDims.WF ⟨2, ![R, K]⟩ ⟨2, ![K, N]⟩ ⟨2, ![R, N]⟩ [1] [0] [0] [1] [] [])
    (prec : Option ContractPrecision) (A : FVec Ideal ⟨2, ![R, K]⟩ φ₁) (B : FVec Ideal ⟨2, ![K, N]⟩ φ₂)
    (r : Fin R) (j : Fin N) :
    matmul (⟨[1], [0], [0], [1], [], [], w⟩ : DotDims ⟨2, ![R, K]⟩ ⟨2, ![K, N]⟩ ⟨2, ![R, N]⟩) prec A B
        (constant (F := Ideal) ⟨2, ![R, N]⟩ .f32 0x00000000#32) (ix2 r j)
      = ∑ c : Fin K, A (ix2 r c) * B (ix2 c j) := by
  show FloatOps.matmul _ prec A B _ (ix2 r j) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c1 := contrEquiv1_symm_val
    (⟨[1], [0], [0], [1], [], [], w⟩ : DotDims ⟨2, ![R, K]⟩ ⟨2, ![K, N]⟩ ⟨2, ![R, N]⟩) K rfl rfl c
  have l2 : (⟨[1], [0], [0], [1], [], [], w⟩ : DotDims ⟨2, ![R, K]⟩ ⟨2, ![K, N]⟩ ⟨2, ![R, N]⟩).lhsIdx (ix2 r j)
      ((contrEquiv1 _ K rfl rfl).symm c) = ix2 r c := by
    funext ax; apply Fin.ext
    match ax with
    | ⟨0, _⟩ => simp [DotDims.lhsIdx]; rfl
    | ⟨1, _⟩ => simp [DotDims.lhsIdx]; exact c1
  have r2 : (⟨[1], [0], [0], [1], [], [], w⟩ : DotDims ⟨2, ![R, K]⟩ ⟨2, ![K, N]⟩ ⟨2, ![R, N]⟩).rhsIdx (ix2 r j)
      ((contrEquiv1 _ K rfl rfl).symm c) = ix2 c j := by
    funext ax; apply Fin.ext
    match ax with
    | ⟨0, _⟩ => simp [DotDims.rhsIdx]; exact c1
    | ⟨1, _⟩ => simp [DotDims.rhsIdx]; rfl
  rw [l2, r2]

/-- The arithmetic of one kernel body at an index: the rows (narrowed) times the transposed (narrowed) weights into a
    zero accumulator, plus the bias as a row repeated over all rows, is `lin` of the three blocks. -/
theorem affine_apply {R N : Nat}
    (w : DotDims.WF ⟨2, ![R, 128]⟩ ⟨2, ![128, N]⟩ ⟨2, ![R, N]⟩ [1] [0] [0] [1] [] [])
    (X : FVec Ideal ⟨2, ![R, 128]⟩ .f32) (W : FVec Ideal ⟨2, ![N, 128]⟩ .f32) (b : FVec Ideal ⟨1, ![N]⟩ .f32)
    (hlt : FTy.bits .bf16 < FTy.bits .f32)
    (hWW : (⟨2, ![N, 128]⟩ : Shape).ShapeCasts ⟨2, ![N, 128]⟩)
    (hT : (⟨2, ![N, 128]⟩ : Shape).Transposes [1, 0] ⟨2, ![128, N]⟩)
    (hbb : (⟨1, ![N]⟩ : Shape).ShapeCasts ⟨1, ![N]⟩)
    (hb1 : (⟨1, ![N]⟩ : Shape).ShapeCasts ⟨2, ![1, N]⟩)
    (hB : (⟨2, ![1, N]⟩ : Shape).Broadcasts ⟨2, ![R, N]⟩)
    (r : Fin R) (j : Fin N) :
    addf (matmul (⟨[1], [0], [0], [1], [], [], w⟩ : DotDims ⟨2, ![R, 128]⟩ ⟨2, ![128, N]⟩ ⟨2, ![R, N]⟩) none
            (truncf .bf16 X hlt)
            (transpose ⟨2, ![128, N]⟩ [1, 0] (truncf .bf16 (shapeCast ⟨2, ![N, 128]⟩ W hWW) hlt) hT)
            (constant (F := Ideal) ⟨2, ![R, N]⟩ .f32 0x00000000#32))
         (broadcastTo ⟨2, ![R, N]⟩ (shapeCast ⟨2, ![1, N]⟩ (shapeCast ⟨1, ![N]⟩ b hbb) hb1) hB) (ix2 r j)
      = lin X W b r j := by
  rw [addf_apply, matmul_zero_apply, broadcastTo_1b_ab_apply, shapeCast_a_1a_apply, shapeCast_self, shapeCast_self]
  unfold lin
  refine congrArg (· + b (ix1 j)) (Finset.sum_congr rfl fun k _ => ?_)
  rw [transpose_ix2_apply, truncf_apply, truncf_apply]

end Cert.Hand

end
-- ==== Proof.KI.Final0.lean ====
/-
  What the first projection kernel leaves in its two output arrays, index by index.

  The kernel runs on ten blocks of 5000 rows.  At each block it holds 5000 rows of the node features, the whole stacked
  weight matrix (512 × 128) and the whole stacked bias (512), and computes, for row p of the block and stacked output
  feature q, the sum over the 128 input features of feature k of the row times entry (q, k) of the weights, plus entry q
  of the bias.  It stores stacked features 0 … 383 (keys, queries, values side by side) in the first output block
  and stacked features 384 … 511 (the skip term) in the second.

  Row p of block t is row 5000 · t + p of the array, the weights and the bias are read whole, and the ten row blocks cover
  the 50000 rows.  So the first output array ends as columns 0 … 383, and the second as columns 384 … 511, of
  (features · weightsᵀ + bias) taken over the whole arrays the kernel was entered with.
-/
import proofs.«104849_j8564164788984_2_alg».proof.Proof.KI.Defs
import proofs.«104849_j8564164788984_2_alg».proof.Proof.KI.Lin
import Idealize.ShloMosaic.Lib.Pipeline.Value
import Idealize.ShloMosaic.Lib.ValueLayout

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic at an index -/

/-- Rows times transposed weights plus bias, before the columns are split: entry (p, q) is `lin` of the three blocks. -/
theorem pay1_0_apply (x0 : Vec Ideal S5000x128 .f32) (x1 : Vec Ideal S512x128 .f32) (x2 : Vec Ideal S512 .f32)
    (p : Fin 5000) (q : Fin 512) :
    k0_pay1 x0 x1 x2 (ix2 p q) = lin (R := 5000) (N := 512) x0 x1 x2 p q := by
  unfold k0_pay1
  exact affine_apply dot_S5000x128_S128x512_S5000x512_1_0_0_1_n_n_wf x0 x1 x2 bitsLt_bf16_f32
    shapeCasts_S512x128_S512x128 transposes_S512x128_p1_0_S128x512 shapeCasts_S512_S512 shapeCasts_S512_S1x512
    broadcasts_S1x512_S5000x512 p q

/-- The first store's value is the leading 384 columns. -/
theorem pay2_0_eq (x0 : Vec Ideal S5000x128 .f32) (x1 : Vec Ideal S512x128 .f32) (x2 : Vec Ideal S512 .f32) :
    (k0_pay2 x0 x1 x2 : S5000x384.Idx → EReal)
      = linCols (R := 5000) (N := 512) (M := 384) 0 (by decide) x0 x1 x2 := by
  funext y
  obtain ⟨p, q, rfl⟩ : ∃ (p : Fin 5000) (q : Fin 384), y = ix2 p q := ⟨y 0, y 1, eq_ix2 y⟩
  rw [linCols_apply]
  unfold k0_pay2
  rw [truncf_apply, slice2_axis1_eq]
  exact pay1_0_apply x0 x1 x2 p _

/-- The second store's value is the trailing 128 columns. -/
theorem pay3_0_eq (x0 : Vec Ideal S5000x128 .f32) (x1 : Vec Ideal S512x128 .f32) (x2 : Vec Ideal S512 .f32) :
    (k0_pay3 x0 x1 x2 : S5000x128.Idx → EReal)
      = linCols (R := 5000) (N := 512) (M := 128) 384 (by decide) x0 x1 x2 := by
  funext y
  obtain ⟨p, q, rfl⟩ : ∃ (p : Fin 5000) (q : Fin 128), y = ix2 p q := ⟨y 0, y 1, eq_ix2 y⟩
  rw [linCols_apply]
  unfold k0_pay3
  rw [slice2_axis1_eq]
  exact pay1_0_apply x0 x1 x2 p _

/-! ## Each block as a part of its array -/

/-- Where the five windows' blocks sit at grid point t: the row windows (features and both outputs) at row block t,
    column block 0; the weights and the bias at block 0.  Decided over the ten points. -/
theorem idx_0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row x of the features block at point t is row 5000 · t + x of the features array. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨h0, h1, -⟩ := idx_0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [h0, hk0]; omega
  | ⟨1, _⟩ => show win0_0.index t (1 : Fin 2) * 128 + 1 * (x 1).val = (k 1).val; rw [h1, hk1]; omega

/-- The weights block is the whole weights array at every point. -/
theorem iblk0_1_eq (c : Dev nD) (t : Fin cfg0.N) :
    (iblk0 V c 1 t : Vec Ideal S512x128 .f32) = (V c main_v4 : S512x128.Idx → EReal) := by
  obtain ⟨-, -, h0, h1, -⟩ := idx_0 t
  funext x
  unfold iblk0
  rw [View.read_apply]
  show V c main_v4 _ = V c main_v4 _
  congr 1
  funext a
  apply Fin.ext
  match a with
  | ⟨0, _⟩ => show win0_1.index t (0 : Fin 2) * 512 + 1 * (x 0).val = (x 0).val; rw [h0]; omega
  | ⟨1, _⟩ => show win0_1.index t (1 : Fin 2) * 128 + 1 * (x 1).val = (x 1).val; rw [h1]; omega

/-- The bias block is the whole bias array at every point. -/
theorem iblk0_2_eq (c : Dev nD) (t : Fin cfg0.N) :
    (iblk0 V c 2 t : Vec Ideal S512 .f32) = (V c main_v5 : S512.Idx → EReal) := by
  obtain ⟨-, -, -, -, h0, -⟩ := idx_0 t
  funext x
  unfold iblk0
  rw [View.read_apply]
  show V c main_v5 _ = V c main_v5 _
  congr 1
  funext a
  apply Fin.ext
  match a with
  | ⟨0, _⟩ => show win0_2.index t (0 : Fin 1) * 512 + 1 * (x 0).val = (x 0).val; rw [h0]; omega

/-- A band of columns of (block rows · weightsᵀ + bias) at point t is the same band of the whole arrays' result, read at
    the block's rows. -/
theorem linCols_blk_0 {M : Nat} (o : Nat) (ho : o + M ≤ 512) (c : Dev nD) (t : Fin cfg0.N)
    (y : (⟨2, ![5000, M]⟩ : Shape).Idx) (i : (⟨2, ![50000, M]⟩ : Shape).Idx)
    (hi0 : (i 0).val = 5000 * t.val + (y 0).val) (hi1 : (i 1).val = (y 1).val) :
    linCols (R := 5000) (N := 512) o ho (iblk0 V c 0 t) (iblk0 V c 1 t) (iblk0 V c 2 t) y
      = linCols (R := 50000) (N := 512) o ho (V c main_arg0) (V c main_v4) (V c main_v5) i := by
  rw [iblk0_1_eq V c t, iblk0_2_eq V c t]
  unfold linCols
  have hj : (⟨o + (y 1).val, Nat.lt_of_lt_of_le (Nat.add_lt_add_left (idx2_lt1 y) o) ho⟩ : Fin 512)
      = ⟨o + (i 1).val, Nat.lt_of_lt_of_le (Nat.add_lt_add_left (idx2_lt1 i) o) ho⟩ := Fin.ext (by show o + (y 1).val = o + (i 1).val; omega)
  rw [hj]
  exact lin_congr (fun k => iblk0_0_apply V c t _ _ hi0 rfl) (fun _ => rfl) rfl

/-! ## First output: stacked features 0 … 383 -/

/-- What point t writes back to the first output is block t of the leading 384 columns of the whole result. -/
theorem flushed0_3_eq (c : Dev nD) (t : Fin cfg0.N) :
    (dat0 V c).flushed 3 t = ((cfg0.win 3).blk t).view.read (Elt Ideal)
      (linCols (R := 50000) (N := 512) (M := 384) 0 (by decide) (V c main_arg0) (V c main_v4) (V c main_v5)) := by
  obtain ⟨-, -, -, -, -, h0, h1, -⟩ := idx_0 t
  show (cfg0.win 3).cut (grid0.coords t) ((dat0 V c).after 3 t) = _
  rw [after0_3]
  unfold out0_3
  rw [View.canon_unit_zero off2_zero]
  simp only [View.ld_unit_zero (S := S5000x128) off2_zero, View.ld_unit_zero (S := S512x128) off2_zero,
    View.ld_unit_zero (S := S512) off1_zero]
  rw [pay2_0_eq]
  funext j
  rw [View.read_apply]
  refine linCols_blk_0 V 0 (by decide) c t _ _ ?_ ?_
  · show win0_3.index t (0 : Fin 2) * 5000 + 1 * (j 0).val = 5000 * t.val + (j 0).val; rw [h0]; omega
  · show win0_3.index t (1 : Fin 2) * 384 + 1 * (j 1).val = (j 1).val; rw [h1]; omega

/-- An index of the first output array is in point t's block iff each coordinate is in the block's range. -/
theorem mem_blk0_3 (t : Fin cfg0.N) (i : S50000x384.Idx) :
    i ∈ ((cfg0.win 3).blk t).view.set ↔ ∀ a : Fin 2, win0_3.index t a * S5000x384.size a ≤ (i a).val
      ∧ (i a).val < win0_3.index t a * S5000x384.size a + S5000x384.size a := by
  show i ∈ ((View.whole main_v6_0).slice (win0_3.rect t)).set ↔ _
  rw [View.set_slice_whole, Rect.mem_set_unit]
  exact Iff.rfl

/-- Every index of the first output array is in the block of the point its row falls in. -/
theorem cover0_3 (i : S50000x384.Idx) :
    ∃ t : Fin cfg0.N, (cfg0.win 3).flush t = true ∧ i ∈ ((cfg0.win 3).blk t).view.set := by
  have hi0 : (i 0).val < 50000 := idx2_lt0 i
  have hi1 : (i 1).val < 384 := idx2_lt1 i
  have hN : cfg0.N = 10 := N_0
  have ht : (i 0).val / 5000 < cfg0.N := by rw [hN]; omega
  obtain ⟨-, -, -, -, -, h0, h1, -⟩ := idx_0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win0_3.index ⟨(i 0).val / 5000, ht⟩ (1 : Fin 2) * 384 ≤ (i 1).val
      ∧ (i 1).val < win0_3.index ⟨(i 0).val / 5000, ht⟩ (1 : Fin 2) * 384 + 384
    rw [h1]; omega

/-- The first output array after the kernel: columns 0 … 383 of (features · weightsᵀ + bias). -/
theorem final0_3 (c : Dev nD) :
    ((dat0 V c).arrAt 3 cfg0.N : S50000x384.Idx → EReal)
      = linCols (R := 50000) (N := 512) (M := 384) 0 (by decide) (V c main_arg0) (V c main_v4) (V c main_v5) :=
  (dat0 V c).arrAt_eq_of_cover 3 _ (fun t _ => flushed0_3_eq V c t) cover0_3

/-! ## Second output: stacked features 384 … 511 -/

/-- What point t writes back to the second output is block t of the trailing 128 columns of the whole result. -/
theorem flushed0_4_eq (c : Dev nD) (t : Fin cfg0.N) :
    (dat0 V c).flushed 4 t = ((cfg0.win 4).blk t).view.read (Elt Ideal)
      (linCols (R := 50000) (N := 512) (M := 128) 384 (by decide) (V c main_arg0) (V c main_v4) (V c main_v5)) := by
  obtain ⟨-, -, -, -, -, -, -, h0, h1⟩ := idx_0 t
  show (cfg0.win 4).cut (grid0.coords t) ((dat0 V c).after 4 t) = _
  rw [after0_4]
  unfold out0_4
  rw [View.canon_unit_zero off2_zero]
  simp only [View.ld_unit_zero (S := S5000x128) off2_zero, View.ld_unit_zero (S := S512x128) off2_zero,
    View.ld_unit_zero (S := S512) off1_zero]
  rw [pay3_0_eq]
  funext j
  rw [View.read_apply]
  refine linCols_blk_0 V 384 (by decide) c t _ _ ?_ ?_
  · show win0_4.index t (0 : Fin 2) * 5000 + 1 * (j 0).val = 5000 * t.val + (j 0).val; rw [h0]; omega
  · show win0_4.index t (1 : Fin 2) * 128 + 1 * (j 1).val = (j 1).val; rw [h1]; omega

/-- An index of the second output array is in point t's block iff each coordinate is in the block's range. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v6_1).slice (win0_4.rect t)).set ↔ _
  rw [View.set_slice_whole, Rect.mem_set_unit]
  exact Iff.rfl

/-- Every index of the second output array is in the block of the point its row falls in. -/
theorem cover0_4 (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  have hN : cfg0.N = 10 := N_0
  have ht : (i 0).val / 5000 < cfg0.N := by rw [hN]; omega
  obtain ⟨-, -, -, -, -, -, -, h0, h1⟩ := idx_0 ⟨(i 0).val / 5000, ht⟩
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [h1]; omega

/-- The second output array after the kernel: columns 384 … 511 of (features · weightsᵀ + bias). -/
theorem final0_4 (c : Dev nD) :
    ((dat0 V c).arrAt 4 cfg0.N : S50000x128.Idx → EReal)
      = linCols (R := 50000) (N := 512) (M := 128) 384 (by decide) (V c main_arg0) (V c main_v4) (V c main_v5) :=
  (dat0 V c).arrAt_eq_of_cover 4 _ (fun t _ => flushed0_4_eq V c t) cover0_4

end Cert.KernelIdeal.Hand

end
-- ==== Proof.KI.Final1.lean ====
/-
  What the second projection kernel leaves in its two output arrays, index by index.

  The kernel runs on ten blocks of 5000 rows.  At each block it holds 5000 rows of the node features, the whole stacked
  weight matrix (256 × 128) and the whole stacked bias (256), and computes, for row p of the block and stacked output
  feature q, the sum over the 128 input features of feature k of the row times entry (q, k) of the weights, plus entry q
  of the bias.  It stores stacked features 0 … 191 (keys, queries, values side by side) in the first output block
  and stacked features 192 … 255 (the skip term) in the second.

  Row p of block t is row 5000 · t + p of the array, the weights and the bias are read whole, and the ten row blocks cover
  the 50000 rows.  So the first output array ends as columns 0 … 191, and the second as columns 192 … 255, of
  (features · weightsᵀ + bias) taken over the whole arrays the kernel was entered with.
-/
import proofs.«104849_j8564164788984_2_alg».proof.Proof.KI.Defs
import proofs.«104849_j8564164788984_2_alg».proof.Proof.KI.Lin
import Idealize.ShloMosaic.Lib.Pipeline.Value
import Idealize.ShloMosaic.Lib.ValueLayout

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic at an index -/

/-- Rows times transposed weights plus bias, before the columns are split: entry (p, q) is `lin` of the three blocks. -/
theorem pay1_1_apply (x0 : Vec Ideal S5000x128 .f32) (x1 : Vec Ideal S256x128 .f32) (x2 : Vec Ideal S256 .f32)
    (p : Fin 5000) (q : Fin 256) :
    k1_pay1 x0 x1 x2 (ix2 p q) = lin (R := 5000) (N := 256) x0 x1 x2 p q := by
  unfold k1_pay1
  refine (affine_apply dot_S5000x128_S128x256_S5000x256_1_0_0_1_n_n_wf
    (shapeCast S5000x128 x0 shapeCasts_S5000x128_S5000x128) x1 x2 bitsLt_bf16_f32
    shapeCasts_S256x128_S256x128 transposes_S256x128_p1_0_S128x256 shapeCasts_S256_S256 shapeCasts_S256_S1x256
    broadcasts_S1x256_S5000x256 p q).trans ?_
  rw [shapeCast_self]

/-- The first store's value is the leading 192 columns. -/
theorem pay2_1_eq (x0 : Vec Ideal S5000x128 .f32) (x1 : Vec Ideal S256x128 .f32) (x2 : Vec Ideal S256 .f32) :
    (k1_pay2 x0 x1 x2 : S5000x192.Idx → EReal)
      = linCols (R := 5000) (N := 256) (M := 192) 0 (by decide) x0 x1 x2 := by
  funext y
  obtain ⟨p, q, rfl⟩ : ∃ (p : Fin 5000) (q : Fin 192), y = ix2 p q := ⟨y 0, y 1, eq_ix2 y⟩
  rw [linCols_apply]
  unfold k1_pay2
  rw [truncf_apply, slice2_axis1_eq]
  exact pay1_1_apply x0 x1 x2 p _

/-- The second store's value is the trailing 64 columns. -/
theorem pay3_1_eq (x0 : Vec Ideal S5000x128 .f32) (x1 : Vec Ideal S256x128 .f32) (x2 : Vec Ideal S256 .f32) :
    (k1_pay3 x0 x1 x2 : S5000x64.Idx → EReal)
      = linCols (R := 5000) (N := 256) (M := 64) 192 (by decide) x0 x1 x2 := by
  funext y
  obtain ⟨p, q, rfl⟩ : ∃ (p : Fin 5000) (q : Fin 64), y = ix2 p q := ⟨y 0, y 1, eq_ix2 y⟩
  rw [linCols_apply]
  unfold k1_pay3
  rw [slice2_axis1_eq]
  exact pay1_1_apply x0 x1 x2 p _

/-! ## Each block as a part of its array -/

/-- Where the five windows' blocks sit at grid point t: the row windows (features and both outputs) at row block t,
    column block 0; the weights and the bias at block 0.  Decided over the ten points. -/
theorem idx_1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row x of the features block at point t is row 5000 · t + x of the features array. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v46 : S50000x128.Idx → EReal) k := by
  obtain ⟨h0, h1, -⟩ := idx_1 t
  unfold iblk1
  rw [View.read_apply]
  show V c main_v46 _ = V c main_v46 _
  congr 1
  funext a
  apply Fin.ext
  match a with
  | ⟨0, _⟩ => show win1_0.index t (0 : Fin 2) * 5000 + 1 * (x 0).val = (k 0).val; rw [h0, hk0]; omega
  | ⟨1, _⟩ => show win1_0.index t (1 : Fin 2) * 128 + 1 * (x 1).val = (k 1).val; rw [h1, hk1]; omega

/-- The weights block is the whole weights array at every point. -/
theorem iblk1_1_eq (c : Dev nD) (t : Fin cfg1.N) :
    (iblk1 V c 1 t : Vec Ideal S256x128 .f32) = (V c main_v47 : S256x128.Idx → EReal) := by
  obtain ⟨-, -, h0, h1, -⟩ := idx_1 t
  funext x
  unfold iblk1
  rw [View.read_apply]
  show V c main_v47 _ = V c main_v47 _
  congr 1
  funext a
  apply Fin.ext
  match a with
  | ⟨0, _⟩ => show win1_1.index t (0 : Fin 2) * 256 + 1 * (x 0).val = (x 0).val; rw [h0]; omega
  | ⟨1, _⟩ => show win1_1.index t (1 : Fin 2) * 128 + 1 * (x 1).val = (x 1).val; rw [h1]; omega

/-- The bias block is the whole bias array at every point. -/
theorem iblk1_2_eq (c : Dev nD) (t : Fin cfg1.N) :
    (iblk1 V c 2 t : Vec Ideal S256 .f32) = (V c main_v48 : S256.Idx → EReal) := by
  obtain ⟨-, -, -, -, h0, -⟩ := idx_1 t
  funext x
  unfold iblk1
  rw [View.read_apply]
  show V c main_v48 _ = V c main_v48 _
  congr 1
  funext a
  apply Fin.ext
  match a with
  | ⟨0, _⟩ => show win1_2.index t (0 : Fin 1) * 256 + 1 * (x 0).val = (x 0).val; rw [h0]; omega

/-- A band of columns of (block rows · weightsᵀ + bias) at point t is the same band of the whole arrays' result, read at
    the block's rows. -/
theorem linCols_blk_1 {M : Nat} (o : Nat) (ho : o + M ≤ 256) (c : Dev nD) (t : Fin cfg1.N)
    (y : (⟨2, ![5000, M]⟩ : Shape).Idx) (i : (⟨2, ![50000, M]⟩ : Shape).Idx)
    (hi0 : (i 0).val = 5000 * t.val + (y 0).val) (hi1 : (i 1).val = (y 1).val) :
    linCols (R := 5000) (N := 256) o ho (iblk1 V c 0 t) (iblk1 V c 1 t) (iblk1 V c 2 t) y
      = linCols (R := 50000) (N := 256) o ho (V c main_v46) (V c main_v47) (V c main_v48) i := by
  rw [iblk1_1_eq V c t, iblk1_2_eq V c t]
  unfold linCols
  have hj : (⟨o + (y 1).val, Nat.lt_of_lt_of_le (Nat.add_lt_add_left (idx2_lt1 y) o) ho⟩ : Fin 256)
      = ⟨o + (i 1).val, Nat.lt_of_lt_of_le (Nat.add_lt_add_left (idx2_lt1 i) o) ho⟩ := Fin.ext (by show o + (y 1).val = o + (i 1).val; omega)
  rw [hj]
  exact lin_congr (fun k => iblk1_0_apply V c t _ _ hi0 rfl) (fun _ => rfl) rfl

/-! ## First output: stacked features 0 … 191 -/

/-- What point t writes back to the first output is block t of the leading 192 columns of the whole result. -/
theorem flushed1_3_eq (c : Dev nD) (t : Fin cfg1.N) :
    (dat1 V c).flushed 3 t = ((cfg1.win 3).blk t).view.read (Elt Ideal)
      (linCols (R := 50000) (N := 256) (M := 192) 0 (by decide) (V c main_v46) (V c main_v47) (V c main_v48)) := by
  obtain ⟨-, -, -, -, -, h0, h1, -⟩ := idx_1 t
  show (cfg1.win 3).cut (grid1.coords t) ((dat1 V c).after 3 t) = _
  rw [after1_3]
  unfold out1_3
  rw [View.canon_unit_zero off2_zero]
  simp only [View.ld_unit_zero (S := S5000x128) off2_zero, View.ld_unit_zero (S := S256x128) off2_zero,
    View.ld_unit_zero (S := S256) off1_zero]
  rw [pay2_1_eq]
  funext j
  rw [View.read_apply]
  refine linCols_blk_1 V 0 (by decide) c t _ _ ?_ ?_
  · show win1_3.index t (0 : Fin 2) * 5000 + 1 * (j 0).val = 5000 * t.val + (j 0).val; rw [h0]; omega
  · show win1_3.index t (1 : Fin 2) * 192 + 1 * (j 1).val = (j 1).val; rw [h1]; omega

/-- An index of the first output array is in point t's block iff each coordinate is in the block's range. -/
theorem mem_blk1_3 (t : Fin cfg1.N) (i : S50000x192.Idx) :
    i ∈ ((cfg1.win 3).blk t).view.set ↔ ∀ a : Fin 2, win1_3.index t a * S5000x192.size a ≤ (i a).val
      ∧ (i a).val < win1_3.index t a * S5000x192.size a + S5000x192.size a := by
  show i ∈ ((View.whole main_v49_0).slice (win1_3.rect t)).set ↔ _
  rw [View.set_slice_whole, Rect.mem_set_unit]
  exact Iff.rfl

/-- Every index of the first output array is in the block of the point its row falls in. -/
theorem cover1_3 (i : S50000x192.Idx) :
    ∃ t : Fin cfg1.N, (cfg1.win 3).flush t = true ∧ i ∈ ((cfg1.win 3).blk t).view.set := by
  have hi0 : (i 0).val < 50000 := idx2_lt0 i
  have hi1 : (i 1).val < 192 := idx2_lt1 i
  have hN : cfg1.N = 10 := N_1
  have ht : (i 0).val / 5000 < cfg1.N := by rw [hN]; omega
  obtain ⟨-, -, -, -, -, h0, h1, -⟩ := idx_1 ⟨(i 0).val / 5000, ht⟩
  refine ⟨⟨(i 0).val / 5000, ht⟩, flush1_3 _, ?_⟩
  rw [mem_blk1_3]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win1_3.index ⟨(i 0).val / 5000, ht⟩ (1 : Fin 2) * 192 ≤ (i 1).val
      ∧ (i 1).val < win1_3.index ⟨(i 0).val / 5000, ht⟩ (1 : Fin 2) * 192 + 192
    rw [h1]; omega

/-- The first output array after the kernel: columns 0 … 191 of (features · weightsᵀ + bias). -/
theorem final1_3 (c : Dev nD) :
    ((dat1 V c).arrAt 3 cfg1.N : S50000x192.Idx → EReal)
      = linCols (R := 50000) (N := 256) (M := 192) 0 (by decide) (V c main_v46) (V c main_v47) (V c main_v48) :=
  (dat1 V c).arrAt_eq_of_cover 3 _ (fun t _ => flushed1_3_eq V c t) cover1_3

/-! ## Second output: stacked features 192 … 255 -/

/-- What point t writes back to the second output is block t of the trailing 64 columns of the whole result. -/
theorem flushed1_4_eq (c : Dev nD) (t : Fin cfg1.N) :
    (dat1 V c).flushed 4 t = ((cfg1.win 4).blk t).view.read (Elt Ideal)
      (linCols (R := 50000) (N := 256) (M := 64) 192 (by decide) (V c main_v46) (V c main_v47) (V c main_v48)) := by
  obtain ⟨-, -, -, -, -, -, -, h0, h1⟩ := idx_1 t
  show (cfg1.win 4).cut (grid1.coords t) ((dat1 V c).after 4 t) = _
  rw [after1_4]
  unfold out1_4
  rw [View.canon_unit_zero off2_zero]
  simp only [View.ld_unit_zero (S := S5000x128) off2_zero, View.ld_unit_zero (S := S256x128) off2_zero,
    View.ld_unit_zero (S := S256) off1_zero]
  rw [pay3_1_eq]
  funext j
  rw [View.read_apply]
  refine linCols_blk_1 V 192 (by decide) c t _ _ ?_ ?_
  · show win1_4.index t (0 : Fin 2) * 5000 + 1 * (j 0).val = 5000 * t.val + (j 0).val; rw [h0]; omega
  · show win1_4.index t (1 : Fin 2) * 64 + 1 * (j 1).val = (j 1).val; rw [h1]; omega

/-- An index of the second output array is in point t's block iff each coordinate is in the block's range. -/
theorem mem_blk1_4 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v49_1).slice (win1_4.rect t)).set ↔ _
  rw [View.set_slice_whole, Rect.mem_set_unit]
  exact Iff.rfl

/-- Every index of the second output array is in the block of the point its row falls in. -/
theorem cover1_4 (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  have hN : cfg1.N = 10 := N_1
  have ht : (i 0).val / 5000 < cfg1.N := by rw [hN]; omega
  obtain ⟨-, -, -, -, -, -, -, h0, h1⟩ := idx_1 ⟨(i 0).val / 5000, ht⟩
  refine ⟨⟨(i 0).val / 5000, ht⟩, flush1_4 _, ?_⟩
  rw [mem_blk1_4]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [h1]; omega

/-- The second output array after the kernel: columns 192 … 255 of (features · weightsᵀ + bias). -/
theorem final1_4 (c : Dev nD) :
    ((dat1 V c).arrAt 4 cfg1.N : S50000x64.Idx → EReal)
      = linCols (R := 50000) (N := 256) (M := 64) 192 (by decide) (V c main_v46) (V c main_v47) (V c main_v48) :=
  (dat1 V c).arrAt_eq_of_cover 4 _ (fun t _ => flushed1_4_eq V c t) cover1_4

end Cert.KernelIdeal.Hand

end
-- ==== Proof.Bridge.Tail.lean ====
/-
  What follows the four projections in each layer, and what follows the second layer, written once for each program as
  a function of the arrays going in.  A layer takes the keys, queries, values and skip term of every node and the two
  edge lists: it moves negative endpoints to the end of the node list, picks the key of each edge's target and the query
  and value of its source, forms 1 / (1 + exp (−(key + query))) · value, adds the messages of all edges into their
  target rows, adds the skip term and cuts negative parts.  The pooling tail sums the node rows of each graph, divides
  by the larger of the graph's node count and one, and applies the final linear map.  The kernel program keeps keys,
  queries and values in a narrower float format and widens them after the gather; over the extended reals both
  formats are the same numbers and widening does nothing, which is the only difference between the two spellings.
-/
import proofs.«104849_j8564164788984_2_alg».proof.Proof.Gen.KernelIdeal
import proofs.«104849_j8564164788984_2_alg».proof.Proof.Gen.ReferenceIdeal
import Idealize.ShloMosaic.PureOps.Ideal

noncomputable section

namespace Cert.Bridge

open Idealize.ShloMosaic

variable {F : FTy → Type} [FloatOps F]

/-- An edge endpoint below zero counts from the end of the node list; the result is laid out as one index per row. -/
def wrapK (e : (⟨Cert.KernelIdeal.S800000, .i32⟩ : BufTy).Contents (Elt F)) : (⟨Cert.KernelIdeal.S800000x1, .i32⟩ : BufTy).Contents (Elt F) :=
  broadcastInDim Cert.KernelIdeal.S800000x1 ![0] Cert.KernelIdeal.Facts₀.bcast_S800000_S800000x1_0
    (select (cmpi .slt e (broadcastInDim Cert.KernelIdeal.S800000 ![] Cert.KernelIdeal.Facts₀.bcast_S_S800000 (constantI Cert.KernelIdeal.S_ 32 0#32)))
      (addi e (broadcastInDim Cert.KernelIdeal.S800000 ![] Cert.KernelIdeal.Facts₀.bcast_S_S800000 (constantI Cert.KernelIdeal.S_ 32 50000#32))) e)

/-- An edge endpoint below zero counts from the end of the node list; the result is laid out as one index per row. -/
def wrapR (e : (⟨Cert.ReferenceIdeal.S800000, .i32⟩ : BufTy).Contents (Elt F)) : (⟨Cert.ReferenceIdeal.S800000x1, .i32⟩ : BufTy).Contents (Elt F) :=
  broadcastInDim Cert.ReferenceIdeal.S800000x1 ![0] Cert.ReferenceIdeal.Facts₀.bcast_S800000_S800000x1_0
    (select (cmpi .slt e (broadcastInDim Cert.ReferenceIdeal.S800000 ![] Cert.ReferenceIdeal.Facts₀.bcast_S_S800000 (constantI Cert.ReferenceIdeal.S_ 32 0#32)))
      (addi e (broadcastInDim Cert.ReferenceIdeal.S800000 ![] Cert.ReferenceIdeal.Facts₀.bcast_S_S800000 (constantI Cert.ReferenceIdeal.S_ 32 50000#32))) e)

/-- The messages of one layer summed into their target rows, the skip term added, negative parts cut: a function of the
    keys, queries, values and skip term of every node and of the two edge lists. -/
def layerK128 (k q v : (⟨Cert.KernelIdeal.S50000x128, .bf16⟩ : BufTy).Contents (Elt F)) (s : (⟨Cert.KernelIdeal.S50000x128, .f32⟩ : BufTy).Contents (Elt F)) (src dst : (⟨Cert.KernelIdeal.S800000, .i32⟩ : BufTy).Contents (Elt F)) : (⟨Cert.KernelIdeal.S50000x128, .f32⟩ : BufTy).Contents (Elt F) :=
  maximumf (addf (Host.scatterAdd Cert.KernelIdeal.scatter_S50000x128_S800000x1_S800000x128_1_0_0_1 (broadcastInDim Cert.KernelIdeal.S50000x128 ![] Cert.KernelIdeal.Facts₀.bcast_S_S50000x128 (constant Cert.KernelIdeal.S_ .f32 0x00000000#32)) (broadcastInDim Cert.KernelIdeal.S800000x1 ![0] Cert.KernelIdeal.Facts₀.bcast_S800000_S800000x1_0 dst)
    (mulf (Host.divf (broadcastInDim Cert.KernelIdeal.S800000x128 ![] Cert.KernelIdeal.Facts₀.bcast_S_S800000x128 (constant Cert.KernelIdeal.S_ .f32 0x3F800000#32)) (addf (broadcastInDim Cert.KernelIdeal.S800000x128 ![] Cert.KernelIdeal.Facts₀.bcast_S_S800000x128 (constant Cert.KernelIdeal.S_ .f32 0x3F800000#32)) (Host.exp (Host.negf (addf (extf .f32 (Host.gather Cert.KernelIdeal.gather_S50000x128_S800000x1_S800000x128_1_0_n_n_0_1_1128 k (wrapK dst)) Cert.KernelIdeal.Facts₀.bitsLt_bf16_f32) (extf .f32 (Host.gather Cert.KernelIdeal.gather_S50000x128_S800000x1_S800000x128_1_0_n_n_0_1_1128 q (wrapK src)) Cert.KernelIdeal.Facts₀.bitsLt_bf16_f32)))))) (extf .f32 (Host.gather Cert.KernelIdeal.gather_S50000x128_S800000x1_S800000x128_1_0_n_n_0_1_1128 v (wrapK src)) Cert.KernelIdeal.Facts₀.bitsLt_bf16_f32))) s) (broadcastInDim Cert.KernelIdeal.S50000x128 ![] Cert.KernelIdeal.Facts₀.bcast_S_S50000x128 (constant Cert.KernelIdeal.S_ .f32 0x00000000#32))

/-- The messages of one layer summed into their target rows, the skip term added, negative parts cut: a function of the
    keys, queries, values and skip term of every node and of the two edge lists. -/
def layerR128 (k q v : (⟨Cert.ReferenceIdeal.S50000x128, .f32⟩ : BufTy).Contents (Elt F)) (s : (⟨Cert.ReferenceIdeal.S50000x128, .f32⟩ : BufTy).Contents (Elt F)) (src dst : (⟨Cert.ReferenceIdeal.S800000, .i32⟩ : BufTy).Contents (Elt F)) : (⟨Cert.ReferenceIdeal.S50000x128, .f32⟩ : BufTy).Contents (Elt F) :=
  maximumf (addf (Host.scatterAdd Cert.ReferenceIdeal.scatter_S50000x128_S800000x1_S800000x128_1_0_0_1 (broadcastInDim Cert.ReferenceIdeal.S50000x128 ![] Cert.ReferenceIdeal.Facts₀.bcast_S_S50000x128 (constant Cert.ReferenceIdeal.S_ .f32 0x00000000#32)) (broadcastInDim Cert.ReferenceIdeal.S800000x1 ![0] Cert.ReferenceIdeal.Facts₀.bcast_S800000_S800000x1_0 dst)
    (mulf (Host.divf (broadcastInDim Cert.ReferenceIdeal.S800000x128 ![] Cert.ReferenceIdeal.Facts₀.bcast_S_S800000x128 (constant Cert.ReferenceIdeal.S_ .f32 0x3F800000#32)) (addf (broadcastInDim Cert.ReferenceIdeal.S800000x128 ![] Cert.ReferenceIdeal.Facts₀.bcast_S_S800000x128 (constant Cert.ReferenceIdeal.S_ .f32 0x3F800000#32)) (Host.exp (Host.negf (addf (Host.gather Cert.ReferenceIdeal.gather_S50000x128_S800000x1_S800000x128_1_0_n_n_0_1_1128 k (wrapR dst)) (Host.gather Cert.ReferenceIdeal.gather_S50000x128_S800000x1_S800000x128_1_0_n_n_0_1_1128 q (wrapR src))))))) (Host.gather Cert.ReferenceIdeal.gather_S50000x128_S800000x1_S800000x128_1_0_n_n_0_1_1128 v (wrapR src)))) s) (broadcastInDim Cert.ReferenceIdeal.S50000x128 ![] Cert.ReferenceIdeal.Facts₀.bcast_S_S50000x128 (constant Cert.ReferenceIdeal.S_ .f32 0x00000000#32))

/-- The messages of one layer summed into their target rows, the skip term added, negative parts cut: a function of the
    keys, queries, values and skip term of every node and of the two edge lists. -/
def layerK64 (k q v : (⟨Cert.KernelIdeal.S50000x64, .bf16⟩ : BufTy).Contents (Elt F)) (s : (⟨Cert.KernelIdeal.S50000x64, .f32⟩ : BufTy).Contents (Elt F)) (src dst : (⟨Cert.KernelIdeal.S800000, .i32⟩ : BufTy).Contents (Elt F)) : (⟨Cert.KernelIdeal.S50000x64, .f32⟩ : BufTy).Contents (Elt F) :=
  maximumf (addf (Host.scatterAdd Cert.KernelIdeal.scatter_S50000x64_S800000x1_S800000x64_1_0_0_1 (broadcastInDim Cert.KernelIdeal.S50000x64 ![] Cert.KernelIdeal.Facts₀.bcast_S_S50000x64 (constant Cert.KernelIdeal.S_ .f32 0x00000000#32)) (broadcastInDim Cert.KernelIdeal.S800000x1 ![0] Cert.KernelIdeal.Facts₀.bcast_S800000_S800000x1_0 dst)
    (mulf (Host.divf (broadcastInDim Cert.KernelIdeal.S800000x64 ![] Cert.KernelIdeal.Facts₀.bcast_S_S800000x64 (constant Cert.KernelIdeal.S_ .f32 0x3F800000#32)) (addf (broadcastInDim Cert.KernelIdeal.S800000x64 ![] Cert.KernelIdeal.Facts₀.bcast_S_S800000x64 (constant Cert.KernelIdeal.S_ .f32 0x3F800000#32)) (Host.exp (Host.negf (addf (extf .f32 (Host.gather Cert.KernelIdeal.gather_S50000x64_S800000x1_S800000x64_1_0_n_n_0_1_164 k (wrapK dst)) Cert.KernelIdeal.Facts₀.bitsLt_bf16_f32) (extf .f32 (Host.gather Cert.KernelIdeal.gather_S50000x64_S800000x1_S800000x64_1_0_n_n_0_1_164 q (wrapK src)) Cert.KernelIdeal.Facts₀.bitsLt_bf16_f32)))))) (extf .f32 (Host.gather Cert.KernelIdeal.gather_S50000x64_S800000x1_S800000x64_1_0_n_n_0_1_164 v (wrapK src)) Cert.KernelIdeal.Facts₀.bitsLt_bf16_f32))) s) (broadcastInDim Cert.KernelIdeal.S50000x64 ![] Cert.KernelIdeal.Facts₀.bcast_S_S50000x64 (constant Cert.KernelIdeal.S_ .f32 0x00000000#32))

/-- The messages of one layer summed into their target rows, the skip term added, negative parts cut: a function of the
    keys, queries, values and skip term of every node and of the two edge lists. -/
def layerR64 (k q v : (⟨Cert.ReferenceIdeal.S50000x64, .f32⟩ : BufTy).Contents (Elt F)) (s : (⟨Cert.ReferenceIdeal.S50000x64, .f32⟩ : BufTy).Contents (Elt F)) (src dst : (⟨Cert.ReferenceIdeal.S800000, .i32⟩ : BufTy).Contents (Elt F)) : (⟨Cert.ReferenceIdeal.S50000x64, .f32⟩ : BufTy).Contents (Elt F) :=
  maximumf (addf (Host.scatterAdd Cert.ReferenceIdeal.scatter_S50000x64_S800000x1_S800000x64_1_0_0_1 (broadcastInDim Cert.ReferenceIdeal.S50000x64 ![] Cert.ReferenceIdeal.Facts₀.bcast_S_S50000x64 (constant Cert.ReferenceIdeal.S_ .f32 0x00000000#32)) (broadcastInDim Cert.ReferenceIdeal.S800000x1 ![0] Cert.ReferenceIdeal.Facts₀.bcast_S800000_S800000x1_0 dst)
    (mulf (Host.divf (broadcastInDim Cert.ReferenceIdeal.S800000x64 ![] Cert.ReferenceIdeal.Facts₀.bcast_S_S800000x64 (constant Cert.ReferenceIdeal.S_ .f32 0x3F800000#32)) (addf (broadcastInDim Cert.ReferenceIdeal.S800000x64 ![] Cert.ReferenceIdeal.Facts₀.bcast_S_S800000x64 (constant Cert.ReferenceIdeal.S_ .f32 0x3F800000#32)) (Host.exp (Host.negf (addf (Host.gather Cert.ReferenceIdeal.gather_S50000x64_S800000x1_S800000x64_1_0_n_n_0_1_164 k (wrapR dst)) (Host.gather Cert.ReferenceIdeal.gather_S50000x64_S800000x1_S800000x64_1_0_n_n_0_1_164 q (wrapR src))))))) (Host.gather Cert.ReferenceIdeal.gather_S50000x64_S800000x1_S800000x64_1_0_n_n_0_1_164 v (wrapR src)))) s) (broadcastInDim Cert.ReferenceIdeal.S50000x64 ![] Cert.ReferenceIdeal.Facts₀.bcast_S_S50000x64 (constant Cert.ReferenceIdeal.S_ .f32 0x00000000#32))

/-- The mean of the node features over each graph, then the final linear map. -/
def poolK (h : (⟨Cert.KernelIdeal.S50000x64, .f32⟩ : BufTy).Contents (Elt F)) (batch : (⟨Cert.KernelIdeal.S50000, .i32⟩ : BufTy).Contents (Elt F)) (wfc : (⟨Cert.KernelIdeal.S2x64, .f32⟩ : BufTy).Contents (Elt F)) (bfc : (⟨Cert.KernelIdeal.S2, .f32⟩ : BufTy).Contents (Elt F)) : (⟨Cert.KernelIdeal.S64x2, .f32⟩ : BufTy).Contents (Elt F) :=
  addf (Host.dotGeneral Cert.KernelIdeal.dot_S64x64_S64x2_S64x2_1_0_0_1_n_n none
      (Host.divf (Host.scatterAdd Cert.KernelIdeal.scatter_S64x64_S50000x1_S50000x64_1_0_0_1 (broadcastInDim Cert.KernelIdeal.S64x64 ![] Cert.KernelIdeal.Facts₀.bcast_S_S64x64 (constant Cert.KernelIdeal.S_ .f32 0x00000000#32)) (broadcastInDim Cert.KernelIdeal.S50000x1 ![0] Cert.KernelIdeal.Facts₀.bcast_S50000_S50000x1_0 batch) h)
        (broadcastInDim Cert.KernelIdeal.S64x64 ![0, 1] Cert.KernelIdeal.Facts₀.bcast_S64x1_S64x64_0_1 (broadcastInDim Cert.KernelIdeal.S64x1 ![0] Cert.KernelIdeal.Facts₀.bcast_S64_S64x1_0
          (maximumf (Host.scatterAdd Cert.KernelIdeal.scatter_S64_S50000x1_S50000_n_0_0_1 (broadcastInDim Cert.KernelIdeal.S64 ![] Cert.KernelIdeal.Facts₀.bcast_S_S64 (constant Cert.KernelIdeal.S_ .f32 0x00000000#32)) (broadcastInDim Cert.KernelIdeal.S50000x1 ![0] Cert.KernelIdeal.Facts₀.bcast_S50000_S50000x1_0 batch) (broadcastInDim Cert.KernelIdeal.S50000 ![] Cert.KernelIdeal.Facts₀.bcast_S_S50000 (constant Cert.KernelIdeal.S_ .f32 0x3F800000#32)))
            (broadcastInDim Cert.KernelIdeal.S64 ![] Cert.KernelIdeal.Facts₀.bcast_S_S64 (constant Cert.KernelIdeal.S_ .f32 0x3F800000#32))))))
      (transpose Cert.KernelIdeal.S64x2 [1, 0] wfc Cert.KernelIdeal.Facts₀.transposes_S2x64_S64x2_1_0))
    (broadcastInDim Cert.KernelIdeal.S64x2 ![0, 1] Cert.KernelIdeal.Facts₀.bcast_S1x2_S64x2_0_1 (broadcastInDim Cert.KernelIdeal.S1x2 ![1] Cert.KernelIdeal.Facts₀.bcast_S2_S1x2_1 bfc))

/-- The mean of the node features over each graph, then the final linear map. -/
def poolR (h : (⟨Cert.ReferenceIdeal.S50000x64, .f32⟩ : BufTy).Contents (Elt F)) (batch : (⟨Cert.ReferenceIdeal.S50000, .i32⟩ : BufTy).Contents (Elt F)) (wfc : (⟨Cert.ReferenceIdeal.S2x64, .f32⟩ : BufTy).Contents (Elt F)) (bfc : (⟨Cert.ReferenceIdeal.S2, .f32⟩ : BufTy).Contents (Elt F)) : (⟨Cert.ReferenceIdeal.S64x2, .f32⟩ : BufTy).Contents (Elt F) :=
  addf (Host.dotGeneral Cert.ReferenceIdeal.dot_S64x64_S64x2_S64x2_1_0_0_1_n_n none
      (Host.divf (Host.scatterAdd Cert.ReferenceIdeal.scatter_S64x64_S50000x1_S50000x64_1_0_0_1 (broadcastInDim Cert.ReferenceIdeal.S64x64 ![] Cert.ReferenceIdeal.Facts₀.bcast_S_S64x64 (constant Cert.ReferenceIdeal.S_ .f32 0x00000000#32)) (broadcastInDim Cert.ReferenceIdeal.S50000x1 ![0] Cert.ReferenceIdeal.Facts₀.bcast_S50000_S50000x1_0 batch) h)
        (broadcastInDim Cert.ReferenceIdeal.S64x64 ![0, 1] Cert.ReferenceIdeal.Facts₀.bcast_S64x1_S64x64_0_1 (broadcastInDim Cert.ReferenceIdeal.S64x1 ![0] Cert.ReferenceIdeal.Facts₀.bcast_S64_S64x1_0
          (maximumf (Host.scatterAdd Cert.ReferenceIdeal.scatter_S64_S50000x1_S50000_n_0_0_1 (broadcastInDim Cert.ReferenceIdeal.S64 ![] Cert.ReferenceIdeal.Facts₀.bcast_S_S64 (constant Cert.ReferenceIdeal.S_ .f32 0x00000000#32)) (broadcastInDim Cert.ReferenceIdeal.S50000x1 ![0] Cert.ReferenceIdeal.Facts₀.bcast_S50000_S50000x1_0 batch) (broadcastInDim Cert.ReferenceIdeal.S50000 ![] Cert.ReferenceIdeal.Facts₀.bcast_S_S50000 (constant Cert.ReferenceIdeal.S_ .f32 0x3F800000#32)))
            (broadcastInDim Cert.ReferenceIdeal.S64 ![] Cert.ReferenceIdeal.Facts₀.bcast_S_S64 (constant Cert.ReferenceIdeal.S_ .f32 0x3F800000#32))))))
      (transpose Cert.ReferenceIdeal.S64x2 [1, 0] wfc Cert.ReferenceIdeal.Facts₀.transposes_S2x64_S64x2_1_0))
    (broadcastInDim Cert.ReferenceIdeal.S64x2 ![0, 1] Cert.ReferenceIdeal.Facts₀.bcast_S1x2_S64x2_0_1 (broadcastInDim Cert.ReferenceIdeal.S1x2 ![1] Cert.ReferenceIdeal.Facts₀.bcast_S2_S1x2_1 bfc))

/-- One projection of the reference: rows · weightsᵀ + bias. -/
def lin128 (x : (⟨Cert.ReferenceIdeal.S50000x128, .f32⟩ : BufTy).Contents (Elt F)) (w : (⟨Cert.ReferenceIdeal.S128x128, .f32⟩ : BufTy).Contents (Elt F)) (b : (⟨Cert.ReferenceIdeal.S128, .f32⟩ : BufTy).Contents (Elt F)) : (⟨Cert.ReferenceIdeal.S50000x128, .f32⟩ : BufTy).Contents (Elt F) :=
  addf (Host.dotGeneral Cert.ReferenceIdeal.dot_S50000x128_S128x128_S50000x128_1_0_0_1_n_n none x (transpose Cert.ReferenceIdeal.S128x128 [1, 0] w Cert.ReferenceIdeal.Facts₀.transposes_S128x128_S128x128_1_0))
    (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b))

/-- One projection of the reference: rows · weightsᵀ + bias. -/
def lin64 (x : (⟨Cert.ReferenceIdeal.S50000x128, .f32⟩ : BufTy).Contents (Elt F)) (w : (⟨Cert.ReferenceIdeal.S64x128, .f32⟩ : BufTy).Contents (Elt F)) (b : (⟨Cert.ReferenceIdeal.S64, .f32⟩ : BufTy).Contents (Elt F)) : (⟨Cert.ReferenceIdeal.S50000x64, .f32⟩ : BufTy).Contents (Elt F) :=
  addf (Host.dotGeneral Cert.ReferenceIdeal.dot_S50000x128_S128x64_S50000x64_1_0_0_1_n_n none x (transpose Cert.ReferenceIdeal.S128x64 [1, 0] w Cert.ReferenceIdeal.Facts₀.transposes_S64x128_S128x64_1_0))
    (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 b))

/-! ## The two spellings agree over the extended reals -/

theorem wrapK_eq (e : (⟨Cert.KernelIdeal.S800000, .i32⟩ : BufTy).Contents (Elt Ideal)) : wrapK (F := Ideal) e = wrapR (F := Ideal) e := rfl

theorem layerK128_eq (k q v s : Cert.ReferenceIdeal.S50000x128.Idx → EReal) (src dst : (⟨Cert.ReferenceIdeal.S800000, .i32⟩ : BufTy).Contents (Elt Ideal)) :
    layerK128 (F := Ideal) k q v s src dst = layerR128 (F := Ideal) k q v s src dst := rfl

theorem layerK64_eq (k q v s : Cert.ReferenceIdeal.S50000x64.Idx → EReal) (src dst : (⟨Cert.ReferenceIdeal.S800000, .i32⟩ : BufTy).Contents (Elt Ideal)) :
    layerK64 (F := Ideal) k q v s src dst = layerR64 (F := Ideal) k q v s src dst := rfl

theorem poolK_eq (h : Cert.ReferenceIdeal.S50000x64.Idx → EReal) (batch : (⟨Cert.ReferenceIdeal.S50000, .i32⟩ : BufTy).Contents (Elt Ideal)) (wfc : Cert.ReferenceIdeal.S2x64.Idx → EReal) (bfc : Cert.ReferenceIdeal.S2.Idx → EReal) :
    poolK (F := Ideal) h batch wfc bfc = poolR (F := Ideal) h batch wfc bfc := rfl

end Cert.Bridge

end
-- ==== Proof.Bridge.KernelTerms.lean ====
/-
  The kernel program's buffers, read back between its kernels.  Between the two projection kernels and after the
  second the program is host operations only, so each buffer there is the operations' composed function of the buffers
  the stretch started from.  This module states those functions under the names of the layer and pooling functions:
  the first layer's result from the first kernel's two outputs and the edge lists, the second kernel's weight and bias
  arrays as the four matrices (four vectors) stacked, and the program's result from the second kernel's two outputs.
  It also follows the buffers no kernel touches (edge lists, graph numbers, parameters) from the launch memory through
  both kernels.
-/
import proofs.«104849_j8564164788984_2_alg».proof.Proof.KI.Fold
import proofs.«104849_j8564164788984_2_alg».proof.Proof.Bridge.Tail

set_option maxRecDepth 16384

noncomputable section

namespace Cert.Bridge

open Idealize.ShloMosaic Idealize.ShloMosaic.TcCoe Idealize.SL.Sem
open Cert.KernelIdeal Cert.KernelIdeal.Gen Cert.KernelIdeal.Hand
open Idealize.ShloMosaic.StableHlo

variable {F : FTy → Type} [FloatOps F]
variable (m : (ℓ : Loc nD τ sig) → Buf (Elt F) ℓ)

/-! ## Before the first kernel -/

/-- The source endpoints: row 0 of the edge array. -/
def srcOf (e : (⟨S2x800000, .i32⟩ : BufTy).Contents (Elt F)) : (⟨S800000, .i32⟩ : BufTy).Contents (Elt F) :=
  shapeCast _ (extractStridedSlice S1x800000 ![0, 0] e Facts₀.slices_S2x800000_S1x800000_0_0) Facts₀.shapeCasts_S1x800000_S800000
/-- The target endpoints: row 1 of the edge array. -/
def dstOf (e : (⟨S2x800000, .i32⟩ : BufTy).Contents (Elt F)) : (⟨S800000, .i32⟩ : BufTy).Contents (Elt F) :=
  shapeCast _ (extractStridedSlice S1x800000 ![1, 0] e Facts₀.slices_S2x800000_S1x800000_1_0) Facts₀.shapeCasts_S1x800000_S800000

theorem W1_v1 (c : Dev nD) : W1 m c (Proc.devRef .tc main_v1) = srcOf (m ((c.tc : Thread nD τ).loc main_arg1)) := by
  show StableHlo.after hostOps0 (W0 m c) _ = _
  after_results_simp
  rfl
theorem W1_v3 (c : Dev nD) : W1 m c (Proc.devRef .tc main_v3) = dstOf (m ((c.tc : Thread nD τ).loc main_arg1)) := by
  show StableHlo.after hostOps0 (W0 m c) _ = _
  after_results_simp
  rfl
/-- The first kernel's weight array: the four first-layer matrices stacked along rows. -/
theorem W1_v4 (c : Dev nD) : W1 m c (Proc.devRef .tc main_v4) =
    concatenate S512x128 0 [⟨S128x128, m ((c.tc : Thread nD τ).loc main_arg3)⟩, ⟨S128x128, m ((c.tc : Thread nD τ).loc main_arg5)⟩, ⟨S128x128, m ((c.tc : Thread nD τ).loc main_arg7)⟩, ⟨S128x128, m ((c.tc : Thread nD τ).loc main_arg9)⟩] Facts₀.concatenates_S128x128_S128x128_S128x128_S128x128_S512x128_d0 := by
  show StableHlo.after hostOps0 (W0 m c) _ = _
  after_results_simp
  rfl
/-- The first kernel's bias array: the four first-layer biases stacked. -/
theorem W1_v5 (c : Dev nD) : W1 m c (Proc.devRef .tc main_v5) =
    concatenate S512 0 [⟨S128, m ((c.tc : Thread nD τ).loc main_arg4)⟩, ⟨S128, m ((c.tc : Thread nD τ).loc main_arg6)⟩, ⟨S128, m ((c.tc : Thread nD τ).loc main_arg8)⟩, ⟨S128, m ((c.tc : Thread nD τ).loc main_arg10)⟩] Facts₀.concatenates_S128_S128_S128_S128_S512_d0 := by
  show StableHlo.after hostOps0 (W0 m c) _ = _
  after_results_simp
  rfl
theorem W1_arg0 (c : Dev nD) : W1 m c (Proc.devRef .tc main_arg0) = m ((c.tc : Thread nD τ).loc main_arg0) := by
  show StableHlo.after hostOps0 (W0 m c) _ = _
  after_results_simp
theorem W1_arg2 (c : Dev nD) : W1 m c (Proc.devRef .tc main_arg2) = m ((c.tc : Thread nD τ).loc main_arg2) := by
  show StableHlo.after hostOps0 (W0 m c) _ = _
  after_results_simp
theorem W1_arg11 (c : Dev nD) : W1 m c (Proc.devRef .tc main_arg11) = m ((c.tc : Thread nD τ).loc main_arg11) := by
  show StableHlo.after hostOps0 (W0 m c) _ = _
  after_results_simp
theorem W1_arg12 (c : Dev nD) : W1 m c (Proc.devRef .tc main_arg12) = m ((c.tc : Thread nD τ).loc main_arg12) := by
  show StableHlo.after hostOps0 (W0 m c) _ = _
  after_results_simp
theorem W1_arg13 (c : Dev nD) : W1 m c (Proc.devRef .tc main_arg13) = m ((c.tc : Thread nD τ).loc main_arg13) := by
  show StableHlo.after hostOps0 (W0 m c) _ = _
  after_results_simp
theorem W1_arg14 (c : Dev nD) : W1 m c (Proc.devRef .tc main_arg14) = m ((c.tc : Thread nD τ).loc main_arg14) := by
  show StableHlo.after hostOps0 (W0 m c) _ = _
  after_results_simp
theorem W1_arg15 (c : Dev nD) : W1 m c (Proc.devRef .tc main_arg15) = m ((c.tc : Thread nD τ).loc main_arg15) := by
  show StableHlo.after hostOps0 (W0 m c) _ = _
  after_results_simp
theorem W1_arg16 (c : Dev nD) : W1 m c (Proc.devRef .tc main_arg16) = m ((c.tc : Thread nD τ).loc main_arg16) := by
  show StableHlo.after hostOps0 (W0 m c) _ = _
  after_results_simp
theorem W1_arg17 (c : Dev nD) : W1 m c (Proc.devRef .tc main_arg17) = m ((c.tc : Thread nD τ).loc main_arg17) := by
  show StableHlo.after hostOps0 (W0 m c) _ = _
  after_results_simp
theorem W1_arg18 (c : Dev nD) : W1 m c (Proc.devRef .tc main_arg18) = m ((c.tc : Thread nD τ).loc main_arg18) := by
  show StableHlo.after hostOps0 (W0 m c) _ = _
  after_results_simp
theorem W1_arg19 (c : Dev nD) : W1 m c (Proc.devRef .tc main_arg19) = m ((c.tc : Thread nD τ).loc main_arg19) := by
  show StableHlo.after hostOps0 (W0 m c) _ = _
  after_results_simp
theorem W1_arg20 (c : Dev nD) : W1 m c (Proc.devRef .tc main_arg20) = m ((c.tc : Thread nD τ).loc main_arg20) := by
  show StableHlo.after hostOps0 (W0 m c) _ = _
  after_results_simp

/-! ## Through the first kernel: it writes its five arrays only -/
theorem W2_v1 (c : Dev nD) : W2 m c (Proc.devRef .tc main_v1) = W1 m c (Proc.devRef .tc main_v1) := W2_of_ne m c main_v1 (by decide)
theorem W2_v3 (c : Dev nD) : W2 m c (Proc.devRef .tc main_v3) = W1 m c (Proc.devRef .tc main_v3) := W2_of_ne m c main_v3 (by decide)
theorem W2_arg2 (c : Dev nD) : W2 m c (Proc.devRef .tc main_arg2) = W1 m c (Proc.devRef .tc main_arg2) := W2_of_ne m c main_arg2 (by decide)
theorem W2_arg11 (c : Dev nD) : W2 m c (Proc.devRef .tc main_arg11) = W1 m c (Proc.devRef .tc main_arg11) := W2_of_ne m c main_arg11 (by decide)
theorem W2_arg12 (c : Dev nD) : W2 m c (Proc.devRef .tc main_arg12) = W1 m c (Proc.devRef .tc main_arg12) := W2_of_ne m c main_arg12 (by decide)
theorem W2_arg13 (c : Dev nD) : W2 m c (Proc.devRef .tc main_arg13) = W1 m c (Proc.devRef .tc main_arg13) := W2_of_ne m c main_arg13 (by decide)
theorem W2_arg14 (c : Dev nD) : W2 m c (Proc.devRef .tc main_arg14) = W1 m c (Proc.devRef .tc main_arg14) := W2_of_ne m c main_arg14 (by decide)
theorem W2_arg15 (c : Dev nD) : W2 m c (Proc.devRef .tc main_arg15) = W1 m c (Proc.devRef .tc main_arg15) := W2_of_ne m c main_arg15 (by decide)
theorem W2_arg16 (c : Dev nD) : W2 m c (Proc.devRef .tc main_arg16) = W1 m c (Proc.devRef .tc main_arg16) := W2_of_ne m c main_arg16 (by decide)
theorem W2_arg17 (c : Dev nD) : W2 m c (Proc.devRef .tc main_arg17) = W1 m c (Proc.devRef .tc main_arg17) := W2_of_ne m c main_arg17 (by decide)
theorem W2_arg18 (c : Dev nD) : W2 m c (Proc.devRef .tc main_arg18) = W1 m c (Proc.devRef .tc main_arg18) := W2_of_ne m c main_arg18 (by decide)
theorem W2_arg19 (c : Dev nD) : W2 m c (Proc.devRef .tc main_arg19) = W1 m c (Proc.devRef .tc main_arg19) := W2_of_ne m c main_arg19 (by decide)
theorem W2_arg20 (c : Dev nD) : W2 m c (Proc.devRef .tc main_arg20) = W1 m c (Proc.devRef .tc main_arg20) := W2_of_ne m c main_arg20 (by decide)

/-! ## Between the kernels -/

set_option maxHeartbeats 4000000 in
/-- The first layer's result, from the first kernel's outputs (keys | queries | values side by side; the skip term). -/
theorem W4_v46 (c : Dev nD) :
    W4 m c (Proc.devRef .tc main_v46) =
      layerK128 (extractStridedSlice S50000x128 ![0, 0] (W2 m c (Proc.devRef .tc main_v6_0)) Facts₀.slices_S50000x384_S50000x128_0_0)
        (extractStridedSlice S50000x128 ![0, 128] (W2 m c (Proc.devRef .tc main_v6_0)) Facts₀.slices_S50000x384_S50000x128_0_128)
        (extractStridedSlice S50000x128 ![0, 256] (W2 m c (Proc.devRef .tc main_v6_0)) Facts₀.slices_S50000x384_S50000x128_0_256)
        (W2 m c (Proc.devRef .tc main_v6_1)) (W2 m c (Proc.devRef .tc main_v1)) (W2 m c (Proc.devRef .tc main_v3)) := by
  show StableHlo.after hostOps1_1 (StableHlo.after hostOps1 (W2 m c)) _ = _
  generalize W2 m c = V
  after_results_simp
  rfl

theorem W5_v46 (c : Dev nD) : W5 m c (Proc.devRef .tc main_v46) = W4 m c (Proc.devRef .tc main_v46) := by
  show StableHlo.after hostOps1_2 (W4 m c) _ = _
  generalize W4 m c = V
  after_results_simp
set_option maxHeartbeats 4000000 in
theorem W5_v1 (c : Dev nD) : W5 m c (Proc.devRef .tc main_v1) = W2 m c (Proc.devRef .tc main_v1) := by
  show StableHlo.after hostOps1_2 (StableHlo.after hostOps1_1 (StableHlo.after hostOps1 (W2 m c))) _ = _
  generalize W2 m c = V
  after_results_simp
set_option maxHeartbeats 4000000 in
theorem W5_v3 (c : Dev nD) : W5 m c (Proc.devRef .tc main_v3) = W2 m c (Proc.devRef .tc main_v3) := by
  show StableHlo.after hostOps1_2 (StableHlo.after hostOps1_1 (StableHlo.after hostOps1 (W2 m c))) _ = _
  generalize W2 m c = V
  after_results_simp
set_option maxHeartbeats 4000000 in
theorem W5_arg2 (c : Dev nD) : W5 m c (Proc.devRef .tc main_arg2) = W2 m c (Proc.devRef .tc main_arg2) := by
  show StableHlo.after hostOps1_2 (StableHlo.after hostOps1_1 (StableHlo.after hostOps1 (W2 m c))) _ = _
  generalize W2 m c = V
  after_results_simp
set_option maxHeartbeats 4000000 in
theorem W5_arg19 (c : Dev nD) : W5 m c (Proc.devRef .tc main_arg19) = W2 m c (Proc.devRef .tc main_arg19) := by
  show StableHlo.after hostOps1_2 (StableHlo.after hostOps1_1 (StableHlo.after hostOps1 (W2 m c))) _ = _
  generalize W2 m c = V
  after_results_simp
set_option maxHeartbeats 4000000 in
theorem W5_arg20 (c : Dev nD) : W5 m c (Proc.devRef .tc main_arg20) = W2 m c (Proc.devRef .tc main_arg20) := by
  show StableHlo.after hostOps1_2 (StableHlo.after hostOps1_1 (StableHlo.after hostOps1 (W2 m c))) _ = _
  generalize W2 m c = V
  after_results_simp

set_option maxHeartbeats 4000000 in
/-- The second kernel's weight array: the four second-layer matrices stacked along rows. -/
theorem W5_v47 (c : Dev nD) : W5 m c (Proc.devRef .tc main_v47) =
    concatenate S256x128 0 [⟨S64x128, W2 m c (Proc.devRef .tc main_arg11)⟩, ⟨S64x128, W2 m c (Proc.devRef .tc main_arg13)⟩, ⟨S64x128, W2 m c (Proc.devRef .tc main_arg15)⟩, ⟨S64x128, W2 m c (Proc.devRef .tc main_arg17)⟩] Facts₀.concatenates_S64x128_S64x128_S64x128_S64x128_S256x128_d0 := by
  show StableHlo.after hostOps1_2 (StableHlo.after hostOps1_1 (StableHlo.after hostOps1 (W2 m c))) _ = _
  generalize W2 m c = V
  after_results_simp
  rfl
set_option maxHeartbeats 4000000 in
/-- The second kernel's bias array: the four second-layer biases stacked. -/
theorem W5_v48 (c : Dev nD) : W5 m c (Proc.devRef .tc main_v48) =
    concatenate S256 0 [⟨S64, W2 m c (Proc.devRef .tc main_arg12)⟩, ⟨S64, W2 m c (Proc.devRef .tc main_arg14)⟩, ⟨S64, W2 m c (Proc.devRef .tc main_arg16)⟩, ⟨S64, W2 m c (Proc.devRef .tc main_arg18)⟩] Facts₀.concatenates_S64_S64_S64_S64_S256_d0 := by
  show StableHlo.after hostOps1_2 (StableHlo.after hostOps1_1 (StableHlo.after hostOps1 (W2 m c))) _ = _
  generalize W2 m c = V
  after_results_simp
  rfl

/-! ## Through the second kernel -/
theorem W6_v1 (c : Dev nD) : W6 m c (Proc.devRef .tc main_v1) = W5 m c (Proc.devRef .tc main_v1) := W6_of_ne m c main_v1 (by decide)
theorem W6_v3 (c : Dev nD) : W6 m c (Proc.devRef .tc main_v3) = W5 m c (Proc.devRef .tc main_v3) := W6_of_ne m c main_v3 (by decide)
theorem W6_arg2 (c : Dev nD) : W6 m c (Proc.devRef .tc main_arg2) = W5 m c (Proc.devRef .tc main_arg2) := W6_of_ne m c main_arg2 (by decide)
theorem W6_arg19 (c : Dev nD) : W6 m c (Proc.devRef .tc main_arg19) = W5 m c (Proc.devRef .tc main_arg19) := W6_of_ne m c main_arg19 (by decide)
theorem W6_arg20 (c : Dev nD) : W6 m c (Proc.devRef .tc main_arg20) = W5 m c (Proc.devRef .tc main_arg20) := W6_of_ne m c main_arg20 (by decide)

/-! ## After the second kernel -/

set_option maxHeartbeats 8000000 in
/-- The program's result, from the second kernel's outputs. -/
theorem W9_v106 (c : Dev nD) :
    W9 m c (Proc.devRef .tc main_v106) =
      poolK (layerK64 (extractStridedSlice S50000x64 ![0, 0] (W6 m c (Proc.devRef .tc main_v49_0)) Facts₀.slices_S50000x192_S50000x64_0_0)
          (extractStridedSlice S50000x64 ![0, 64] (W6 m c (Proc.devRef .tc main_v49_0)) Facts₀.slices_S50000x192_S50000x64_0_64)
          (extractStridedSlice S50000x64 ![0, 128] (W6 m c (Proc.devRef .tc main_v49_0)) Facts₀.slices_S50000x192_S50000x64_0_128)
          (W6 m c (Proc.devRef .tc main_v49_1)) (W6 m c (Proc.devRef .tc main_v1)) (W6 m c (Proc.devRef .tc main_v3)))
        (W6 m c (Proc.devRef .tc main_arg2)) (W6 m c (Proc.devRef .tc main_arg19)) (W6 m c (Proc.devRef .tc main_arg20)) := by
  show StableHlo.after hostOps2_2 (StableHlo.after hostOps2_1 (StableHlo.after hostOps2 (W6 m c))) _ = _
  generalize W6 m c = V
  after_results_simp
  rfl

end Cert.Bridge

end
-- ==== Proof.Bridge.Stack.lean ====
/-
  Stacked weights and biases read at an entry.  The kernel program stacks a layer's four weight matrices along rows and
  its four biases end to end before its projection kernel.  Row n of the stack, for n = (size of a piece) · p + j, is
  row j of piece p; likewise for the biases.
-/
import proofs.«104849_j8564164788984_2_alg».proof.Proof.Gen.KernelIdeal
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Cert.KernelIdeal Idealize.ShloMosaic.ValueIdx

/-! ## First layer: four 128 × 128 matrices stacked into 512 × 128, four biases into 512 -/

theorem stackW128_0 (w0 w1 w2 w3 : S128x128.Idx → EReal) (n : Fin 512) (j : Fin 128) (k : Fin 128) (hn : n.val = 0 + j.val) :
    concatenate S512x128 0 [⟨S128x128, w0⟩, ⟨S128x128, w1⟩, ⟨S128x128, w2⟩, ⟨S128x128, w3⟩] Facts₀.concatenates_S128x128_S128x128_S128x128_S128x128_S512x128_d0 (ix2 n k) = w0 (ix2 j k) :=
  concatenate_apply_piece (α := EReal) 0 [⟨S128x128, w0⟩, ⟨S128x128, w1⟩, ⟨S128x128, w2⟩, ⟨S128x128, w3⟩] Facts₀.concatenates_S128x128_S128x128_S128x128_S128x128_S512x128_d0 (ix2 n k) 0 (by show (0 : Nat) < 4; decide) S128x128 w0 rfl rfl 0 rfl (ix2 j k)
    (fun b hb => match b, hb with | ⟨0, _⟩, hb => absurd rfl hb | ⟨1, _⟩, _ => rfl) hn.symm
theorem stackB128_0 (b0 b1 b2 b3 : S128.Idx → EReal) (n : Fin 512) (j : Fin 128) (hn : n.val = 0 + j.val) :
    concatenate S512 0 [⟨S128, b0⟩, ⟨S128, b1⟩, ⟨S128, b2⟩, ⟨S128, b3⟩] Facts₀.concatenates_S128_S128_S128_S128_S512_d0 (ix1 n) = b0 (ix1 j) :=
  concatenate_apply_piece (α := EReal) 0 [⟨S128, b0⟩, ⟨S128, b1⟩, ⟨S128, b2⟩, ⟨S128, b3⟩] Facts₀.concatenates_S128_S128_S128_S128_S512_d0 (ix1 n) 0 (by show (0 : Nat) < 4; decide) S128 b0 rfl rfl 0 rfl (ix1 j)
    (fun b hb => match b, hb with | ⟨0, _⟩, hb => absurd rfl hb) hn.symm

theorem stackW128_1 (w0 w1 w2 w3 : S128x128.Idx → EReal) (n : Fin 512) (j : Fin 128) (k : Fin 128) (hn : n.val = 128 + j.val) :
    concatenate S512x128 0 [⟨S128x128, w0⟩, ⟨S128x128, w1⟩, ⟨S128x128, w2⟩, ⟨S128x128, w3⟩] Facts₀.concatenates_S128x128_S128x128_S128x128_S128x128_S512x128_d0 (ix2 n k) = w1 (ix2 j k) :=
  concatenate_apply_piece (α := EReal) 0 [⟨S128x128, w0⟩, ⟨S128x128, w1⟩, ⟨S128x128, w2⟩, ⟨S128x128, w3⟩] Facts₀.concatenates_S128x128_S128x128_S128x128_S128x128_S512x128_d0 (ix2 n k) 1 (by show (1 : Nat) < 4; decide) S128x128 w1 rfl rfl 128 rfl (ix2 j k)
    (fun b hb => match b, hb with | ⟨0, _⟩, hb => absurd rfl hb | ⟨1, _⟩, _ => rfl) hn.symm
theorem stackB128_1 (b0 b1 b2 b3 : S128.Idx → EReal) (n : Fin 512) (j : Fin 128) (hn : n.val = 128 + j.val) :
    concatenate S512 0 [⟨S128, b0⟩, ⟨S128, b1⟩, ⟨S128, b2⟩, ⟨S128, b3⟩] Facts₀.concatenates_S128_S128_S128_S128_S512_d0 (ix1 n) = b1 (ix1 j) :=
  concatenate_apply_piece (α := EReal) 0 [⟨S128, b0⟩, ⟨S128, b1⟩, ⟨S128, b2⟩, ⟨S128, b3⟩] Facts₀.concatenates_S128_S128_S128_S128_S512_d0 (ix1 n) 1 (by show (1 : Nat) < 4; decide) S128 b1 rfl rfl 128 rfl (ix1 j)
    (fun b hb => match b, hb with | ⟨0, _⟩, hb => absurd rfl hb) hn.symm

theorem stackW128_2 (w0 w1 w2 w3 : S128x128.Idx → EReal) (n : Fin 512) (j : Fin 128) (k : Fin 128) (hn : n.val = 256 + j.val) :
    concatenate S512x128 0 [⟨S128x128, w0⟩, ⟨S128x128, w1⟩, ⟨S128x128, w2⟩, ⟨S128x128, w3⟩] Facts₀.concatenates_S128x128_S128x128_S128x128_S128x128_S512x128_d0 (ix2 n k) = w2 (ix2 j k) :=
  concatenate_apply_piece (α := EReal) 0 [⟨S128x128, w0⟩, ⟨S128x128, w1⟩, ⟨S128x128, w2⟩, ⟨S128x128, w3⟩] Facts₀.concatenates_S128x128_S128x128_S128x128_S128x128_S512x128_d0 (ix2 n k) 2 (by show (2 : Nat) < 4; decide) S128x128 w2 rfl rfl 256 rfl (ix2 j k)
    (fun b hb => match b, hb with | ⟨0, _⟩, hb => absurd rfl hb | ⟨1, _⟩, _ => rfl) hn.symm
theorem stackB128_2 (b0 b1 b2 b3 : S128.Idx → EReal) (n : Fin 512) (j : Fin 128) (hn : n.val = 256 + j.val) :
    concatenate S512 0 [⟨S128, b0⟩, ⟨S128, b1⟩, ⟨S128, b2⟩, ⟨S128, b3⟩] Facts₀.concatenates_S128_S128_S128_S128_S512_d0 (ix1 n) = b2 (ix1 j) :=
  concatenate_apply_piece (α := EReal) 0 [⟨S128, b0⟩, ⟨S128, b1⟩, ⟨S128, b2⟩, ⟨S128, b3⟩] Facts₀.concatenates_S128_S128_S128_S128_S512_d0 (ix1 n) 2 (by show (2 : Nat) < 4; decide) S128 b2 rfl rfl 256 rfl (ix1 j)
    (fun b hb => match b, hb with | ⟨0, _⟩, hb => absurd rfl hb) hn.symm

theorem stackW128_3 (w0 w1 w2 w3 : S128x128.Idx → EReal) (n : Fin 512) (j : Fin 128) (k : Fin 128) (hn : n.val = 384 + j.val) :
    concatenate S512x128 0 [⟨S128x128, w0⟩, ⟨S128x128, w1⟩, ⟨S128x128, w2⟩, ⟨S128x128, w3⟩] Facts₀.concatenates_S128x128_S128x128_S128x128_S128x128_S512x128_d0 (ix2 n k) = w3 (ix2 j k) :=
  concatenate_apply_piece (α := EReal) 0 [⟨S128x128, w0⟩, ⟨S128x128, w1⟩, ⟨S128x128, w2⟩, ⟨S128x128, w3⟩] Facts₀.concatenates_S128x128_S128x128_S128x128_S128x128_S512x128_d0 (ix2 n k) 3 (by show (3 : Nat) < 4; decide) S128x128 w3 rfl rfl 384 rfl (ix2 j k)
    (fun b hb => match b, hb with | ⟨0, _⟩, hb => absurd rfl hb | ⟨1, _⟩, _ => rfl) hn.symm
theorem stackB128_3 (b0 b1 b2 b3 : S128.Idx → EReal) (n : Fin 512) (j : Fin 128) (hn : n.val = 384 + j.val) :
    concatenate S512 0 [⟨S128, b0⟩, ⟨S128, b1⟩, ⟨S128, b2⟩, ⟨S128, b3⟩] Facts₀.concatenates_S128_S128_S128_S128_S512_d0 (ix1 n) = b3 (ix1 j) :=
  concatenate_apply_piece (α := EReal) 0 [⟨S128, b0⟩, ⟨S128, b1⟩, ⟨S128, b2⟩, ⟨S128, b3⟩] Facts₀.concatenates_S128_S128_S128_S128_S512_d0 (ix1 n) 3 (by show (3 : Nat) < 4; decide) S128 b3 rfl rfl 384 rfl (ix1 j)
    (fun b hb => match b, hb with | ⟨0, _⟩, hb => absurd rfl hb) hn.symm

/-! ## Second layer: four 64 × 128 matrices stacked into 256 × 128, four biases into 256 -/

theorem stackW64_0 (w0 w1 w2 w3 : S64x128.Idx → EReal) (n : Fin 256) (j : Fin 64) (k : Fin 128) (hn : n.val = 0 + j.val) :
    concatenate S256x128 0 [⟨S64x128, w0⟩, ⟨S64x128, w1⟩, ⟨S64x128, w2⟩, ⟨S64x128, w3⟩] Facts₀.concatenates_S64x128_S64x128_S64x128_S64x128_S256x128_d0 (ix2 n k) = w0 (ix2 j k) :=
  concatenate_apply_piece (α := EReal) 0 [⟨S64x128, w0⟩, ⟨S64x128, w1⟩, ⟨S64x128, w2⟩, ⟨S64x128, w3⟩] Facts₀.concatenates_S64x128_S64x128_S64x128_S64x128_S256x128_d0 (ix2 n k) 0 (by show (0 : Nat) < 4; decide) S64x128 w0 rfl rfl 0 rfl (ix2 j k)
    (fun b hb => match b, hb with | ⟨0, _⟩, hb => absurd rfl hb | ⟨1, _⟩, _ => rfl) hn.symm
theorem stackB64_0 (b0 b1 b2 b3 : S64.Idx → EReal) (n : Fin 256) (j : Fin 64) (hn : n.val = 0 + j.val) :
    concatenate S256 0 [⟨S64, b0⟩, ⟨S64, b1⟩, ⟨S64, b2⟩, ⟨S64, b3⟩] Facts₀.concatenates_S64_S64_S64_S64_S256_d0 (ix1 n) = b0 (ix1 j) :=
  concatenate_apply_piece (α := EReal) 0 [⟨S64, b0⟩, ⟨S64, b1⟩, ⟨S64, b2⟩, ⟨S64, b3⟩] Facts₀.concatenates_S64_S64_S64_S64_S256_d0 (ix1 n) 0 (by show (0 : Nat) < 4; decide) S64 b0 rfl rfl 0 rfl (ix1 j)
    (fun b hb => match b, hb with | ⟨0, _⟩, hb => absurd rfl hb) hn.symm

theorem stackW64_1 (w0 w1 w2 w3 : S64x128.Idx → EReal) (n : Fin 256) (j : Fin 64) (k : Fin 128) (hn : n.val = 64 + j.val) :
    concatenate S256x128 0 [⟨S64x128, w0⟩, ⟨S64x128, w1⟩, ⟨S64x128, w2⟩, ⟨S64x128, w3⟩] Facts₀.concatenates_S64x128_S64x128_S64x128_S64x128_S256x128_d0 (ix2 n k) = w1 (ix2 j k) :=
  concatenate_apply_piece (α := EReal) 0 [⟨S64x128, w0⟩, ⟨S64x128, w1⟩, ⟨S64x128, w2⟩, ⟨S64x128, w3⟩] Facts₀.concatenates_S64x128_S64x128_S64x128_S64x128_S256x128_d0 (ix2 n k) 1 (by show (1 : Nat) < 4; decide) S64x128 w1 rfl rfl 64 rfl (ix2 j k)
    (fun b hb => match b, hb with | ⟨0, _⟩, hb => absurd rfl hb | ⟨1, _⟩, _ => rfl) hn.symm
theorem stackB64_1 (b0 b1 b2 b3 : S64.Idx → EReal) (n : Fin 256) (j : Fin 64) (hn : n.val = 64 + j.val) :
    concatenate S256 0 [⟨S64, b0⟩, ⟨S64, b1⟩, ⟨S64, b2⟩, ⟨S64, b3⟩] Facts₀.concatenates_S64_S64_S64_S64_S256_d0 (ix1 n) = b1 (ix1 j) :=
  concatenate_apply_piece (α := EReal) 0 [⟨S64, b0⟩, ⟨S64, b1⟩, ⟨S64, b2⟩, ⟨S64, b3⟩] Facts₀.concatenates_S64_S64_S64_S64_S256_d0 (ix1 n) 1 (by show (1 : Nat) < 4; decide) S64 b1 rfl rfl 64 rfl (ix1 j)
    (fun b hb => match b, hb with | ⟨0, _⟩, hb => absurd rfl hb) hn.symm

theorem stackW64_2 (w0 w1 w2 w3 : S64x128.Idx → EReal) (n : Fin 256) (j : Fin 64) (k : Fin 128) (hn : n.val = 128 + j.val) :
    concatenate S256x128 0 [⟨S64x128, w0⟩, ⟨S64x128, w1⟩, ⟨S64x128, w2⟩, ⟨S64x128, w3⟩] Facts₀.concatenates_S64x128_S64x128_S64x128_S64x128_S256x128_d0 (ix2 n k) = w2 (ix2 j k) :=
  concatenate_apply_piece (α := EReal) 0 [⟨S64x128, w0⟩, ⟨S64x128, w1⟩, ⟨S64x128, w2⟩, ⟨S64x128, w3⟩] Facts₀.concatenates_S64x128_S64x128_S64x128_S64x128_S256x128_d0 (ix2 n k) 2 (by show (2 : Nat) < 4; decide) S64x128 w2 rfl rfl 128 rfl (ix2 j k)
    (fun b hb => match b, hb with | ⟨0, _⟩, hb => absurd rfl hb | ⟨1, _⟩, _ => rfl) hn.symm
theorem stackB64_2 (b0 b1 b2 b3 : S64.Idx → EReal) (n : Fin 256) (j : Fin 64) (hn : n.val = 128 + j.val) :
    concatenate S256 0 [⟨S64, b0⟩, ⟨S64, b1⟩, ⟨S64, b2⟩, ⟨S64, b3⟩] Facts₀.concatenates_S64_S64_S64_S64_S256_d0 (ix1 n) = b2 (ix1 j) :=
  concatenate_apply_piece (α := EReal) 0 [⟨S64, b0⟩, ⟨S64, b1⟩, ⟨S64, b2⟩, ⟨S64, b3⟩] Facts₀.concatenates_S64_S64_S64_S64_S256_d0 (ix1 n) 2 (by show (2 : Nat) < 4; decide) S64 b2 rfl rfl 128 rfl (ix1 j)
    (fun b hb => match b, hb with | ⟨0, _⟩, hb => absurd rfl hb) hn.symm

theorem stackW64_3 (w0 w1 w2 w3 : S64x128.Idx → EReal) (n : Fin 256) (j : Fin 64) (k : Fin 128) (hn : n.val = 192 + j.val) :
    concatenate S256x128 0 [⟨S64x128, w0⟩, ⟨S64x128, w1⟩, ⟨S64x128, w2⟩, ⟨S64x128, w3⟩] Facts₀.concatenates_S64x128_S64x128_S64x128_S64x128_S256x128_d0 (ix2 n k) = w3 (ix2 j k) :=
  concatenate_apply_piece (α := EReal) 0 [⟨S64x128, w0⟩, ⟨S64x128, w1⟩, ⟨S64x128, w2⟩, ⟨S64x128, w3⟩] Facts₀.concatenates_S64x128_S64x128_S64x128_S64x128_S256x128_d0 (ix2 n k) 3 (by show (3 : Nat) < 4; decide) S64x128 w3 rfl rfl 192 rfl (ix2 j k)
    (fun b hb => match b, hb with | ⟨0, _⟩, hb => absurd rfl hb | ⟨1, _⟩, _ => rfl) hn.symm
theorem stackB64_3 (b0 b1 b2 b3 : S64.Idx → EReal) (n : Fin 256) (j : Fin 64) (hn : n.val = 192 + j.val) :
    concatenate S256 0 [⟨S64, b0⟩, ⟨S64, b1⟩, ⟨S64, b2⟩, ⟨S64, b3⟩] Facts₀.concatenates_S64_S64_S64_S64_S256_d0 (ix1 n) = b3 (ix1 j) :=
  concatenate_apply_piece (α := EReal) 0 [⟨S64, b0⟩, ⟨S64, b1⟩, ⟨S64, b2⟩, ⟨S64, b3⟩] Facts₀.concatenates_S64_S64_S64_S64_S256_d0 (ix1 n) 3 (by show (3 : Nat) < 4; decide) S64 b3 rfl rfl 192 rfl (ix1 j)
    (fun b hb => match b, hb with | ⟨0, _⟩, hb => absurd rfl hb) hn.symm

end Cert.Bridge

end
-- ==== Proof.Bridge.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.Bridge.Proj.lean ====
/-
  One projection of the reference at an entry.  The reference forms rows · weightsᵀ + bias as a general contraction
  against the transposed weight matrix and a bias broadcast over the rows; at row r and column j this is the sum over
  the 128 input features k of feature (r, k) · weight (j, k), plus bias j.
-/
import proofs.«104849_j8564164788984_2_alg».proof.Proof.Gen.ReferenceIdeal.Read
import proofs.«104849_j8564164788984_2_alg».proof.Proof.Bridge.Tail
import proofs.«104849_j8564164788984_2_alg».proof.Proof.Bridge.LibDotIx2
import proofs.«104849_j8564164788984_2_alg».proof.Proof.KI.Lin

set_option maxRecDepth 16384

noncomputable section

namespace Cert.Bridge

open Idealize.ShloMosaic Idealize.ShloMosaic.TcCoe Idealize.SL.Sem
open Cert.ReferenceIdeal Idealize.ShloMosaic.ValueIdx
open scoped BigOperators

/-- The reference's dimension numbers for rows · weightsᵀ are those of a plain matrix product. -/
theorem plain128 : PlainDot dot_S50000x128_S128x128_S50000x128_1_0_0_1_n_n :=
  ⟨rfl, rfl, Cert.ReferenceIdeal.Read.lhs_main_v5_0, Cert.ReferenceIdeal.Read.lhs_main_v5_1, Cert.ReferenceIdeal.Read.rhs_main_v5_0, Cert.ReferenceIdeal.Read.rhs_main_v5_1⟩

/-- A reference projection at row `r`, column `j`: the sum over the 128 input features of feature × weight, plus the bias. -/
theorem lin128_ix (x : S50000x128.Idx → EReal) (w : S128x128.Idx → EReal) (b : S128.Idx → EReal) (r : Fin 50000) (j : Fin 128) :
    lin128 (F := Ideal) x w b (ix2 r j) = Cert.Hand.lin x w b r j := by
  have h1 : Host.dotGeneral (F := Ideal) (φ₁ := .f32) (φ₂ := .f32) dot_S50000x128_S128x128_S50000x128_1_0_0_1_n_n none (x : FVec Ideal S50000x128 .f32) (transpose S128x128 [1, 0] (w : FVec Ideal S128x128 .f32) Facts₀.transposes_S128x128_S128x128_1_0) (ix2 r j)
      = ∑ k : Fin 128, x (ix2 r k) * w (ix2 j k) := by
    simp only [Host.dotGeneral]
    refine (dotGeneral_ix2_any plain128 _ _ _ _ r j).trans ?_
    refine Finset.sum_congr rfl fun k _ => ?_
    rw [transpose_apply [1, 0] w Facts₀.transposes_S128x128_S128x128_1_0 (ix2 k j) (ix2 j k) (fun b => match b with | ⟨0, _⟩ => rfl | ⟨1, _⟩ => rfl)]
  have h2 : broadcastInDim S50000x128 ![0, 1] Facts₀.bcast_S1x128_S50000x128_0_1 (broadcastInDim S1x128 ![1] Facts₀.bcast_S128_S1x128_1 b) (ix2 r j) = b (ix1 j) := by
    rw [broadcastInDim_apply _ Facts₀.bcast_S1x128_S50000x128_0_1 _ (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])]
    exact broadcastInDim_apply _ Facts₀.bcast_S128_S1x128_1 b _ (ix1 j) (fun a => match a with
      | ⟨0, _⟩ => by show j.val = if (128 : Nat) = 1 then 0 else j.val; rw [if_neg (by decide)])
  unfold lin128 Cert.Hand.lin
  exact congrArg₂ (· + ·) h1 h2

/-- The reference's dimension numbers for rows · weightsᵀ are those of a plain matrix product. -/
theorem plain64 : PlainDot dot_S50000x128_S128x64_S50000x64_1_0_0_1_n_n :=
  ⟨rfl, rfl, Cert.ReferenceIdeal.Read.lhs_main_v59_0, Cert.ReferenceIdeal.Read.lhs_main_v59_1, Cert.ReferenceIdeal.Read.rhs_main_v59_0, Cert.ReferenceIdeal.Read.rhs_main_v59_1⟩

/-- A reference projection at row `r`, column `j`: the sum over the 128 input features of feature × weight, plus the bias. -/
theorem lin64_ix (x : S50000x128.Idx → EReal) (w : S64x128.Idx → EReal) (b : S64.Idx → EReal) (r : Fin 50000) (j : Fin 64) :
    lin64 (F := Ideal) x w b (ix2 r j) = Cert.Hand.lin x w b r j := by
  have h1 : Host.dotGeneral (F := Ideal) (φ₁ := .f32) (φ₂ := .f32) dot_S50000x128_S128x64_S50000x64_1_0_0_1_n_n none (x : FVec Ideal S50000x128 .f32) (transpose S128x64 [1, 0] (w : FVec Ideal S64x128 .f32) Facts₀.transposes_S64x128_S128x64_1_0) (ix2 r j)
      = ∑ k : Fin 128, x (ix2 r k) * w (ix2 j k) := by
    simp only [Host.dotGeneral]
    refine (dotGeneral_ix2_any plain64 _ _ _ _ r j).trans ?_
    refine Finset.sum_congr rfl fun k _ => ?_
    rw [transpose_apply [1, 0] w Facts₀.transposes_S64x128_S128x64_1_0 (ix2 k j) (ix2 j k) (fun b => match b with | ⟨0, _⟩ => rfl | ⟨1, _⟩ => rfl)]
  have h2 : broadcastInDim S50000x64 ![0, 1] Facts₀.bcast_S1x64_S50000x64_0_1 (broadcastInDim S1x64 ![1] Facts₀.bcast_S64_S1x64_1 b) (ix2 r j) = b (ix1 j) := by
    rw [broadcastInDim_apply _ Facts₀.bcast_S1x64_S50000x64_0_1 _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])]
    exact broadcastInDim_apply _ Facts₀.bcast_S64_S1x64_1 b _ (ix1 j) (fun a => match a with
      | ⟨0, _⟩ => by show j.val = if (64 : Nat) = 1 then 0 else j.val; rw [if_neg (by decide)])
  unfold lin64 Cert.Hand.lin
  exact congrArg₂ (· + ·) h1 h2

end Cert.Bridge

end
-- ==== Proof.Bridge.Slices.lean ====
/-
  The kernel's projection outputs against the reference's four projections.  A projection kernel leaves, at row r and
  column j of its first output, entry (r, j) of features · (stacked weights)ᵀ + stacked bias, and in its second output
  the entries of the last quarter of the columns.  Row n of the stacked weights is a row of one of the four matrices, so
  the three column bands of the first output are the key, query and value projections of the reference and the second
  output is its skip projection, entry by entry: the same 128 products summed in the same order, plus the same bias.
-/
import proofs.«104849_j8564164788984_2_alg».proof.Proof.Bridge.Stack
import proofs.«104849_j8564164788984_2_alg».proof.Proof.Bridge.Proj

set_option maxRecDepth 16384

noncomputable section

namespace Cert.Bridge

open Idealize.ShloMosaic Idealize.ShloMosaic.TcCoe Idealize.SL.Sem
open Cert.KernelIdeal Idealize.ShloMosaic.ValueIdx

/-! ## First layer -/

/-- Columns [0, 128) of the kernel's first output are the reference's key projection. -/
theorem slice128_0 (X : S50000x128.Idx → EReal) (w0 w1 w2 w3 : S128x128.Idx → EReal) (b0 b1 b2 b3 : S128.Idx → EReal) :
    (extractStridedSlice S50000x128 ![0, 0] (Cert.Hand.linCols (R := 50000) (N := 512) (M := 384) 0 (by decide) X (concatenate S512x128 0 [⟨S128x128, w0⟩, ⟨S128x128, w1⟩, ⟨S128x128, w2⟩, ⟨S128x128, w3⟩] Facts₀.concatenates_S128x128_S128x128_S128x128_S128x128_S512x128_d0) (concatenate S512 0 [⟨S128, b0⟩, ⟨S128, b1⟩, ⟨S128, b2⟩, ⟨S128, b3⟩] Facts₀.concatenates_S128_S128_S128_S128_S512_d0)) Facts₀.slices_S50000x384_S50000x128_0_0 : S50000x128.Idx → EReal)
      = lin128 (F := Ideal) X w0 b0 := by
  funext i
  obtain ⟨r, j, rfl⟩ : ∃ (r : Fin 50000) (j : Fin 128), i = ix2 r j := ⟨i 0, i 1, eq_ix2 i⟩
  refine Eq.trans ?_ (lin128_ix X w0 b0 r j).symm
  refine (extractStridedSlice_apply ![0, 0] _ Facts₀.slices_S50000x384_S50000x128_0_0 (ix2 r j) (ix2 r (⟨0 + j.val, by omega⟩ : Fin 384)) (fun a => match a with
      | ⟨0, _⟩ => by show r.val = 0 + r.val; omega
      | ⟨1, _⟩ => by show 0 + j.val = 0 + j.val; rfl)).trans ?_
  rw [Cert.Hand.linCols_apply]
  exact Cert.Hand.lin_congr (fun k => rfl) (fun k => stackW128_0 w0 w1 w2 w3 _ j k (by show 0 + (0 + j.val) = 0 + j.val; omega))
    (stackB128_0 b0 b1 b2 b3 _ j (by show 0 + (0 + j.val) = 0 + j.val; omega))

/-- Columns [128, 256) of the kernel's first output are the reference's query projection. -/
theorem slice128_1 (X : S50000x128.Idx → EReal) (w0 w1 w2 w3 : S128x128.Idx → EReal) (b0 b1 b2 b3 : S128.Idx → EReal) :
    (extractStridedSlice S50000x128 ![0, 128] (Cert.Hand.linCols (R := 50000) (N := 512) (M := 384) 0 (by decide) X (concatenate S512x128 0 [⟨S128x128, w0⟩, ⟨S128x128, w1⟩, ⟨S128x128, w2⟩, ⟨S128x128, w3⟩] Facts₀.concatenates_S128x128_S128x128_S128x128_S128x128_S512x128_d0) (concatenate S512 0 [⟨S128, b0⟩, ⟨S128, b1⟩, ⟨S128, b2⟩, ⟨S128, b3⟩] Facts₀.concatenates_S128_S128_S128_S128_S512_d0)) Facts₀.slices_S50000x384_S50000x128_0_128 : S50000x128.Idx → EReal)
      = lin128 (F := Ideal) X w1 b1 := by
  funext i
  obtain ⟨r, j, rfl⟩ : ∃ (r : Fin 50000) (j : Fin 128), i = ix2 r j := ⟨i 0, i 1, eq_ix2 i⟩
  refine Eq.trans ?_ (lin128_ix X w1 b1 r j).symm
  refine (extractStridedSlice_apply ![0, 128] _ Facts₀.slices_S50000x384_S50000x128_0_128 (ix2 r j) (ix2 r (⟨128 + j.val, by omega⟩ : Fin 384)) (fun a => match a with
      | ⟨0, _⟩ => by show r.val = 0 + r.val; omega
      | ⟨1, _⟩ => by show 128 + j.val = 128 + j.val; rfl)).trans ?_
  rw [Cert.Hand.linCols_apply]
  exact Cert.Hand.lin_congr (fun k => rfl) (fun k => stackW128_1 w0 w1 w2 w3 _ j k (by show 0 + (128 + j.val) = 128 + j.val; omega))
    (stackB128_1 b0 b1 b2 b3 _ j (by show 0 + (128 + j.val) = 128 + j.val; omega))

/-- Columns [256, 384) of the kernel's first output are the reference's value projection. -/
theorem slice128_2 (X : S50000x128.Idx → EReal) (w0 w1 w2 w3 : S128x128.Idx → EReal) (b0 b1 b2 b3 : S128.Idx → EReal) :
    (extractStridedSlice S50000x128 ![0, 256] (Cert.Hand.linCols (R := 50000) (N := 512) (M := 384) 0 (by decide) X (concatenate S512x128 0 [⟨S128x128, w0⟩, ⟨S128x128, w1⟩, ⟨S128x128, w2⟩, ⟨S128x128, w3⟩] Facts₀.concatenates_S128x128_S128x128_S128x128_S128x128_S512x128_d0) (concatenate S512 0 [⟨S128, b0⟩, ⟨S128, b1⟩, ⟨S128, b2⟩, ⟨S128, b3⟩] Facts₀.concatenates_S128_S128_S128_S128_S512_d0)) Facts₀.slices_S50000x384_S50000x128_0_256 : S50000x128.Idx → EReal)
      = lin128 (F := Ideal) X w2 b2 := by
  funext i
  obtain ⟨r, j, rfl⟩ : ∃ (r : Fin 50000) (j : Fin 128), i = ix2 r j := ⟨i 0, i 1, eq_ix2 i⟩
  refine Eq.trans ?_ (lin128_ix X w2 b2 r j).symm
  refine (extractStridedSlice_apply ![0, 256] _ Facts₀.slices_S50000x384_S50000x128_0_256 (ix2 r j) (ix2 r (⟨256 + j.val, by omega⟩ : Fin 384)) (fun a => match a with
      | ⟨0, _⟩ => by show r.val = 0 + r.val; omega
      | ⟨1, _⟩ => by show 256 + j.val = 256 + j.val; rfl)).trans ?_
  rw [Cert.Hand.linCols_apply]
  exact Cert.Hand.lin_congr (fun k => rfl) (fun k => stackW128_2 w0 w1 w2 w3 _ j k (by show 0 + (256 + j.val) = 256 + j.val; omega))
    (stackB128_2 b0 b1 b2 b3 _ j (by show 0 + (256 + j.val) = 256 + j.val; omega))

/-- The kernel's second output is the reference's skip projection. -/
theorem skip128 (X : S50000x128.Idx → EReal) (w0 w1 w2 w3 : S128x128.Idx → EReal) (b0 b1 b2 b3 : S128.Idx → EReal) :
    (Cert.Hand.linCols (R := 50000) (N := 512) (M := 128) 384 (by decide) X (concatenate S512x128 0 [⟨S128x128, w0⟩, ⟨S128x128, w1⟩, ⟨S128x128, w2⟩, ⟨S128x128, w3⟩] Facts₀.concatenates_S128x128_S128x128_S128x128_S128x128_S512x128_d0) (concatenate S512 0 [⟨S128, b0⟩, ⟨S128, b1⟩, ⟨S128, b2⟩, ⟨S128, b3⟩] Facts₀.concatenates_S128_S128_S128_S128_S512_d0) : S50000x128.Idx → EReal)
      = lin128 (F := Ideal) X w3 b3 := by
  funext i
  obtain ⟨r, j, rfl⟩ : ∃ (r : Fin 50000) (j : Fin 128), i = ix2 r j := ⟨i 0, i 1, eq_ix2 i⟩
  refine Eq.trans ?_ (lin128_ix X w3 b3 r j).symm
  rw [Cert.Hand.linCols_apply]
  exact Cert.Hand.lin_congr (fun k => rfl) (fun k => stackW128_3 w0 w1 w2 w3 _ j k rfl) (stackB128_3 b0 b1 b2 b3 _ j rfl)

/-! ## Second layer -/

/-- Columns [0, 64) of the kernel's first output are the reference's key projection. -/
theorem slice64_0 (X : S50000x128.Idx → EReal) (w0 w1 w2 w3 : S64x128.Idx → EReal) (b0 b1 b2 b3 : S64.Idx → EReal) :
    (extractStridedSlice S50000x64 ![0, 0] (Cert.Hand.linCols (R := 50000) (N := 256) (M := 192) 0 (by decide) X (concatenate S256x128 0 [⟨S64x128, w0⟩, ⟨S64x128, w1⟩, ⟨S64x128, w2⟩, ⟨S64x128, w3⟩] Facts₀.concatenates_S64x128_S64x128_S64x128_S64x128_S256x128_d0) (concatenate S256 0 [⟨S64, b0⟩, ⟨S64, b1⟩, ⟨S64, b2⟩, ⟨S64, b3⟩] Facts₀.concatenates_S64_S64_S64_S64_S256_d0)) Facts₀.slices_S50000x192_S50000x64_0_0 : S50000x64.Idx → EReal)
      = lin64 (F := Ideal) X w0 b0 := by
  funext i
  obtain ⟨r, j, rfl⟩ : ∃ (r : Fin 50000) (j : Fin 64), i = ix2 r j := ⟨i 0, i 1, eq_ix2 i⟩
  refine Eq.trans ?_ (lin64_ix X w0 b0 r j).symm
  refine (extractStridedSlice_apply ![0, 0] _ Facts₀.slices_S50000x192_S50000x64_0_0 (ix2 r j) (ix2 r (⟨0 + j.val, by omega⟩ : Fin 192)) (fun a => match a with
      | ⟨0, _⟩ => by show r.val = 0 + r.val; omega
      | ⟨1, _⟩ => by show 0 + j.val = 0 + j.val; rfl)).trans ?_
  rw [Cert.Hand.linCols_apply]
  exact Cert.Hand.lin_congr (fun k => rfl) (fun k => stackW64_0 w0 w1 w2 w3 _ j k (by show 0 + (0 + j.val) = 0 + j.val; omega))
    (stackB64_0 b0 b1 b2 b3 _ j (by show 0 + (0 + j.val) = 0 + j.val; omega))

/-- Columns [64, 128) of the kernel's first output are the reference's query projection. -/
theorem slice64_1 (X : S50000x128.Idx → EReal) (w0 w1 w2 w3 : S64x128.Idx → EReal) (b0 b1 b2 b3 : S64.Idx → EReal) :
    (extractStridedSlice S50000x64 ![0, 64] (Cert.Hand.linCols (R := 50000) (N := 256) (M := 192) 0 (by decide) X (concatenate S256x128 0 [⟨S64x128, w0⟩, ⟨S64x128, w1⟩, ⟨S64x128, w2⟩, ⟨S64x128, w3⟩] Facts₀.concatenates_S64x128_S64x128_S64x128_S64x128_S256x128_d0) (concatenate S256 0 [⟨S64, b0⟩, ⟨S64, b1⟩, ⟨S64, b2⟩, ⟨S64, b3⟩] Facts₀.concatenates_S64_S64_S64_S64_S256_d0)) Facts₀.slices_S50000x192_S50000x64_0_64 : S50000x64.Idx → EReal)
      = lin64 (F := Ideal) X w1 b1 := by
  funext i
  obtain ⟨r, j, rfl⟩ : ∃ (r : Fin 50000) (j : Fin 64), i = ix2 r j := ⟨i 0, i 1, eq_ix2 i⟩
  refine Eq.trans ?_ (lin64_ix X w1 b1 r j).symm
  refine (extractStridedSlice_apply ![0, 64] _ Facts₀.slices_S50000x192_S50000x64_0_64 (ix2 r j) (ix2 r (⟨64 + j.val, by omega⟩ : Fin 192)) (fun a => match a with
      | ⟨0, _⟩ => by show r.val = 0 + r.val; omega
      | ⟨1, _⟩ => by show 64 + j.val = 64 + j.val; rfl)).trans ?_
  rw [Cert.Hand.linCols_apply]
  exact Cert.Hand.lin_congr (fun k => rfl) (fun k => stackW64_1 w0 w1 w2 w3 _ j k (by show 0 + (64 + j.val) = 64 + j.val; omega))
    (stackB64_1 b0 b1 b2 b3 _ j (by show 0 + (64 + j.val) = 64 + j.val; omega))

/-- Columns [128, 192) of the kernel's first output are the reference's value projection. -/
theorem slice64_2 (X : S50000x128.Idx → EReal) (w0 w1 w2 w3 : S64x128.Idx → EReal) (b0 b1 b2 b3 : S64.Idx → EReal) :
    (extractStridedSlice S50000x64 ![0, 128] (Cert.Hand.linCols (R := 50000) (N := 256) (M := 192) 0 (by decide) X (concatenate S256x128 0 [⟨S64x128, w0⟩, ⟨S64x128, w1⟩, ⟨S64x128, w2⟩, ⟨S64x128, w3⟩] Facts₀.concatenates_S64x128_S64x128_S64x128_S64x128_S256x128_d0) (concatenate S256 0 [⟨S64, b0⟩, ⟨S64, b1⟩, ⟨S64, b2⟩, ⟨S64, b3⟩] Facts₀.concatenates_S64_S64_S64_S64_S256_d0)) Facts₀.slices_S50000x192_S50000x64_0_128 : S50000x64.Idx → EReal)
      = lin64 (F := Ideal) X w2 b2 := by
  funext i
  obtain ⟨r, j, rfl⟩ : ∃ (r : Fin 50000) (j : Fin 64), i = ix2 r j := ⟨i 0, i 1, eq_ix2 i⟩
  refine Eq.trans ?_ (lin64_ix X w2 b2 r j).symm
  refine (extractStridedSlice_apply ![0, 128] _ Facts₀.slices_S50000x192_S50000x64_0_128 (ix2 r j) (ix2 r (⟨128 + j.val, by omega⟩ : Fin 192)) (fun a => match a with
      | ⟨0, _⟩ => by show r.val = 0 + r.val; omega
      | ⟨1, _⟩ => by show 128 + j.val = 128 + j.val; rfl)).trans ?_
  rw [Cert.Hand.linCols_apply]
  exact Cert.Hand.lin_congr (fun k => rfl) (fun k => stackW64_2 w0 w1 w2 w3 _ j k (by show 0 + (128 + j.val) = 128 + j.val; omega))
    (stackB64_2 b0 b1 b2 b3 _ j (by show 0 + (128 + j.val) = 128 + j.val; omega))

/-- The kernel's second output is the reference's skip projection. -/
theorem skip64 (X : S50000x128.Idx → EReal) (w0 w1 w2 w3 : S64x128.Idx → EReal) (b0 b1 b2 b3 : S64.Idx → EReal) :
    (Cert.Hand.linCols (R := 50000) (N := 256) (M := 64) 192 (by decide) X (concatenate S256x128 0 [⟨S64x128, w0⟩, ⟨S64x128, w1⟩, ⟨S64x128, w2⟩, ⟨S64x128, w3⟩] Facts₀.concatenates_S64x128_S64x128_S64x128_S64x128_S256x128_d0) (concatenate S256 0 [⟨S64, b0⟩, ⟨S64, b1⟩, ⟨S64, b2⟩, ⟨S64, b3⟩] Facts₀.concatenates_S64_S64_S64_S64_S256_d0) : S50000x64.Idx → EReal)
      = lin64 (F := Ideal) X w3 b3 := by
  funext i
  obtain ⟨r, j, rfl⟩ : ∃ (r : Fin 50000) (j : Fin 64), i = ix2 r j := ⟨i 0, i 1, eq_ix2 i⟩
  refine Eq.trans ?_ (lin64_ix X w3 b3 r j).symm
  rw [Cert.Hand.linCols_apply]
  exact Cert.Hand.lin_congr (fun k => rfl) (fun k => stackW64_3 w0 w1 w2 w3 _ j k rfl) (stackB64_3 b0 b1 b2 b3 _ j rfl)

end Cert.Bridge

end
-- ==== Proof.Bridge.KernelLayers.lean ====
/-
  The kernel program's layers as the reference's functions.  Each projection kernel's two outputs are the column bands
  of features · (stacked weights)ᵀ + stacked bias; the bands are the reference's key, query, value and skip projections;
  and what the program does with them afterwards is the reference's layer function, spelt with a widening that does
  nothing over the extended reals.  So the first layer's result is the reference's layer function of the reference's
  four projections of the node features, and the program's result is the reference's pooling tail of its second layer
  function of the four projections of the first layer's result.
-/
import proofs.«104849_j8564164788984_2_alg».proof.Proof.KI.Final0
import proofs.«104849_j8564164788984_2_alg».proof.Proof.KI.Final1
import proofs.«104849_j8564164788984_2_alg».proof.Proof.Bridge.KernelTerms
import proofs.«104849_j8564164788984_2_alg».proof.Proof.Bridge.Slices

set_option maxRecDepth 16384

noncomputable section

namespace Cert.Bridge

open Idealize.ShloMosaic Idealize.ShloMosaic.TcCoe Idealize.SL.Sem
open Cert.KernelIdeal Cert.KernelIdeal.Gen Cert.KernelIdeal.Hand Cert.Hand

variable (m : (ℓ : Loc nD τ sig) → Buf (Elt Ideal) ℓ)

/-- The edge lists are read the same way by both programs. -/
theorem srcOf_eq (e : (⟨S2x800000, .i32⟩ : BufTy).Contents (Elt Ideal)) : srcOf (F := Ideal) e = Cert.ReferenceIdeal.Read.val_main_v1 (F := Ideal) e := rfl
theorem dstOf_eq (e : (⟨S2x800000, .i32⟩ : BufTy).Contents (Elt Ideal)) : dstOf (F := Ideal) e = Cert.ReferenceIdeal.Read.val_main_v3 (F := Ideal) e := rfl

/-! ## First layer -/

theorem out0_3_eq (c : Dev nD) :
    W2 m c (Proc.devRef .tc main_v6_0) = linCols (R := 50000) (N := 512) (M := 384) 0 (by decide) (m ((c.tc : Thread nD τ).loc main_arg0)) (concatenate S512x128 0 [⟨S128x128, m ((c.tc : Thread nD τ).loc main_arg3)⟩, ⟨S128x128, m ((c.tc : Thread nD τ).loc main_arg5)⟩, ⟨S128x128, m ((c.tc : Thread nD τ).loc main_arg7)⟩, ⟨S128x128, m ((c.tc : Thread nD τ).loc main_arg9)⟩] Facts₀.concatenates_S128x128_S128x128_S128x128_S128x128_S512x128_d0) (concatenate S512 0 [⟨S128, m ((c.tc : Thread nD τ).loc main_arg4)⟩, ⟨S128, m ((c.tc : Thread nD τ).loc main_arg6)⟩, ⟨S128, m ((c.tc : Thread nD τ).loc main_arg8)⟩, ⟨S128, m ((c.tc : Thread nD τ).loc main_arg10)⟩] Facts₀.concatenates_S128_S128_S128_S128_S512_d0) := by
  refine ((W2_arr m c 3).trans (final0_3 (E1 m) c)).trans ?_
  show linCols (R := 50000) (N := 512) (M := 384) 0 _ (W1 m c (Proc.devRef .tc main_arg0)) (W1 m c (Proc.devRef .tc main_v4)) (W1 m c (Proc.devRef .tc main_v5)) = _
  rw [W1_arg0, W1_v4, W1_v5]

theorem out0_4_eq (c : Dev nD) :
    W2 m c (Proc.devRef .tc main_v6_1) = linCols (R := 50000) (N := 512) (M := 128) 384 (by decide) (m ((c.tc : Thread nD τ).loc main_arg0)) (concatenate S512x128 0 [⟨S128x128, m ((c.tc : Thread nD τ).loc main_arg3)⟩, ⟨S128x128, m ((c.tc : Thread nD τ).loc main_arg5)⟩, ⟨S128x128, m ((c.tc : Thread nD τ).loc main_arg7)⟩, ⟨S128x128, m ((c.tc : Thread nD τ).loc main_arg9)⟩] Facts₀.concatenates_S128x128_S128x128_S128x128_S128x128_S512x128_d0) (concatenate S512 0 [⟨S128, m ((c.tc : Thread nD τ).loc main_arg4)⟩, ⟨S128, m ((c.tc : Thread nD τ).loc main_arg6)⟩, ⟨S128, m ((c.tc : Thread nD τ).loc main_arg8)⟩, ⟨S128, m ((c.tc : Thread nD τ).loc main_arg10)⟩] Facts₀.concatenates_S128_S128_S128_S128_S512_d0) := by
  refine ((W2_arr m c 4).trans (final0_4 (E1 m) c)).trans ?_
  show linCols (R := 50000) (N := 512) (M := 128) 384 _ (W1 m c (Proc.devRef .tc main_arg0)) (W1 m c (Proc.devRef .tc main_v4)) (W1 m c (Proc.devRef .tc main_v5)) = _
  rw [W1_arg0, W1_v4, W1_v5]

/-- The first layer's result in the kernel program is the reference's layer function of the reference's projections. -/
theorem kernel_layer1 (c : Dev nD) :
    W4 m c (Proc.devRef .tc main_v46) =
      layerR128 (lin128 (m ((c.tc : Thread nD τ).loc main_arg0)) (m ((c.tc : Thread nD τ).loc main_arg3)) (m ((c.tc : Thread nD τ).loc main_arg4))) (lin128 (m ((c.tc : Thread nD τ).loc main_arg0)) (m ((c.tc : Thread nD τ).loc main_arg5)) (m ((c.tc : Thread nD τ).loc main_arg6)))
        (lin128 (m ((c.tc : Thread nD τ).loc main_arg0)) (m ((c.tc : Thread nD τ).loc main_arg7)) (m ((c.tc : Thread nD τ).loc main_arg8))) (lin128 (m ((c.tc : Thread nD τ).loc main_arg0)) (m ((c.tc : Thread nD τ).loc main_arg9)) (m ((c.tc : Thread nD τ).loc main_arg10)))
        (srcOf (m ((c.tc : Thread nD τ).loc main_arg1))) (dstOf (m ((c.tc : Thread nD τ).loc main_arg1))) := by
  rw [W4_v46, out0_3_eq, out0_4_eq, W2_v1, W1_v1, W2_v3, W1_v3, slice128_0, slice128_1, slice128_2, skip128]
  exact layerK128_eq _ _ _ _ _ _

/-! ## Second layer and the pooling tail -/

theorem out1_3_eq (c : Dev nD) :
    W6 m c (Proc.devRef .tc main_v49_0) = linCols (R := 50000) (N := 256) (M := 192) 0 (by decide) (W4 m c (Proc.devRef .tc main_v46)) (concatenate S256x128 0 [⟨S64x128, m ((c.tc : Thread nD τ).loc main_arg11)⟩, ⟨S64x128, m ((c.tc : Thread nD τ).loc main_arg13)⟩, ⟨S64x128, m ((c.tc : Thread nD τ).loc main_arg15)⟩, ⟨S64x128, m ((c.tc : Thread nD τ).loc main_arg17)⟩] Facts₀.concatenates_S64x128_S64x128_S64x128_S64x128_S256x128_d0) (concatenate S256 0 [⟨S64, m ((c.tc : Thread nD τ).loc main_arg12)⟩, ⟨S64, m ((c.tc : Thread nD τ).loc main_arg14)⟩, ⟨S64, m ((c.tc : Thread nD τ).loc main_arg16)⟩, ⟨S64, m ((c.tc : Thread nD τ).loc main_arg18)⟩] Facts₀.concatenates_S64_S64_S64_S64_S256_d0) := by
  refine ((W6_arr m c 3).trans (final1_3 (E5 m) c)).trans ?_
  show linCols (R := 50000) (N := 256) (M := 192) 0 _ (W5 m c (Proc.devRef .tc main_v46)) (W5 m c (Proc.devRef .tc main_v47)) (W5 m c (Proc.devRef .tc main_v48)) = _
  rw [W5_v46, W5_v47, W5_v48, W2_arg11, W2_arg12, W2_arg13, W2_arg14, W2_arg15, W2_arg16, W2_arg17, W2_arg18,
    W1_arg11, W1_arg12, W1_arg13, W1_arg14, W1_arg15, W1_arg16, W1_arg17, W1_arg18]

theorem out1_4_eq (c : Dev nD) :
    W6 m c (Proc.devRef .tc main_v49_1) = linCols (R := 50000) (N := 256) (M := 64) 192 (by decide) (W4 m c (Proc.devRef .tc main_v46)) (concatenate S256x128 0 [⟨S64x128, m ((c.tc : Thread nD τ).loc main_arg11)⟩, ⟨S64x128, m ((c.tc : Thread nD τ).loc main_arg13)⟩, ⟨S64x128, m ((c.tc : Thread nD τ).loc main_arg15)⟩, ⟨S64x128, m ((c.tc : Thread nD τ).loc main_arg17)⟩] Facts₀.concatenates_S64x128_S64x128_S64x128_S64x128_S256x128_d0) (concatenate S256 0 [⟨S64, m ((c.tc : Thread nD τ).loc main_arg12)⟩, ⟨S64, m ((c.tc : Thread nD τ).loc main_arg14)⟩, ⟨S64, m ((c.tc : Thread nD τ).loc main_arg16)⟩, ⟨S64, m ((c.tc : Thread nD τ).loc main_arg18)⟩] Facts₀.concatenates_S64_S64_S64_S64_S256_d0) := by
  refine ((W6_arr m c 4).trans (final1_4 (E5 m) c)).trans ?_
  show linCols (R := 50000) (N := 256) (M := 64) 192 _ (W5 m c (Proc.devRef .tc main_v46)) (W5 m c (Proc.devRef .tc main_v47)) (W5 m c (Proc.devRef .tc main_v48)) = _
  rw [W5_v46, W5_v47, W5_v48, W2_arg11, W2_arg12, W2_arg13, W2_arg14, W2_arg15, W2_arg16, W2_arg17, W2_arg18,
    W1_arg11, W1_arg12, W1_arg13, W1_arg14, W1_arg15, W1_arg16, W1_arg17, W1_arg18]

/-- The kernel program's result is the reference's pooling tail of the reference's second layer function of the four
    projections of the first layer's result. -/
theorem kernel_result (c : Dev nD) :
    W9 m c (Proc.devRef .tc main_v106) =
      poolR (layerR64 (lin64 (W4 m c (Proc.devRef .tc main_v46)) (m ((c.tc : Thread nD τ).loc main_arg11)) (m ((c.tc : Thread nD τ).loc main_arg12))) (lin64 (W4 m c (Proc.devRef .tc main_v46)) (m ((c.tc : Thread nD τ).loc main_arg13)) (m ((c.tc : Thread nD τ).loc main_arg14)))
          (lin64 (W4 m c (Proc.devRef .tc main_v46)) (m ((c.tc : Thread nD τ).loc main_arg15)) (m ((c.tc : Thread nD τ).loc main_arg16))) (lin64 (W4 m c (Proc.devRef .tc main_v46)) (m ((c.tc : Thread nD τ).loc main_arg17)) (m ((c.tc : Thread nD τ).loc main_arg18)))
          (srcOf (m ((c.tc : Thread nD τ).loc main_arg1))) (dstOf (m ((c.tc : Thread nD τ).loc main_arg1))))
        (m ((c.tc : Thread nD τ).loc main_arg2)) (m ((c.tc : Thread nD τ).loc main_arg19)) (m ((c.tc : Thread nD τ).loc main_arg20)) := by
  rw [W9_v106, out1_3_eq, out1_4_eq, W6_v1, W5_v1, W2_v1, W1_v1, W6_v3, W5_v3, W2_v3, W1_v3,
    W6_arg2, W5_arg2, W2_arg2, W1_arg2, W6_arg19, W5_arg19, W2_arg19, W1_arg19, W6_arg20, W5_arg20, W2_arg20, W1_arg20,
    slice64_0, slice64_1, slice64_2, skip64]
  rw [layerK64_eq]
  exact poolK_eq _ _ _ _

end Cert.Bridge

end
-- ==== Proof.Bridge.RefTerms.lean ====
/-
  The reference program, regrouped.  Its run is a chain of one stage per operation; read in groups, the chain is: four
  projections of the node features (rows · weightsᵀ + bias, one per weight matrix), the message-passing layer applied to
  them and the edge lists, four projections of that layer's result, the second layer, and the pooling tail.  Each
  statement here only regroups the chain's own operations under the names of the layer functions: nothing is computed.
-/
import proofs.«104849_j8564164788984_2_alg».proof.Proof.Gen.ReferenceIdeal.Read
import proofs.«104849_j8564164788984_2_alg».proof.Proof.Bridge.Tail

set_option maxRecDepth 16384

noncomputable section

namespace Cert.Bridge

open Idealize.ShloMosaic Idealize.ShloMosaic.TcCoe Idealize.SL.Sem
open Cert.ReferenceIdeal Cert.ReferenceIdeal.Read

variable {F : FTy → Type} [FloatOps F]

/-- The reference's four first-layer projections are one function of the features, a weight matrix and a bias. -/
theorem ref_key1 (x0 : (⟨S50000x128, .f32⟩ : BufTy).Contents (Elt F)) (x3 : (⟨S128x128, .f32⟩ : BufTy).Contents (Elt F)) (x4 : (⟨S128, .f32⟩ : BufTy).Contents (Elt F)) : val_main_v8 (F := F) x0 x3 x4 = lin128 x0 x3 x4 := rfl
theorem ref_query1 (x0 : (⟨S50000x128, .f32⟩ : BufTy).Contents (Elt F)) (x5 : (⟨S128x128, .f32⟩ : BufTy).Contents (Elt F)) (x6 : (⟨S128, .f32⟩ : BufTy).Contents (Elt F)) : val_main_v13 (F := F) x0 x5 x6 = lin128 x0 x5 x6 := rfl
theorem ref_value1 (x0 : (⟨S50000x128, .f32⟩ : BufTy).Contents (Elt F)) (x7 : (⟨S128x128, .f32⟩ : BufTy).Contents (Elt F)) (x8 : (⟨S128, .f32⟩ : BufTy).Contents (Elt F)) : val_main_v18 (F := F) x0 x7 x8 = lin128 x0 x7 x8 := rfl
theorem ref_skip1 (x0 : (⟨S50000x128, .f32⟩ : BufTy).Contents (Elt F)) (x9 : (⟨S128x128, .f32⟩ : BufTy).Contents (Elt F)) (x10 : (⟨S128, .f32⟩ : BufTy).Contents (Elt F)) : val_main_v55 (F := F) x0 x9 x10 = lin128 x0 x9 x10 := rfl

/-- The first layer's result: the layer function of the four projections and the two edge lists. -/
theorem ref_layer1 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v57 (F := F) x0 x1 x3 x4 x5 x6 x7 x8 x9 x10 = layerR128 (lin128 x0 x3 x4) (lin128 x0 x5 x6) (lin128 x0 x7 x8) (lin128 x0 x9 x10) (val_main_v1 (F := F) x1) (val_main_v3 (F := F) x1) := rfl

/-- The second layer's result, over the first layer's result `h`. -/
theorem ref_layer2 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S64x128, .f32⟩ : BufTy).Contents (Elt F)) (x12 : (⟨S64, .f32⟩ : BufTy).Contents (Elt F)) (x13 : (⟨S64x128, .f32⟩ : BufTy).Contents (Elt F)) (x14 : (⟨S64, .f32⟩ : BufTy).Contents (Elt F)) (x15 : (⟨S64x128, .f32⟩ : BufTy).Contents (Elt F)) (x16 : (⟨S64, .f32⟩ : BufTy).Contents (Elt F)) (x17 : (⟨S64x128, .f32⟩ : BufTy).Contents (Elt F)) (x18 : (⟨S64, .f32⟩ : BufTy).Contents (Elt F)) :
    val_main_v111 (F := F) x0 x1 x3 x4 x5 x6 x7 x8 x9 x10 x11 x12 x13 x14 x15 x16 x17 x18 = layerR64 (lin64 (val_main_v57 (F := F) x0 x1 x3 x4 x5 x6 x7 x8 x9 x10) x11 x12) (lin64 (val_main_v57 (F := F) x0 x1 x3 x4 x5 x6 x7 x8 x9 x10) x13 x14) (lin64 (val_main_v57 (F := F) x0 x1 x3 x4 x5 x6 x7 x8 x9 x10) x15 x16) (lin64 (val_main_v57 (F := F) x0 x1 x3 x4 x5 x6 x7 x8 x9 x10) x17 x18) (val_main_v1 (F := F) x1) (val_main_v3 (F := F) x1) := rfl

/-- The program's result: the pooling tail of the second layer's result. -/
theorem ref_result (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S64x128, .f32⟩ : BufTy).Contents (Elt F)) (x12 : (⟨S64, .f32⟩ : BufTy).Contents (Elt F)) (x13 : (⟨S64x128, .f32⟩ : BufTy).Contents (Elt F)) (x14 : (⟨S64, .f32⟩ : BufTy).Contents (Elt F)) (x15 : (⟨S64x128, .f32⟩ : BufTy).Contents (Elt F)) (x16 : (⟨S64, .f32⟩ : BufTy).Contents (Elt F)) (x17 : (⟨S64x128, .f32⟩ : BufTy).Contents (Elt F)) (x18 : (⟨S64, .f32⟩ : BufTy).Contents (Elt F)) (x19 : (⟨S2x64, .f32⟩ : BufTy).Contents (Elt F)) (x20 : (⟨S2, .f32⟩ : BufTy).Contents (Elt F)) :
    val_main_v128 (F := F) x0 x1 x2 x3 x4 x5 x6 x7 x8 x9 x10 x11 x12 x13 x14 x15 x16 x17 x18 x19 x20 = poolR (val_main_v111 (F := F) x0 x1 x3 x4 x5 x6 x7 x8 x9 x10 x11 x12 x13 x14 x15 x16 x17 x18) x2 x19 x20 := rfl

end Cert.Bridge

end
-- ==== Proof.Bridge.Bridge.lean ====
/-
  The two programs compute the same result.  Run from memories that agree on the 21 arguments, the kernel program's
  result buffer and the reference's hold the same array: the reference's pooling tail of its second layer function of
  the four projections of its first layer function of the four projections of the node features.  The reference's side
  is its run regrouped; the kernel program's side is its buffers read back, with each projection kernel's outputs
  identified with the reference's projections entry by entry.  No finiteness is used: the two programs form the same
  sums of the same products in the same order.
-/
import proofs.«104849_j8564164788984_2_alg».proof.Proof.Bridge.KernelLayers
import proofs.«104849_j8564164788984_2_alg».proof.Proof.Bridge.RefTerms

set_option maxRecDepth 16384

noncomputable section

namespace Cert.Bridge

open Idealize.ShloMosaic Idealize.ShloMosaic.TcCoe Idealize.SL.Sem

theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.Hand.W9 (F := Ideal) m c (Proc.devRef .tc Cert.KernelIdeal.main_v106) = Cert.ReferenceIdeal.Value.res_main_v128 (F := Ideal) m' c := by
  obtain ⟨h0, h1, h2, h3, h4, h5, h6, h7, h8, h9, h10, h11, h12, h13, h14, h15, h16, h17, h18, h19, h20⟩ := hagree
  rw [Cert.ReferenceIdeal.Read.val_main_v128_eq, h0, h1, h2, h3, h4, h5, h6, h7, h8, h9, h10, h11, h12, h13, h14, h15, h16, h17, h18, h19, h20, ref_result, ref_layer2, ref_layer1,
    kernel_result, kernel_layer1, srcOf_eq, dstOf_eq]

end Cert.Bridge

end
-- ==== Proof.lean ====
/-
  A two-layer gated graph convolution followed by a mean over graphs and a linear map, computed two ways.
  The reference forms, per layer, four projections of the node features — keys, queries, values and a skip term,
  each rows · weightsᵀ + bias — then for every edge the gate 1 / (1 + exp (−(key of its target + query of its
  source))) times the value of its source, sums the gated values into their target rows, adds the skip term and
  cuts negative parts.  The kernel program stacks the four weight matrices and the four biases, forms the one
  product rows · stackedᵀ + stacked bias in a kernel over ten blocks of 5000 rows, and cuts the result into the same
  four bands of columns; keys, queries and values pass through a narrower float format on the way, which over the
  extended reals is the identity.  Column j of band b of the stacked product is the sum over the 128 input features
  of the row's entry times row (b · width + j) of the stacked matrix, plus entry (b · width + j) of the stacked bias:
  that row and that entry are row j of the b-th matrix and entry j of the b-th bias, so band b is the b-th projection
  of the reference, sum for sum; no law beyond re-indexing is used and no finiteness.  From there on both programs
  apply the same operations to equal arrays.
  The claims: both kernel programs (at machine words and at the extended reals) run to the end, fault nowhere and
  leave their arguments unchanged — nine segments, host stretches and the two kernel regions, each region's body run
  at a generic grid point —; the reference likewise, being a line of host operations; the idealization rewrote
  nothing; and at the extended reals the two results are equal, element by element.
-/
import proofs.«104849_j8564164788984_2_alg».proof.Defs
import proofs.«104849_j8564164788984_2_alg».proof.Proof.Gen.Kernel
import proofs.«104849_j8564164788984_2_alg».proof.Proof.Gen.KernelIdeal
import proofs.«104849_j8564164788984_2_alg».proof.Proof.Gen.ReferenceIdeal
import proofs.«104849_j8564164788984_2_alg».proof.Proof.Gen.Pre_finite_inputs
import proofs.«104849_j8564164788984_2_alg».proof.Proof.Gen.ReferenceIdeal.Read
import proofs.«104849_j8564164788984_2_alg».proof.Proof.K.Run
import proofs.«104849_j8564164788984_2_alg».proof.Proof.KI.Run
import proofs.«104849_j8564164788984_2_alg».proof.Proof.Bridge.Bridge
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_kernel : Cert.frame_Kernel := fun m ρ _ => Cert.Kernel.Hand.frame m ρ
/-- So does the idealized program. -/
theorem frame_kernelIdeal : Cert.frame_KernelIdeal := fun m ρ _ => Cert.KernelIdeal.Hand.frame m ρ
/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

open Cert.KernelIdeal Cert.KernelIdeal.Hand in
/-- At the extended reals both programs end with the same 64 × 2 result: the kernel program's is the last stage of
    the fold of buffer contents read at the result buffer, the reference's its composed term, and the two are equal. -/
theorem algebraic : Cert.algebraic_KernelIdeal_ReferenceIdeal := by
  intro m ρ m' ρ' _ hagree
  refine ⟨fun c => W9 (F := Ideal) m c (Proc.devRef .tc main_v106), ?_, ?_⟩
  · exact (θ_run Cert.KernelIdeal.defs _ _).mono (fun r h c => ⟨h c _ (mem_uc main_v106 (by decide)),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c),
      (h c _ (mem_uc main_arg11 (by decide))).trans (W9_main_arg11 m c),
      (h c _ (mem_uc main_arg12 (by decide))).trans (W9_main_arg12 m c),
      (h c _ (mem_uc main_arg13 (by decide))).trans (W9_main_arg13 m c),
      (h c _ (mem_uc main_arg14 (by decide))).trans (W9_main_arg14 m c),
      (h c _ (mem_uc main_arg15 (by decide))).trans (W9_main_arg15 m c),
      (h c _ (mem_uc main_arg16 (by decide))).trans (W9_main_arg16 m c),
      (h c _ (mem_uc main_arg17 (by decide))).trans (W9_main_arg17 m c),
      (h c _ (mem_uc main_arg18 (by decide))).trans (W9_main_arg18 m c),
      (h c _ (mem_uc main_arg19 (by decide))).trans (W9_main_arg19 m c),
      (h c _ (mem_uc main_arg20 (by decide))).trans (W9_main_arg20 m c)⟩) (run_all m ρ)
  · exact (θ_run Cert.ReferenceIdeal.defs _ _).mono (fun r h c => ⟨(h c).1.trans (Cert.Bridge.bridge m m' c (hagree c)).symm, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
